-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192x1 : Shape := ⟨3, ![4, 8192, 1]⟩
abbrev S4x8192 : Shape := ⟨2, ![4, 8192]⟩
abbrev S2x4x8192 : Shape := ⟨3, ![2, 4, 8192]⟩
abbrev S4x512 : Shape := ⟨2, ![4, 512]⟩
abbrev S4x1024 : Shape := ⟨2, ![4, 1024]⟩
abbrev S1x4x8192 : Shape := ⟨3, ![1, 4, 8192]⟩
abbrev S4x512x1 : Shape := ⟨3, ![4, 512, 1]⟩
abbrev S4x1x1024 : Shape := ⟨3, ![4, 1, 1024]⟩
abbrev S4x512x1024 : Shape := ⟨3, ![4, 512, 1024]⟩
abbrev S1x4x1024 : Shape := ⟨3, ![1, 4, 1024]⟩
abbrev S_ : Shape := ⟨0, ![]⟩

abbrev nBuf : Space → Nat
  | .hbm => 40
  | .vmem => 16
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x1, .f32⟩
  | .hbm, ⟨3, _⟩ => ⟨S4x8192, .f32⟩
  | .hbm, ⟨4, _⟩ => ⟨S4x8192x1, .f32⟩
  | .hbm, ⟨5, _⟩ => ⟨S4x8192, .f32⟩
  | .hbm, ⟨6, _⟩ => ⟨S4x8192x1, .f32⟩
  | .hbm, ⟨7, _⟩ => ⟨S4x8192, .f32⟩
  | .hbm, ⟨8, _⟩ => ⟨S4x8192x1, .f32⟩
  | .hbm, ⟨9, _⟩ => ⟨S4x8192, .f32⟩
  | .hbm, ⟨10, _⟩ => ⟨S4x8192x1, .f32⟩
  | .hbm, ⟨11, _⟩ => ⟨S4x8192, .f32⟩
  | .hbm, ⟨12, _⟩ => ⟨S4x8192x1, .f32⟩
  | .hbm, ⟨13, _⟩ => ⟨S4x8192, .f32⟩
  | .hbm, ⟨14, _⟩ => ⟨S4x8192, .f32⟩
  | .hbm, ⟨15, _⟩ => ⟨S2x4x8192, .f32⟩
  | .hbm, ⟨16, _⟩ => ⟨S1x4x8192, .f32⟩
  | .hbm, ⟨17, _⟩ => ⟨S4x8192, .f32⟩
  | .hbm, ⟨18, _⟩ => ⟨S1x4x8192, .f32⟩
  | .hbm, ⟨19, _⟩ => ⟨S4x8192, .f32⟩
  | .hbm, ⟨20, _⟩ => ⟨S4x8192, .f32⟩
  | .hbm, ⟨21, _⟩ => ⟨S_, .f32⟩
  | .hbm, ⟨22, _⟩ => ⟨S4x8192, .f32⟩
  | .hbm, ⟨23, _⟩ => ⟨S4x8192, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S4x8192, .f32⟩
  | .hbm, ⟨28, _⟩ => ⟨S4x8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x1024, .f32⟩
  | .local _ .vmem, ⟨7, _⟩ => ⟨S4x1024, .f32⟩
  | .local _ .vmem, ⟨8, _⟩ => ⟨S4x1024, .f32⟩
  | .local _ .vmem, ⟨9, _⟩ => ⟨S4x1024, .f32⟩
  | .local _ .vmem, ⟨10, _⟩ => ⟨S4x1024, .f32⟩
  | .local _ .vmem, ⟨11, _⟩ => ⟨S4x1024, .f32⟩
  | .local _ .vmem, ⟨12, _⟩ => ⟨S4x512, .f32⟩
  | .local _ .vmem, ⟨13, _⟩ => ⟨S4x512, .f32⟩
  | .local _ .vmem, ⟨14, _⟩ => ⟨S1x4x8192, .f32⟩
  | .local _ .vmem, ⟨15, _⟩ => ⟨S1x4x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12_0 : Ref sig .tc := ⟨.hbm, 14, rfl⟩
abbrev main_v12_1 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 8, 8], ![false, false, false]⟩

def k0_mult1 (i : grid0.Coords) : BitVec 32 :=
  let arg2 : BitVec 32 := BitVec.ofNat 32 (i 2).val
  let c1024_i32 : BitVec 32 := 1024#32
  let v65 : BitVec 32 := Scalar.muli arg2 c1024_i32
  v65
def k0_off1 (i : grid0.Coords) : Fin 3 → Nat :=
  let c0_23 : Index := 0#32
  let c0_24 : Index := 0#32
  let arg2 : BitVec 32 := BitVec.ofNat 32 (i 2).val
  let c1024_i32 : BitVec 32 := 1024#32
  let v65 : BitVec 32 := Scalar.muli arg2 c1024_i32
  let v66 : BitVec 32 := v65
  let v67 : Index := Scalar.indexCast v66
  ![0, 0, v67.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S4x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x4x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

class Facts₀ : Prop where
  slices_S4x8192x3_S4x8192x1_0_0_0 : S4x8192x3.Slices ![0, 0, 0] S4x8192x1
  shapeCasts_S4x8192x1_S4x8192 : S4x8192x1.ShapeCasts S4x8192
  slices_S4x8192x3_S4x8192x1_0_0_1 : S4x8192x3.Slices ![0, 0, 1] S4x8192x1
  slices_S4x8192x3_S4x8192x1_0_0_2 : S4x8192x3.Slices ![0, 0, 2] S4x8192x1
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  shapeCasts_S4x512_S4x512x1 : S4x512.ShapeCasts S4x512x1
  shapeCasts_S4x1024_S4x1x1024 : S4x1024.ShapeCasts S4x1x1024
  broadcasts_S4x512x1_S4x512x1024 : S4x512x1.Broadcasts S4x512x1024
  broadcasts_S4x1x1024_S4x512x1024 : S4x1x1024.Broadcasts S4x512x1024
  reduces_S4x512x1024_S4x512 : S4x512x1024.Reduces [2] S4x512
  reduces_S4x512x1024_S4x1024 : S4x512x1024.Reduces [1] S4x1024
  inb_S1x4x8192_S1x4x8192_0_0_0 : ∀ a, (![0, 0, 0] : Fin 3 → Nat) a + S1x4x8192.size a ≤ S1x4x8192.size a
  h_S1x4x8192 : 0 < S1x4x8192.numel
  shapeCasts_S1x4x8192_S4x8192 : S1x4x8192.ShapeCasts S4x8192
  shapeCasts_S4x8192_S1x4x8192 : S4x8192.ShapeCasts S1x4x8192
  h_S1x4x1024 : 0 < S1x4x1024.numel
  shapeCasts_S1x4x1024_S4x1024 : S1x4x1024.ShapeCasts S4x1024
  shapeCasts_S4x1024_S1x4x1024 : S4x1024.ShapeCasts S1x4x1024
  slices_S2x4x8192_S1x4x8192_0_0_0 : S2x4x8192.Slices ![0, 0, 0] S1x4x8192
  slices_S2x4x8192_S1x4x8192_1_0_0 : S2x4x8192.Slices ![1, 0, 0] S1x4x8192
  bcast_S_S4x8192 : S_.BroadcastsInDim S4x8192 (![] : Fin 0 → Fin S4x8192.rank)
  reducesTo_S4x8192_S_d0_1 : S4x8192.ReducesTo [0, 1] S_
  h_S_ : 0 < S_.numel
  hrank0 : 0 < grid0.rank
  k0_mult1_dvd : ∀ i : grid0.Coords, 1024 ∣ (k0_mult1 i).toNat
  k0_off1_inb : ∀ i : grid0.Coords, ∀ a, (k0_off1 i) a + S1x4x1024.size a ≤ S1x4x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512.size a ≤ S4x8192.size a
  hwx0_0 : ∀ i : grid0.Coords, EltTy.bits .f32 = 32 ∨ (Rect.block (s := S4x8192) S4x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512.size a ≤ S4x8192.size a
  hwx0_1 : ∀ i : grid0.Coords, EltTy.bits .f32 = 32 ∨ (Rect.block (s := S4x8192) S4x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x8192.size a
  hwx0_2 : ∀ i : grid0.Coords, EltTy.bits .f32 = 32 ∨ (Rect.block (s := S4x8192) S4x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1024.size a ≤ S4x8192.size a
  hwx0_3 : ∀ i : grid0.Coords, EltTy.bits .f32 = 32 ∨ (Rect.block (s := S4x8192) S4x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1024.size a ≤ S4x8192.size a
  hwx0_4 : ∀ i : grid0.Coords, EltTy.bits .f32 = 32 ∨ (Rect.block (s := S4x8192) S4x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x1024.size a ≤ S4x8192.size a
  hwx0_5 : ∀ i : grid0.Coords, EltTy.bits .f32 = 32 ∨ (Rect.block (s := S4x8192) S4x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x512.size a ≤ S4x8192.size a
  hwx0_6 : ∀ i : grid0.Coords, EltTy.bits .f32 = 32 ∨ (Rect.block (s := S4x8192) S4x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x4x8192.size a ≤ S2x4x8192.size a
  hwx0_7 : ∀ i : grid0.Coords, EltTy.bits .f32 = 32 ∨ (Rect.block (s := S2x4x8192) S1x4x8192.size (cc0_transform_7 i) (hinb0_7 i)).WholeWords (EltTy.packing .f32)

variable [Facts₀]

abbrev win0_0 : Pipeline.Window sig grid0 :=
  Pipeline.Window.ofSpec (Memref.whole main_v1) S4x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S4x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S4x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11) S4x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12_0) S4x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_1) S1x4x8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 33
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.AtWords.Cases.lean ====
/-
  The grid is (core, row tile, column tile) = 2 × 8 × 8, a point's position t = 64·core + 8·(row tile) + (column tile).
  The body branches twice on the point: the running row minimum is reset to +∞ where the column tile is 0
  (t ≡ 0 mod 8), and the running column minimum where row tile and column tile are both 0 (t ≡ 0 mod 64).
  So a point is in one of three cases: both reset, the row minimum alone, neither.
-/
import proofs.«115162_j6708738916982_2_alg».proof.Proof.Gen.Kernel.Launch
import proofs.«115162_j6708738916982_2_alg».proof.Proof.Gen.Kernel.Skeleton
import proofs.«115162_j6708738916982_2_alg».proof.Proof.Gen.Kernel.Points
import proofs.«115162_j6708738916982_2_alg».proof.Proof.Gen.Kernel.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Tiled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The row minimum is reset at this point: the column-tile coordinate is 0. -/
abbrev rowReset (i : grid0.Coords) : Prop :=
  (Scalar.cmpi .ne (Scalar.extui (Scalar.cmpi .eq (BitVec.ofNat 32 (i 2).val) 0#32)) 0#32) = 1#1
/-- The column minimum is reset at this point: row-tile and column-tile coordinates are both 0. -/
abbrev colReset (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

/-- The row minimum is reset exactly at the positions ≡ 0 (mod 8). -/
theorem rowReset_iff : ∀ t : Fin cfg0.N, rowReset (grid0.coords t) ↔ t.val % 8 = 0 :=
  (by decide +kernel : ∀ t : Fin grid0.N, rowReset (grid0.coords t) ↔ t.val % 8 = 0)
/-- The column minimum is reset exactly at the positions ≡ 0 (mod 64). -/
theorem colReset_iff : ∀ t : Fin cfg0.N, colReset (grid0.coords t) ↔ t.val % 64 = 0 :=
  (by decide +kernel : ∀ t : Fin grid0.N, colReset (grid0.coords t) ↔ t.val % 64 = 0)

/-- One staging buffer of each output, through which its contents are stated (which one does not matter). -/
abbrev rowView : View sig .tc .vmem S4x512 .f32 := (Memref.whole cc0_stg6_0 : Memref sig .tc .vmem S4x512 .f32).view
abbrev colView : View sig .tc .vmem S1x4x8192 .f32 := (Memref.whole cc0_stg7_0 : Memref sig .tc .vmem S1x4x8192 .f32).view

/-- Each window's current staging memref at position t, as the pipeline passes it to the body, and its wholeness. -/
abbrev ms0 (t : Fin cfg0.N) : Memref sig .tc .vmem S4x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S4x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x4x8192 .f32 := win0_7.stage (cfg0.slots t 7)
abbrev hs7 (t : Fin cfg0.N) : (ms7 t).IsWhole := hstage0_7 ((cfg0.slots t 7).cast nbuf0_7)

end Cert.Kernel.Tiled

end
-- ==== Proof.AtWords.RunCarry.lean ====
/-
  A point where neither running minimum is reset: the body reads the six coordinate blocks, reads the running row
  minimum and stores it back lowered by this tile's row minima, and does the same for the slice of the running column
  minimum that belongs to this column tile. Both output buffers are taken at given contents.
-/
import proofs.«115162_j6708738916982_2_alg».proof.Proof.AtWords.Cases

set_option maxRecDepth 16384

noncomputable section

namespace Cert.Kernel.Tiled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body makes into the two output buffers at such a point, newest first, with the proof that the body
    runs from whole staging buffers at the given contents to the continuation holding the inputs unchanged and each
    output buffer with those stores made. The lists are what the symbolic run finds. -/
noncomputable def runCarry (c : Dev nD) (i : grid0.Coords) (arg3 : Memref sig .tc .vmem S4x512 .f32) (harg3 : arg3.IsWhole) (arg4 : Memref sig .tc .vmem S4x512 .f32) (harg4 : arg4.IsWhole) (arg5 : Memref sig .tc .vmem S4x512 .f32) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S4x512 .f32) (harg9 : arg9.IsWhole) (arg10 : Memref sig .tc .vmem S1x4x8192 .f32) (harg10 : arg10.IsWhole)
    (hr : ¬rowReset i) (hcl : ¬colReset i) (x0 x1 x2 : Vec F S4x512 .f32) (x3 x4 x5 : Vec F S4x1024 .f32) (xo6 : Vec F S4x512 .f32) (xo7 : Vec F S1x4x8192 .f32) :
    { L : List (View.Piece (Elt F) S4x512 .f32) × List (View.Piece (Elt F) S1x4x8192 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ owns (c : Thread nD τ) arg9 fullShare xo6 ∗ owns (c : Thread nD τ) arg10 fullShare xo7
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
                ∗ (arg9.view.loc (c : Thread nD τ) ↦[arg9.view.set]{fullShare} arg9.view.writes (Elt F) (harg9.unread xo6) L.1)
                ∗ (arg10.view.loc (c : Thread nD τ) ↦[arg10.view.set]{fullShare} arg10.view.writes (Elt F) (harg10.unread xo7) L.2)) -∗ K ⟨⟩))
          ⊢ wp frame (wpE (defs₀ (F := F)) Variants.none c none) E (cc0__chamfer_kernel i arg3 harg3 arg4 harg4 arg5 harg5 arg6 harg6 arg7 harg7 arg8 harg8 arg9 harg9 arg10 harg10) K } := by
  refine ⟨(?_, ?_), fun E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hf7
    sl_exec (disch := first | exact hr | exact hcl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexact H6
    iexact H7

end Cert.Kernel.Tiled

end
-- ==== Proof.AtWords.RunRowReset.lean ====
/-
  A point where the running row minimum is reset but the running column minimum is not (column tile 0 of a later row
  tile): the row buffer is first filled with +∞, then read back and lowered by this tile's row minima, so what it held
  before does not matter; the column buffer is taken at given contents and its slice for column tile 0 lowered.
-/
import proofs.«115162_j6708738916982_2_alg».proof.Proof.AtWords.RunCarry

set_option maxRecDepth 16384

noncomputable section

namespace Cert.Kernel.Tiled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores into the two output buffers at such a point, newest first, with the proof that the body runs to the
    continuation holding the inputs unchanged and each output buffer with those stores made. -/
noncomputable def runRowReset (c : Dev nD) (i : grid0.Coords) (arg3 : Memref sig .tc .vmem S4x512 .f32) (harg3 : arg3.IsWhole) (arg4 : Memref sig .tc .vmem S4x512 .f32) (harg4 : arg4.IsWhole) (arg5 : Memref sig .tc .vmem S4x512 .f32) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S4x512 .f32) (harg9 : arg9.IsWhole) (arg10 : Memref sig .tc .vmem S1x4x8192 .f32) (harg10 : arg10.IsWhole)
    (hr : rowReset i) (hcl : ¬colReset i) (x0 x1 x2 : Vec F S4x512 .f32) (x3 x4 x5 : Vec F S4x1024 .f32) (xo7 : Vec F S1x4x8192 .f32) :
    { L : List (View.Piece (Elt F) S4x512 .f32) × List (View.Piece (Elt F) S1x4x8192 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ (∃ d, owns (c : Thread nD τ) arg9 fullShare d) ∗ owns (c : Thread nD τ) arg10 fullShare xo7
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
                ∗ (∃ f, arg9.view.loc (c : Thread nD τ) ↦[arg9.view.set]{fullShare} arg9.view.writes (Elt F) f L.1)
                ∗ (arg10.view.loc (c : Thread nD τ) ↦[arg10.view.set]{fullShare} arg10.view.writes (Elt F) (harg10.unread xo7) L.2)) -∗ K ⟨⟩))
          ⊢ wp frame (wpE (defs₀ (F := F)) Variants.none c none) E (cc0__chamfer_kernel i arg3 harg3 arg4 harg4 arg5 harg5 arg6 harg6 arg7 harg7 arg8 harg8 arg9 harg9 arg10 harg10) K } := by
  refine ⟨(?_, ?_), fun E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg10.eq_unread hf7
    sl_exec (disch := first | exact hr | exact hcl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; iexact H6
    iexact H7

end Cert.Kernel.Tiled

end
-- ==== Proof.AtWords.RunBothReset.lean ====
/-
  The first point of each core's sweep (row tile 0, column tile 0): both running minima are reset. Each output
  buffer is first filled with +∞ and then lowered by this tile's minima, so neither buffer's earlier contents matter.
-/
import proofs.«115162_j6708738916982_2_alg».proof.Proof.AtWords.RunRowReset

set_option maxRecDepth 16384

noncomputable section

namespace Cert.Kernel.Tiled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores into the two output buffers at such a point, newest first, with the proof that the body runs to the
    continuation holding the inputs unchanged and each output buffer with those stores made. -/
noncomputable def runBothReset (c : Dev nD) (i : grid0.Coords) (arg3 : Memref sig .tc .vmem S4x512 .f32) (harg3 : arg3.IsWhole) (arg4 : Memref sig .tc .vmem S4x512 .f32) (harg4 : arg4.IsWhole) (arg5 : Memref sig .tc .vmem S4x512 .f32) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S4x512 .f32) (harg9 : arg9.IsWhole) (arg10 : Memref sig .tc .vmem S1x4x8192 .f32) (harg10 : arg10.IsWhole)
    (hr : rowReset i) (hcl : colReset i) (x0 x1 x2 : Vec F S4x512 .f32) (x3 x4 x5 : Vec F S4x1024 .f32) :
    { L : List (View.Piece (Elt F) S4x512 .f32) × List (View.Piece (Elt F) S1x4x8192 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
                ∗ (∃ f, arg9.view.loc (c : Thread nD τ) ↦[arg9.view.set]{fullShare} arg9.view.writes (Elt F) f L.1)
                ∗ (∃ f, arg10.view.loc (c : Thread nD τ) ↦[arg10.view.set]{fullShare} arg10.view.writes (Elt F) f L.2)) -∗ K ⟨⟩))
          ⊢ wp frame (wpE (defs₀ (F := F)) Variants.none c none) E (cc0__chamfer_kernel i arg3 harg3 arg4 harg4 arg5 harg5 arg6 harg6 arg7 harg7 arg8 harg8 arg9 harg9 arg10 harg10) K } := by
  refine ⟨(?_, ?_), fun E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hr | exact hcl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; iexact H6
    iexists _; iexact H7

end Cert.Kernel.Tiled

end
-- ==== Proof.LibWritesOver.lean ====
/-
  What a run of unmasked stores through rectangles leaves in a buffer, as a function of what the buffer read
  before and of the stores alone — with no covering assumed: an index under some store reads the newest such
  store's payload, an index under none reads what was there.
-/
import Idealize.ShloMosaic.Lib.Pipeline.FrameBody

noncomputable section

namespace Cert.Lib

open Idealize.ShloMosaic

variable {sig : RefSig} {κ : Kind} {sp : Space} {s : Shape} {e : EltTy} {Val : EltTy → Type}

/-- The contents the stores `L` (newest first) leave over earlier contents `X`: each store's payload overlaid on
    its rectangle, oldest first. -/
def over (X : s.Idx → Val e) : List (View.Piece Val s e) → s.Idx → Val e
  | [] => X
  | p :: L => p.1.overlay (over X L) p.2

@[simp] theorem over_nil (X : s.Idx → Val e) : over X ([] : List (View.Piece Val s e)) = X := rfl
theorem over_cons (X : s.Idx → Val e) (p : View.Piece Val s e) (L : List (View.Piece Val s e)) :
    over X (p :: L) = p.1.overlay (over X L) p.2 := rfl

/-- Under the newest store the contents are its payload. -/
theorem over_cons_emb (X : s.Idx → Val e) (r : Rect s) (w : r.shape.Idx → Val e) (L : List (View.Piece Val s e))
    (x : r.shape.Idx) : over X (⟨r, w⟩ :: L) (r.emb x) = w x := by
  rw [over_cons]; exact r.overlay_emb _ _ x

/-- Off the newest store they are what the older stores left. -/
theorem over_cons_of_not_mem (X : s.Idx → Val e) (p : View.Piece Val s e) (L : List (View.Piece Val s e)) {y : s.Idx}
    (h : y ∉ p.1.set) : over X (p :: L) y = over X L y := by
  rw [over_cons]; exact p.1.overlay_of_not_mem _ _ h

/-- A buffer read back after the stores `L` is `over` of what it read before: for any view and earlier contents. -/
theorem read_writes_eq_over (v : View sig κ sp s e) (f : v.ty.Contents Val) :
    ∀ L : List (View.Piece Val s e), v.read Val (v.writes Val f L) = over (v.read Val f) L
  | [] => rfl
  | p :: L => by
    funext y
    by_cases hy : y ∈ p.1.set
    · obtain ⟨r, w⟩ := p
      obtain ⟨x, rfl⟩ : ∃ x, r.emb x = y := r.exists_idx_of_mem hy
      rw [View.read_writes_cons_emb, over_cons_emb]
    · have hy' : y ∉ Finset.univ.map p.1.emb := by rwa [Rect.map_emb_univ]
      rw [View.writes_cons, View.read_slice_write_of_not_mem p.1 _ _ _ hy', over_cons_of_not_mem _ p L hy,
        read_writes_eq_over v f L]

/-- When the stores cover the buffer, what was there before does not matter. -/
theorem over_eq_of_cover (X X' : s.Idx → Val e) :
    ∀ (L : List (View.Piece Val s e)) (y : s.Idx), (∃ p ∈ L, y ∈ p.1.set) → over X L y = over X' L y
  | [], _, h => by obtain ⟨_, hm, _⟩ := h; exact absurd hm List.not_mem_nil
  | p :: L, y, h => by
    by_cases hy : y ∈ p.1.set
    · obtain ⟨r, w⟩ := p
      obtain ⟨x, rfl⟩ : ∃ x, r.emb x = y := r.exists_idx_of_mem hy
      rw [over_cons_emb, over_cons_emb]
    · have hL : ∃ p' ∈ L, y ∈ p'.1.set := by
        obtain ⟨p', hm, hy'⟩ := h
        rcases List.mem_cons.mp hm with rfl | hm
        · exact absurd hy' hy
        · exact ⟨p', hm, hy'⟩
      rw [over_cons_of_not_mem _ p L hy, over_cons_of_not_mem _ p L hy]
      exact over_eq_of_cover X X' L y hL

/-! ## Stores through unit-stride rectangles, read at an index

A unit-stride rectangle at offsets `off` with extents `size` holds the index `y` exactly when
`off a ≤ y a < off a + size a` on every axis, and `y` is then its position `y − off`. -/

/-- An index at position `x` of the newest store's unit-stride rectangle reads that store's payload at `x`. -/
theorem over_cons_unit_of_mem (X : s.Idx → Val e) {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    over X ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact over_cons_emb X (Rect.unit off size inb) w L x

/-- An index that misses the newest store's unit-stride rectangle on some axis reads what the older stores left. -/
theorem over_cons_unit_of_not_mem (X : s.Idx → Val e) {off size : Fin s.rank → ℕ} (inb : ∀ a, off a + size a ≤ s.size a)
    (w : (Rect.unit off size inb).shape.Idx → Val e) (L : List (View.Piece Val s e)) (y : s.Idx)
    (a : Fin s.rank) (ha : (y a).val < off a ∨ off a + size a ≤ (y a).val) :
    over X ((⟨Rect.unit off size inb, w⟩ : View.Piece Val s e) :: L) y = over X L y := by
  refine over_cons_of_not_mem X _ L ?_
  show y ∉ (Rect.unit off size inb).set
  rw [Rect.mem_set_unit]
  intro hall
  have := hall a
  omega

/-- A newest store through the whole shape (offsets zero, however the zeros are spelt) leaves its payload. -/
theorem over_cons_unit_zero (X : s.Idx → Val e) {off : Fin s.rank → ℕ} (h : off = fun _ => 0)
    (inb : ∀ a, off a + s.size a ≤ s.size a) (w : s.Idx → Val e) (L : List (View.Piece Val s e)) :
    over X ((⟨Rect.unit off s.size inb, w⟩ : View.Piece Val s e) :: L) = w := by
  subst h; funext y
  have e' := over_cons_emb X (Rect.whole s) w L y
  rw [Rect.emb_whole_apply] at e'
  exact e'

/-- Where a load through a unit-stride rectangle reads: position `x` inside it is the index `off + x`. -/
theorem ld_unit_apply (X : s.Idx → Val e) {off size : Fin s.rank → ℕ} (inb : ∀ a, off a + size a ≤ s.size a)
    (x : (Rect.unit off size inb).shape.Idx) (y : s.Idx) (hx : ∀ a, (y a).val = off a + (x a).val) :
    View.ld X (Rect.unit off size inb) x = X y := by
  have hy : (Rect.unit off size inb).idx x = y := funext fun a => Fin.ext (by
    show off a + 1 * (x a).val = (y a).val
    rw [hx a, Nat.one_mul])
  show X ((Rect.unit off size inb).idx x) = X y
  rw [hy]

end Cert.Lib

end
-- ==== Proof.AtWords.Body.lean ====
/-
  The proof data of the tiled sweep and the body at every grid position.
  After the body at position t the row buffer holds the running minimum, over the column tiles met so far in this
  row tile, of the squared distances of the tile's 512 points of the first cloud; the column buffer holds, slice by
  slice, the running minimum over the row tiles met so far on this core. Both are defined by recursion on the
  position: at a reset position the stores cover the buffer and nothing earlier matters; elsewhere the stores are
  laid over what the position before left (the buffer is written back only at the last column tile, respectively
  the last position of the core's sweep, so it is still there).
-/
import proofs.«115162_j6708738916982_2_alg».proof.Proof.AtWords.RunBothReset
import proofs.«115162_j6708738916982_2_alg».proof.Proof.LibWritesOver

set_option maxRecDepth 16384

noncomputable section

namespace Cert.Kernel.Tiled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases at a position -/

/-- The run at a position where both minima are reset, on the position's staging buffers and input blocks. -/
def bothAt (c : Dev nD) (t : Fin cfg0.N) (h64 : t.val % 64 = 0) :=
  runBothReset (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t)
    ((rowReset_iff t).mpr (by omega)) ((colReset_iff t).mpr h64) (iblk m c 0 t) (iblk m c 1 t) (iblk m c 2 t) (iblk m c 3 t) (iblk m c 4 t) (iblk m c 5 t)
/-- The run at a position where the row minimum alone is reset, the column buffer holding `xo7`. -/
def rowAt (c : Dev nD) (t : Fin cfg0.N) (h8 : t.val % 8 = 0) (h64 : ¬t.val % 64 = 0) (xo7 : Vec F S1x4x8192 .f32) :=
  runRowReset (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t)
    ((rowReset_iff t).mpr h8) (fun h => h64 ((colReset_iff t).mp h)) (iblk m c 0 t) (iblk m c 1 t) (iblk m c 2 t) (iblk m c 3 t) (iblk m c 4 t) (iblk m c 5 t) xo7
/-- The run at a position where neither is reset, the buffers holding `xo6`, `xo7`. -/
def carryAt (c : Dev nD) (t : Fin cfg0.N) (h8 : ¬t.val % 8 = 0) (xo6 : Vec F S4x512 .f32) (xo7 : Vec F S1x4x8192 .f32) :=
  runCarry (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (fun h => h8 ((rowReset_iff t).mp h)) (fun h => h8 (by have := (colReset_iff t).mp h; omega)) (iblk m c 0 t) (iblk m c 1 t) (iblk m c 2 t) (iblk m c 3 t) (iblk m c 4 t) (iblk m c 5 t) xo6 xo7

/-! ## What the two output buffers hold after each position -/

/-- The row buffer and the column buffer after the body at position `n`. -/
def outsAt (c : Dev nD) : (n : ℕ) → n < cfg0.N → Vec F S4x512 .f32 × Vec F S1x4x8192 .f32
  | 0, hn => (View.canon (bothAt m c ⟨0, hn⟩ (Nat.zero_mod _)).1.1, View.canon (bothAt m c ⟨0, hn⟩ (Nat.zero_mod _)).1.2)
  | n + 1, hn =>
    if h64 : (n + 1) % 64 = 0 then
      (View.canon (bothAt m c ⟨n + 1, hn⟩ h64).1.1, View.canon (bothAt m c ⟨n + 1, hn⟩ h64).1.2)
    else if h8 : (n + 1) % 8 = 0 then
      (View.canon (rowAt m c ⟨n + 1, hn⟩ h8 h64 (outsAt c n (Nat.lt_of_succ_lt hn)).2).1.1,
        Cert.Lib.over (outsAt c n (Nat.lt_of_succ_lt hn)).2 (rowAt m c ⟨n + 1, hn⟩ h8 h64 (outsAt c n (Nat.lt_of_succ_lt hn)).2).1.2)
    else
      (Cert.Lib.over (outsAt c n (Nat.lt_of_succ_lt hn)).1 (carryAt m c ⟨n + 1, hn⟩ h8 (outsAt c n (Nat.lt_of_succ_lt hn)).1 (outsAt c n (Nat.lt_of_succ_lt hn)).2).1.1,
        Cert.Lib.over (outsAt c n (Nat.lt_of_succ_lt hn)).2 (carryAt m c ⟨n + 1, hn⟩ h8 (outsAt c n (Nat.lt_of_succ_lt hn)).1 (outsAt c n (Nat.lt_of_succ_lt hn)).2).1.2)

/-- What the position before left (meaningful off position 0). -/
abbrev prevOuts (c : Dev nD) (t : Fin cfg0.N) : Vec F S4x512 .f32 × Vec F S1x4x8192 .f32 :=
  outsAt m c (t.val - 1) (Nat.lt_of_le_of_lt (Nat.sub_le _ _) t.isLt)

theorem outsAt_both (c : Dev nD) (t : Fin cfg0.N) (h64 : t.val % 64 = 0) :
    outsAt m c t.val t.isLt = (View.canon (bothAt m c t h64).1.1, View.canon (bothAt m c t h64).1.2) := by
  obtain ⟨n, hn⟩ := t
  cases n with
  | zero => exact rfl
  | succ n => exact (dif_pos h64).trans rfl

theorem outsAt_row (c : Dev nD) (t : Fin cfg0.N) (h8 : t.val % 8 = 0) (h64 : ¬t.val % 64 = 0) :
    outsAt m c t.val t.isLt = (View.canon (rowAt m c t h8 h64 (prevOuts m c t).2).1.1,
      Cert.Lib.over (prevOuts m c t).2 (rowAt m c t h8 h64 (prevOuts m c t).2).1.2) := by
  obtain ⟨n, hn⟩ := t
  cases n with
  | zero => exact absurd (Nat.zero_mod _) h64
  | succ n => exact (dif_neg h64).trans ((dif_pos h8).trans rfl)

theorem outsAt_carry (c : Dev nD) (t : Fin cfg0.N) (h8 : ¬t.val % 8 = 0) :
    outsAt m c t.val t.isLt = (Cert.Lib.over (prevOuts m c t).1 (carryAt m c t h8 (prevOuts m c t).1 (prevOuts m c t).2).1.1,
      Cert.Lib.over (prevOuts m c t).2 (carryAt m c t h8 (prevOuts m c t).1 (prevOuts m c t).2).1.2) := by
  obtain ⟨n, hn⟩ := t
  cases n with
  | zero => exact absurd (Nat.zero_mod _) h8
  | succ n =>
    have h64 : ¬(n + 1) % 64 = 0 := fun h => h8 (by dsimp only at h ⊢; omega)
    exact (dif_neg h64).trans ((dif_neg h8).trans rfl)

/-! ## The proof data -/

/-- Arrays as the region finds them; after the body each input buffer still at its block, the two output buffers at
    `outsAt`; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
    | ⟨7, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]
theorem after7 (c : Dev nD) (t : Fin cfg0.N) : (dats m 0 c).after 7 t = (outsAt m c t.val t.isLt).2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- Off the first column tile the row buffer holds what the position before left: it is written back only after the
    last column tile. -/
theorem before6_kept (c : Dev nD) (t : Fin cfg0.N) (h8 : ¬t.val % 8 = 0) (d) :
    (dats m 0 c).before 6 t d = (prevOuts m c t).1 := by
  have hN : t.val < 128 := lt_of_lt_of_eq t.isLt (show cfg0.N = 128 from N_0)
  rw [Dat.before_out_kept _ 6 rfl t (by omega) (Bool.eq_false_iff.mpr fun h => by have := (flush0_6 _).mp h; dsimp only at this; omega)
    (fun _ => rfl) (fun _ _ => rfl)]
  dsimp only [dats]

/-- Off the first position of a core's sweep the column buffer holds what the position before left. -/
theorem before7_kept (c : Dev nD) (t : Fin cfg0.N) (h64 : ¬t.val % 64 = 0) (d) :
    (dats m 0 c).before 7 t d = (prevOuts m c t).2 := by
  have hN : t.val < 128 := lt_of_lt_of_eq t.isLt (show cfg0.N = 128 from N_0)
  rw [Dat.before_out_kept _ 7 rfl t (by omega) (Bool.eq_false_iff.mpr fun h => by have := (flush0_7 _).mp h; dsimp only at this; omega)
    (fun _ => rfl) (fun _ _ => rfl)]
  dsimp only [dats]

end Cert.Kernel.Tiled

end
-- ==== Proof.AtWords.Covers.lean ====
/-
  At a position where a buffer is reset its stores cover it — the +∞ fill is a whole-block store — so the buffer read
  back afterwards is a function of the stores alone; at the other positions it is the stores laid over what was there.
-/
import proofs.«115162_j6708738916982_2_alg».proof.Proof.AtWords.Body
import Idealize.ShloMosaic.Lib.Pipeline.Value

set_option maxRecDepth 16384

noncomputable section

namespace Cert.Kernel.Tiled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zeros3 : (![0, 0, 0] : Fin 3 → ℕ) = fun _ => 0 := by
  funext a; match a with | ⟨0, _⟩ => rfl | ⟨1, _⟩ => rfl | ⟨2, _⟩ => rfl

theorem rowCover_both (c : Dev nD) (i : grid0.Coords) (arg3 : Memref sig .tc .vmem S4x512 .f32) (harg3 : arg3.IsWhole) (arg4 : Memref sig .tc .vmem S4x512 .f32) (harg4 : arg4.IsWhole) (arg5 : Memref sig .tc .vmem S4x512 .f32) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S4x512 .f32) (harg9 : arg9.IsWhole) (arg10 : Memref sig .tc .vmem S1x4x8192 .f32) (harg10 : arg10.IsWhole)
    (hr : rowReset i) (hcl : colReset i) (x0 x1 x2 : Vec F S4x512 .f32) (x3 x4 x5 : Vec F S4x1024 .f32) (y : S4x512.Idx) :
    ∃ p ∈ (runBothReset (F := F) c i arg3 harg3 arg4 harg4 arg5 harg5 arg6 harg6 arg7 harg7 arg8 harg8 arg9 harg9 arg10 harg10 hr hcl x0 x1 x2 x3 x4 x5).1.1, y ∈ p.1.set :=
  View.cover_of_tiledL _ S4x512.size (by sl_kernel_rfl) y

theorem colCover_both (c : Dev nD) (i : grid0.Coords) (arg3 : Memref sig .tc .vmem S4x512 .f32) (harg3 : arg3.IsWhole) (arg4 : Memref sig .tc .vmem S4x512 .f32) (harg4 : arg4.IsWhole) (arg5 : Memref sig .tc .vmem S4x512 .f32) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S4x512 .f32) (harg9 : arg9.IsWhole) (arg10 : Memref sig .tc .vmem S1x4x8192 .f32) (harg10 : arg10.IsWhole)
    (hr : rowReset i) (hcl : colReset i) (x0 x1 x2 : Vec F S4x512 .f32) (x3 x4 x5 : Vec F S4x1024 .f32) (y : S1x4x8192.Idx) :
    ∃ p ∈ (runBothReset (F := F) c i arg3 harg3 arg4 harg4 arg5 harg5 arg6 harg6 arg7 harg7 arg8 harg8 arg9 harg9 arg10 harg10 hr hcl x0 x1 x2 x3 x4 x5).1.2, y ∈ p.1.set := by
  unfold runBothReset
  dsimp only
  sl_unfold_words
  refine ⟨⟨Rect.unit ![0, 0, 0] S1x4x8192.size inb_S1x4x8192_S1x4x8192_0_0_0, k0_pay4 (F := F)⟩, List.mem_cons_of_mem _ List.mem_cons_self, ?_⟩
  exact View.mem_set_unit_zero zeros3 inb_S1x4x8192_S1x4x8192_0_0_0 y

theorem rowCover_row (c : Dev nD) (i : grid0.Coords) (arg3 : Memref sig .tc .vmem S4x512 .f32) (harg3 : arg3.IsWhole) (arg4 : Memref sig .tc .vmem S4x512 .f32) (harg4 : arg4.IsWhole) (arg5 : Memref sig .tc .vmem S4x512 .f32) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S4x512 .f32) (harg9 : arg9.IsWhole) (arg10 : Memref sig .tc .vmem S1x4x8192 .f32) (harg10 : arg10.IsWhole)
    (hr : rowReset i) (hcl : ¬colReset i) (x0 x1 x2 : Vec F S4x512 .f32) (x3 x4 x5 : Vec F S4x1024 .f32) (xo7 : Vec F S1x4x8192 .f32) (y : S4x512.Idx) :
    ∃ p ∈ (runRowReset (F := F) c i arg3 harg3 arg4 harg4 arg5 harg5 arg6 harg6 arg7 harg7 arg8 harg8 arg9 harg9 arg10 harg10 hr hcl x0 x1 x2 x3 x4 x5 xo7).1.1, y ∈ p.1.set :=
  View.cover_of_tiledL _ S4x512.size (by sl_kernel_rfl) y

/-- The same three facts at a position of the sweep. -/
theorem rowCover_bothAt (c : Dev nD) (t : Fin cfg0.N) (h64 : t.val % 64 = 0) (y : S4x512.Idx) :
    ∃ p ∈ (bothAt m c t h64).1.1, y ∈ p.1.set :=
  rowCover_both c (grid0.coords t) (ms0 t) (hs0 t) (ms1 t) (hs1 t) (ms2 t) (hs2 t) (ms3 t) (hs3 t) (ms4 t) (hs4 t) (ms5 t) (hs5 t) (ms6 t) (hs6 t) (ms7 t) (hs7 t) ((rowReset_iff t).mpr (by omega)) ((colReset_iff t).mpr h64) (iblk m c 0 t) (iblk m c 1 t) (iblk m c 2 t) (iblk m c 3 t) (iblk m c 4 t) (iblk m c 5 t) y
theorem colCover_bothAt (c : Dev nD) (t : Fin cfg0.N) (h64 : t.val % 64 = 0) (y : S1x4x8192.Idx) :
    ∃ p ∈ (bothAt m c t h64).1.2, y ∈ p.1.set :=
  colCover_both c (grid0.coords t) (ms0 t) (hs0 t) (ms1 t) (hs1 t) (ms2 t) (hs2 t) (ms3 t) (hs3 t) (ms4 t) (hs4 t) (ms5 t) (hs5 t) (ms6 t) (hs6 t) (ms7 t) (hs7 t) ((rowReset_iff t).mpr (by omega)) ((colReset_iff t).mpr h64) (iblk m c 0 t) (iblk m c 1 t) (iblk m c 2 t) (iblk m c 3 t) (iblk m c 4 t) (iblk m c 5 t) y
theorem rowCover_rowAt (c : Dev nD) (t : Fin cfg0.N) (h8 : t.val % 8 = 0) (h64 : ¬t.val % 64 = 0) (xo7 : Vec F S1x4x8192 .f32) (y : S4x512.Idx) :
    ∃ p ∈ (rowAt m c t h8 h64 xo7).1.1, y ∈ p.1.set :=
  rowCover_row c (grid0.coords t) (ms0 t) (hs0 t) (ms1 t) (hs1 t) (ms2 t) (hs2 t) (ms3 t) (hs3 t) (ms4 t) (hs4 t) (ms5 t) (hs5 t) (ms6 t) (hs6 t) (ms7 t) (hs7 t) ((rowReset_iff t).mpr h8) (fun h => h64 ((colReset_iff t).mp h)) (iblk m c 0 t) (iblk m c 1 t) (iblk m c 2 t) (iblk m c 3 t) (iblk m c 4 t) (iblk m c 5 t) xo7 y

/-! ## Each buffer read back after the position's stores -/

theorem readRow_both (c : Dev nD) (t : Fin cfg0.N) (h64 : t.val % 64 = 0) (e : (ms6 t).view.ty.Contents (Elt F)) :
    (ms6 t).view.read (Elt F) ((ms6 t).view.writes (Elt F) e (bothAt m c t h64).1.1) = View.canon (bothAt m c t h64).1.1 :=
  View.read_writes_eq_canon (ms6 t).view e (bothAt m c t h64).1.1 (rowCover_bothAt m c t h64)
theorem readCol_both (c : Dev nD) (t : Fin cfg0.N) (h64 : t.val % 64 = 0) (e : (ms7 t).view.ty.Contents (Elt F)) :
    (ms7 t).view.read (Elt F) ((ms7 t).view.writes (Elt F) e (bothAt m c t h64).1.2) = View.canon (bothAt m c t h64).1.2 :=
  View.read_writes_eq_canon (ms7 t).view e (bothAt m c t h64).1.2 (colCover_bothAt m c t h64)
theorem readRow_row (c : Dev nD) (t : Fin cfg0.N) (h8 : t.val % 8 = 0) (h64 : ¬t.val % 64 = 0) (xo7 : Vec F S1x4x8192 .f32)
    (e : (ms6 t).view.ty.Contents (Elt F)) :
    (ms6 t).view.read (Elt F) ((ms6 t).view.writes (Elt F) e (rowAt m c t h8 h64 xo7).1.1) = View.canon (rowAt m c t h8 h64 xo7).1.1 :=
  View.read_writes_eq_canon (ms6 t).view e (rowAt m c t h8 h64 xo7).1.1 (rowCover_rowAt m c t h8 h64 xo7)
theorem readCol_over (t : Fin cfg0.N) (xo7 : Vec F S1x4x8192 .f32) (L : List (View.Piece (Elt F) S1x4x8192 .f32)) :
    (ms7 t).view.read (Elt F) ((ms7 t).view.writes (Elt F) ((hs7 t).unread xo7) L) = Cert.Lib.over xo7 L := by
  rw [Cert.Lib.read_writes_eq_over, (hs7 t).read_unread]
theorem readRow_over (t : Fin cfg0.N) (xo6 : Vec F S4x512 .f32) (L : List (View.Piece (Elt F) S4x512 .f32)) :
    (ms6 t).view.read (Elt F) ((ms6 t).view.writes (Elt F) ((hs6 t).unread xo6) L) = Cert.Lib.over xo6 L := by
  rw [Cert.Lib.read_writes_eq_over, (hs6 t).read_unread]

/-! ## The proof data's two buffers, componentwise -/

theorem rowAfter_both (c : Dev nD) (t : Fin cfg0.N) (h64 : t.val % 64 = 0) :
    (outsAt m c t.val t.isLt).1 = View.canon (bothAt m c t h64).1.1 := by rw [outsAt_both m c t h64]
theorem colAfter_both (c : Dev nD) (t : Fin cfg0.N) (h64 : t.val % 64 = 0) :
    (outsAt m c t.val t.isLt).2 = View.canon (bothAt m c t h64).1.2 := by rw [outsAt_both m c t h64]
theorem rowAfter_row (c : Dev nD) (t : Fin cfg0.N) (h8 : t.val % 8 = 0) (h64 : ¬t.val % 64 = 0) :
    (outsAt m c t.val t.isLt).1 = View.canon (rowAt m c t h8 h64 (prevOuts m c t).2).1.1 := by rw [outsAt_row m c t h8 h64]
theorem colAfter_row (c : Dev nD) (t : Fin cfg0.N) (h8 : t.val % 8 = 0) (h64 : ¬t.val % 64 = 0) :
    (outsAt m c t.val t.isLt).2 = Cert.Lib.over (prevOuts m c t).2 (rowAt m c t h8 h64 (prevOuts m c t).2).1.2 := by
  rw [outsAt_row m c t h8 h64]
theorem rowAfter_carry (c : Dev nD) (t : Fin cfg0.N) (h8 : ¬t.val % 8 = 0) :
    (outsAt m c t.val t.isLt).1 = Cert.Lib.over (prevOuts m c t).1 (carryAt m c t h8 (prevOuts m c t).1 (prevOuts m c t).2).1.1 := by
  rw [outsAt_carry m c t h8]
theorem colAfter_carry (c : Dev nD) (t : Fin cfg0.N) (h8 : ¬t.val % 8 = 0) :
    (outsAt m c t.val t.isLt).2 = Cert.Lib.over (prevOuts m c t).2 (carryAt m c t h8 (prevOuts m c t).1 (prevOuts m c t).2).1.2 := by
  rw [outsAt_carry m c t h8]

/-! ## Handing a buffer back at the contents the proof data names -/

theorem ownsCol_both (c : Dev nD) (t : Fin cfg0.N) (h64 : t.val % 64 = 0) (e : (ms7 t).view.ty.Contents (Elt F)) :
    ((ms7 t).view.loc (c : Thread nD τ) ↦[(ms7 t).view.set]{fullShare} (ms7 t).view.writes (Elt F) e (bothAt m c t h64).1.2 : sProp 𝕄)
      ⊢ owns (c : Thread nD τ) (ms7 t) fullShare (View.canon (bothAt m c t h64).1.2) := by
  unfold owns
  iintro H
  iexists _; isplitr
  swap; · iexact H
  ipureintro; exact readCol_both m c t h64 e

end Cert.Kernel.Tiled

end
-- ==== Proof.AtWords.Sweep.lean ====
/-
  The body at every position of the sweep, the pipeline's obligation, the run of the whole program and its frame.
  The position's residues mod 8 and mod 64 say which of the three cases it is in; a buffer that is not reset holds what
  the position before left, so that case's run applies, and each output buffer read back afterwards is what the
  proof data says.
-/
import proofs.«115162_j6708738916982_2_alg».proof.Proof.AtWords.Covers

set_option maxRecDepth 16384

noncomputable section

namespace Cert.Kernel.Tiled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at position `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1600000 in
/-- A position where both minima are reset. -/
theorem sound_both (c : Dev nD) (t : Fin cfg0.N) (h64 : t.val % 64 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  rw [rowAfter_both m c t h64, colAfter_both m c t h64]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((bothAt m c t h64).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact readRow_both m c t h64 e6
  · iapply (ownsCol_both m c t h64 e7)
    iexact H7

set_option maxHeartbeats 1600000 in
/-- A position where the row minimum alone is reset. -/
theorem sound_row (c : Dev nD) (t : Fin cfg0.N) (h8 : t.val % 8 = 0) (h64 : ¬t.val % 64 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  rw [rowAfter_row m c t h8 h64, colAfter_row m c t h8 h64]
  simp only [before7_kept m c t h64]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((rowAt m c t h8 h64 (prevOuts m c t).2).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iintro ⟨H0, H1, H2, H3, H4, H5, ⟨%e6, H6⟩, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact readRow_row m c t h8 h64 (prevOuts m c t).2 e6
  · unfold owns; iexists _; isplitr
    swap; · iexact H7
    ipureintro; exact readCol_over t (prevOuts m c t).2 (rowAt m c t h8 h64 (prevOuts m c t).2).1.2

set_option maxHeartbeats 1600000 in
/-- A position where neither is reset. -/
theorem sound_carry (c : Dev nD) (t : Fin cfg0.N) (h8 : ¬t.val % 8 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  rw [rowAfter_carry m c t h8, colAfter_carry m c t h8]
  simp only [before6_kept m c t h8, before7_kept m c t (fun h => h8 (by omega))]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((carryAt m c t h8 (prevOuts m c t).1 (prevOuts m c t).2).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact readRow_over t (prevOuts m c t).1 (carryAt m c t h8 (prevOuts m c t).1 (prevOuts m c t).2).1.1
  · unfold owns; iexists _; isplitr
    swap; · iexact H7
    ipureintro; exact readCol_over t (prevOuts m c t).2 (carryAt m c t h8 (prevOuts m c t).1 (prevOuts m c t).2).1.2

/-- The body at any position. -/
theorem sound_body (c : Dev nD) (t : Fin cfg0.N) :
    bodyPre m c t ⊢ wp frame (wpE (defs₀ (F := F)) Variants.none c none) Set.univ (bodyAt0 t) (fun _ => bodyPost m c t) := by
  by_cases h64 : t.val % 64 = 0
  · exact sound_both m c t h64
  · by_cases h8 : t.val % 8 = 0
    · exact sound_row m c t h8 h64
    · exact sound_carry m c t h8

/-- The pipeline's body obligation, at every position. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates; every array of the
    pipeline ends at what the proof data computes (an output: its entry contents overwritten by each write-back), every
    other buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and leaves its two argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Tiled

end
-- ==== Proof.AtReals.Cases.lean ====
/-
  The grid is (core, row tile, column tile) = 2 × 8 × 8, a point's position t = 64·core + 8·(row tile) + (column tile).
  The body branches twice on the point: the running row minimum is reset to +∞ where the column tile is 0
  (t ≡ 0 mod 8), and the running column minimum where row tile and column tile are both 0 (t ≡ 0 mod 64).
  So a point is in one of three cases: both reset, the row minimum alone, neither.
-/
import proofs.«115162_j6708738916982_2_alg».proof.Proof.Gen.KernelIdeal.Launch
import proofs.«115162_j6708738916982_2_alg».proof.Proof.Gen.KernelIdeal.Skeleton
import proofs.«115162_j6708738916982_2_alg».proof.Proof.Gen.KernelIdeal.Points
import proofs.«115162_j6708738916982_2_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Tiled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The row minimum is reset at this point: the column-tile coordinate is 0. -/
abbrev rowReset (i : grid0.Coords) : Prop :=
  (Scalar.cmpi .ne (Scalar.extui (Scalar.cmpi .eq (BitVec.ofNat 32 (i 2).val) 0#32)) 0#32) = 1#1
/-- The column minimum is reset at this point: row-tile and column-tile coordinates are both 0. -/
abbrev colReset (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

/-- The row minimum is reset exactly at the positions ≡ 0 (mod 8). -/
theorem rowReset_iff : ∀ t : Fin cfg0.N, rowReset (grid0.coords t) ↔ t.val % 8 = 0 :=
  (by decide +kernel : ∀ t : Fin grid0.N, rowReset (grid0.coords t) ↔ t.val % 8 = 0)
/-- The column minimum is reset exactly at the positions ≡ 0 (mod 64). -/
theorem colReset_iff : ∀ t : Fin cfg0.N, colReset (grid0.coords t) ↔ t.val % 64 = 0 :=
  (by decide +kernel : ∀ t : Fin grid0.N, colReset (grid0.coords t) ↔ t.val % 64 = 0)

/-- One staging buffer of each output, through which its contents are stated (which one does not matter). -/
abbrev rowView : View sig .tc .vmem S4x512 .f32 := (Memref.whole cc0_stg6_0 : Memref sig .tc .vmem S4x512 .f32).view
abbrev colView : View sig .tc .vmem S1x4x8192 .f32 := (Memref.whole cc0_stg7_0 : Memref sig .tc .vmem S1x4x8192 .f32).view

/-- Each window's current staging memref at position t, as the pipeline passes it to the body, and its wholeness. -/
abbrev ms0 (t : Fin cfg0.N) : Memref sig .tc .vmem S4x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S4x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S4x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S4x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x4x8192 .f32 := win0_7.stage (cfg0.slots t 7)
abbrev hs7 (t : Fin cfg0.N) : (ms7 t).IsWhole := hstage0_7 ((cfg0.slots t 7).cast nbuf0_7)

end Cert.KernelIdeal.Tiled

end
-- ==== Proof.AtReals.RunCarry.lean ====
/-
  A point where neither running minimum is reset: the body reads the six coordinate blocks, reads the running row
  minimum and stores it back lowered by this tile's row minima, and does the same for the slice of the running column
  minimum that belongs to this column tile. Both output buffers are taken at given contents.
-/
import proofs.«115162_j6708738916982_2_alg».proof.Proof.AtReals.Cases

set_option maxRecDepth 16384

noncomputable section

namespace Cert.KernelIdeal.Tiled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body makes into the two output buffers at such a point, newest first, with the proof that the body
    runs from whole staging buffers at the given contents to the continuation holding the inputs unchanged and each
    output buffer with those stores made. The lists are what the symbolic run finds. -/
noncomputable def runCarry (c : Dev nD) (i : grid0.Coords) (arg3 : Memref sig .tc .vmem S4x512 .f32) (harg3 : arg3.IsWhole) (arg4 : Memref sig .tc .vmem S4x512 .f32) (harg4 : arg4.IsWhole) (arg5 : Memref sig .tc .vmem S4x512 .f32) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S4x512 .f32) (harg9 : arg9.IsWhole) (arg10 : Memref sig .tc .vmem S1x4x8192 .f32) (harg10 : arg10.IsWhole)
    (hr : ¬rowReset i) (hcl : ¬colReset i) (x0 x1 x2 : Vec F S4x512 .f32) (x3 x4 x5 : Vec F S4x1024 .f32) (xo6 : Vec F S4x512 .f32) (xo7 : Vec F S1x4x8192 .f32) :
    { L : List (View.Piece (Elt F) S4x512 .f32) × List (View.Piece (Elt F) S1x4x8192 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ owns (c : Thread nD τ) arg9 fullShare xo6 ∗ owns (c : Thread nD τ) arg10 fullShare xo7
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
                ∗ (arg9.view.loc (c : Thread nD τ) ↦[arg9.view.set]{fullShare} arg9.view.writes (Elt F) (harg9.unread xo6) L.1)
                ∗ (arg10.view.loc (c : Thread nD τ) ↦[arg10.view.set]{fullShare} arg10.view.writes (Elt F) (harg10.unread xo7) L.2)) -∗ K ⟨⟩))
          ⊢ wp frame (wpE (defs₀ (F := F)) Variants.none c none) E (cc0__chamfer_kernel i arg3 harg3 arg4 harg4 arg5 harg5 arg6 harg6 arg7 harg7 arg8 harg8 arg9 harg9 arg10 harg10) K } := by
  refine ⟨(?_, ?_), fun E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hf7
    sl_exec (disch := first | exact hr | exact hcl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexact H6
    iexact H7

end Cert.KernelIdeal.Tiled

end
-- ==== Proof.AtReals.RunRowReset.lean ====
/-
  A point where the running row minimum is reset but the running column minimum is not (column tile 0 of a later row
  tile): the row buffer is first filled with +∞, then read back and lowered by this tile's row minima, so what it held
  before does not matter; the column buffer is taken at given contents and its slice for column tile 0 lowered.
-/
import proofs.«115162_j6708738916982_2_alg».proof.Proof.AtReals.RunCarry

set_option maxRecDepth 16384

noncomputable section

namespace Cert.KernelIdeal.Tiled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores into the two output buffers at such a point, newest first, with the proof that the body runs to the
    continuation holding the inputs unchanged and each output buffer with those stores made. -/
noncomputable def runRowReset (c : Dev nD) (i : grid0.Coords) (arg3 : Memref sig .tc .vmem S4x512 .f32) (harg3 : arg3.IsWhole) (arg4 : Memref sig .tc .vmem S4x512 .f32) (harg4 : arg4.IsWhole) (arg5 : Memref sig .tc .vmem S4x512 .f32) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S4x512 .f32) (harg9 : arg9.IsWhole) (arg10 : Memref sig .tc .vmem S1x4x8192 .f32) (harg10 : arg10.IsWhole)
    (hr : rowReset i) (hcl : ¬colReset i) (x0 x1 x2 : Vec F S4x512 .f32) (x3 x4 x5 : Vec F S4x1024 .f32) (xo7 : Vec F S1x4x8192 .f32) :
    { L : List (View.Piece (Elt F) S4x512 .f32) × List (View.Piece (Elt F) S1x4x8192 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ (∃ d, owns (c : Thread nD τ) arg9 fullShare d) ∗ owns (c : Thread nD τ) arg10 fullShare xo7
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
                ∗ (∃ f, arg9.view.loc (c : Thread nD τ) ↦[arg9.view.set]{fullShare} arg9.view.writes (Elt F) f L.1)
                ∗ (arg10.view.loc (c : Thread nD τ) ↦[arg10.view.set]{fullShare} arg10.view.writes (Elt F) (harg10.unread xo7) L.2)) -∗ K ⟨⟩))
          ⊢ wp frame (wpE (defs₀ (F := F)) Variants.none c none) E (cc0__chamfer_kernel i arg3 harg3 arg4 harg4 arg5 harg5 arg6 harg6 arg7 harg7 arg8 harg8 arg9 harg9 arg10 harg10) K } := by
  refine ⟨(?_, ?_), fun E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg10.eq_unread hf7
    sl_exec (disch := first | exact hr | exact hcl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; iexact H6
    iexact H7

end Cert.KernelIdeal.Tiled

end
-- ==== Proof.AtReals.RunBothReset.lean ====
/-
  The first point of each core's sweep (row tile 0, column tile 0): both running minima are reset. Each output
  buffer is first filled with +∞ and then lowered by this tile's minima, so neither buffer's earlier contents matter.
-/
import proofs.«115162_j6708738916982_2_alg».proof.Proof.AtReals.RunRowReset

set_option maxRecDepth 16384

noncomputable section

namespace Cert.KernelIdeal.Tiled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores into the two output buffers at such a point, newest first, with the proof that the body runs to the
    continuation holding the inputs unchanged and each output buffer with those stores made. -/
noncomputable def runBothReset (c : Dev nD) (i : grid0.Coords) (arg3 : Memref sig .tc .vmem S4x512 .f32) (harg3 : arg3.IsWhole) (arg4 : Memref sig .tc .vmem S4x512 .f32) (harg4 : arg4.IsWhole) (arg5 : Memref sig .tc .vmem S4x512 .f32) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S4x512 .f32) (harg9 : arg9.IsWhole) (arg10 : Memref sig .tc .vmem S1x4x8192 .f32) (harg10 : arg10.IsWhole)
    (hr : rowReset i) (hcl : colReset i) (x0 x1 x2 : Vec F S4x512 .f32) (x3 x4 x5 : Vec F S4x1024 .f32) :
    { L : List (View.Piece (Elt F) S4x512 .f32) × List (View.Piece (Elt F) S1x4x8192 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
                ∗ (∃ f, arg9.view.loc (c : Thread nD τ) ↦[arg9.view.set]{fullShare} arg9.view.writes (Elt F) f L.1)
                ∗ (∃ f, arg10.view.loc (c : Thread nD τ) ↦[arg10.view.set]{fullShare} arg10.view.writes (Elt F) f L.2)) -∗ K ⟨⟩))
          ⊢ wp frame (wpE (defs₀ (F := F)) Variants.none c none) E (cc0__chamfer_kernel i arg3 harg3 arg4 harg4 arg5 harg5 arg6 harg6 arg7 harg7 arg8 harg8 arg9 harg9 arg10 harg10) K } := by
  refine ⟨(?_, ?_), fun E K => ?run⟩
  case run =>
    simp only [cc0__chamfer_kernel_eq_skeleton]; unfold cc0__chamfer_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    sl_exec (disch := first | exact hr | exact hcl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; iexact H6
    iexists _; iexact H7

end Cert.KernelIdeal.Tiled

end
-- ==== Proof.AtReals.Body.lean ====
/-
  The proof data of the tiled sweep and the body at every grid position.
  After the body at position t the row buffer holds the running minimum, over the column tiles met so far in this
  row tile, of the squared distances of the tile's 512 points of the first cloud; the column buffer holds, slice by
  slice, the running minimum over the row tiles met so far on this core. Both are defined by recursion on the
  position: at a reset position the stores cover the buffer and nothing earlier matters; elsewhere the stores are
  laid over what the position before left (the buffer is written back only at the last column tile, respectively
  the last position of the core's sweep, so it is still there).
-/
import proofs.«115162_j6708738916982_2_alg».proof.Proof.AtReals.RunBothReset
import proofs.«115162_j6708738916982_2_alg».proof.Proof.LibWritesOver

set_option maxRecDepth 16384

noncomputable section

namespace Cert.KernelIdeal.Tiled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The three cases at a position -/

/-- The run at a position where both minima are reset, on the position's staging buffers and input blocks. -/
def bothAt (c : Dev nD) (t : Fin cfg0.N) (h64 : t.val % 64 = 0) :=
  runBothReset (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t)
    ((rowReset_iff t).mpr (by omega)) ((colReset_iff t).mpr h64) (iblk m c 0 t) (iblk m c 1 t) (iblk m c 2 t) (iblk m c 3 t) (iblk m c 4 t) (iblk m c 5 t)
/-- The run at a position where the row minimum alone is reset, the column buffer holding `xo7`. -/
def rowAt (c : Dev nD) (t : Fin cfg0.N) (h8 : t.val % 8 = 0) (h64 : ¬t.val % 64 = 0) (xo7 : Vec F S1x4x8192 .f32) :=
  runRowReset (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t)
    ((rowReset_iff t).mpr h8) (fun h => h64 ((colReset_iff t).mp h)) (iblk m c 0 t) (iblk m c 1 t) (iblk m c 2 t) (iblk m c 3 t) (iblk m c 4 t) (iblk m c 5 t) xo7
/-- The run at a position where neither is reset, the buffers holding `xo6`, `xo7`. -/
def carryAt (c : Dev nD) (t : Fin cfg0.N) (h8 : ¬t.val % 8 = 0) (xo6 : Vec F S4x512 .f32) (xo7 : Vec F S1x4x8192 .f32) :=
  runCarry (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t)
    (fun h => h8 ((rowReset_iff t).mp h)) (fun h => h8 (by have := (colReset_iff t).mp h; omega)) (iblk m c 0 t) (iblk m c 1 t) (iblk m c 2 t) (iblk m c 3 t) (iblk m c 4 t) (iblk m c 5 t) xo6 xo7

/-! ## What the two output buffers hold after each position -/

/-- The row buffer and the column buffer after the body at position `n`. -/
def outsAt (c : Dev nD) : (n : ℕ) → n < cfg0.N → Vec F S4x512 .f32 × Vec F S1x4x8192 .f32
  | 0, hn => (View.canon (bothAt m c ⟨0, hn⟩ (Nat.zero_mod _)).1.1, View.canon (bothAt m c ⟨0, hn⟩ (Nat.zero_mod _)).1.2)
  | n + 1, hn =>
    if h64 : (n + 1) % 64 = 0 then
      (View.canon (bothAt m c ⟨n + 1, hn⟩ h64).1.1, View.canon (bothAt m c ⟨n + 1, hn⟩ h64).1.2)
    else if h8 : (n + 1) % 8 = 0 then
      (View.canon (rowAt m c ⟨n + 1, hn⟩ h8 h64 (outsAt c n (Nat.lt_of_succ_lt hn)).2).1.1,
        Cert.Lib.over (outsAt c n (Nat.lt_of_succ_lt hn)).2 (rowAt m c ⟨n + 1, hn⟩ h8 h64 (outsAt c n (Nat.lt_of_succ_lt hn)).2).1.2)
    else
      (Cert.Lib.over (outsAt c n (Nat.lt_of_succ_lt hn)).1 (carryAt m c ⟨n + 1, hn⟩ h8 (outsAt c n (Nat.lt_of_succ_lt hn)).1 (outsAt c n (Nat.lt_of_succ_lt hn)).2).1.1,
        Cert.Lib.over (outsAt c n (Nat.lt_of_succ_lt hn)).2 (carryAt m c ⟨n + 1, hn⟩ h8 (outsAt c n (Nat.lt_of_succ_lt hn)).1 (outsAt c n (Nat.lt_of_succ_lt hn)).2).1.2)

/-- What the position before left (meaningful off position 0). -/
abbrev prevOuts (c : Dev nD) (t : Fin cfg0.N) : Vec F S4x512 .f32 × Vec F S1x4x8192 .f32 :=
  outsAt m c (t.val - 1) (Nat.lt_of_le_of_lt (Nat.sub_le _ _) t.isLt)

theorem outsAt_both (c : Dev nD) (t : Fin cfg0.N) (h64 : t.val % 64 = 0) :
    outsAt m c t.val t.isLt = (View.canon (bothAt m c t h64).1.1, View.canon (bothAt m c t h64).1.2) := by
  obtain ⟨n, hn⟩ := t
  cases n with
  | zero => exact rfl
  | succ n => exact (dif_pos h64).trans rfl

theorem outsAt_row (c : Dev nD) (t : Fin cfg0.N) (h8 : t.val % 8 = 0) (h64 : ¬t.val % 64 = 0) :
    outsAt m c t.val t.isLt = (View.canon (rowAt m c t h8 h64 (prevOuts m c t).2).1.1,
      Cert.Lib.over (prevOuts m c t).2 (rowAt m c t h8 h64 (prevOuts m c t).2).1.2) := by
  obtain ⟨n, hn⟩ := t
  cases n with
  | zero => exact absurd (Nat.zero_mod _) h64
  | succ n => exact (dif_neg h64).trans ((dif_pos h8).trans rfl)

theorem outsAt_carry (c : Dev nD) (t : Fin cfg0.N) (h8 : ¬t.val % 8 = 0) :
    outsAt m c t.val t.isLt = (Cert.Lib.over (prevOuts m c t).1 (carryAt m c t h8 (prevOuts m c t).1 (prevOuts m c t).2).1.1,
      Cert.Lib.over (prevOuts m c t).2 (carryAt m c t h8 (prevOuts m c t).1 (prevOuts m c t).2).1.2) := by
  obtain ⟨n, hn⟩ := t
  cases n with
  | zero => exact absurd (Nat.zero_mod _) h8
  | succ n =>
    have h64 : ¬(n + 1) % 64 = 0 := fun h => h8 (by dsimp only at h ⊢; omega)
    exact (dif_neg h64).trans ((dif_neg h8).trans rfl)

/-! ## The proof data -/

/-- Arrays as the region finds them; after the body each input buffer still at its block, the two output buffers at
    `outsAt`; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
    | ⟨7, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (outsAt m c t.val t.isLt).1 := by dsimp only [dats]
theorem after7 (c : Dev nD) (t : Fin cfg0.N) : (dats m 0 c).after 7 t = (outsAt m c t.val t.isLt).2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- Off the first column tile the row buffer holds what the position before left: it is written back only after the
    last column tile. -/
theorem before6_kept (c : Dev nD) (t : Fin cfg0.N) (h8 : ¬t.val % 8 = 0) (d) :
    (dats m 0 c).before 6 t d = (prevOuts m c t).1 := by
  have hN : t.val < 128 := lt_of_lt_of_eq t.isLt (show cfg0.N = 128 from N_0)
  rw [Dat.before_out_kept _ 6 rfl t (by omega) (Bool.eq_false_iff.mpr fun h => by have := (flush0_6 _).mp h; dsimp only at this; omega)
    (fun _ => rfl) (fun _ _ => rfl)]
  dsimp only [dats]

/-- Off the first position of a core's sweep the column buffer holds what the position before left. -/
theorem before7_kept (c : Dev nD) (t : Fin cfg0.N) (h64 : ¬t.val % 64 = 0) (d) :
    (dats m 0 c).before 7 t d = (prevOuts m c t).2 := by
  have hN : t.val < 128 := lt_of_lt_of_eq t.isLt (show cfg0.N = 128 from N_0)
  rw [Dat.before_out_kept _ 7 rfl t (by omega) (Bool.eq_false_iff.mpr fun h => by have := (flush0_7 _).mp h; dsimp only at this; omega)
    (fun _ => rfl) (fun _ _ => rfl)]
  dsimp only [dats]

end Cert.KernelIdeal.Tiled

end
-- ==== Proof.AtReals.Covers.lean ====
/-
  At a position where a buffer is reset its stores cover it — the +∞ fill is a whole-block store — so the buffer read
  back afterwards is a function of the stores alone; at the other positions it is the stores laid over what was there.
-/
import proofs.«115162_j6708738916982_2_alg».proof.Proof.AtReals.Body
import Idealize.ShloMosaic.Lib.Pipeline.Value

set_option maxRecDepth 16384

noncomputable section

namespace Cert.KernelIdeal.Tiled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zeros3 : (![0, 0, 0] : Fin 3 → ℕ) = fun _ => 0 := by
  funext a; match a with | ⟨0, _⟩ => rfl | ⟨1, _⟩ => rfl | ⟨2, _⟩ => rfl

theorem rowCover_both (c : Dev nD) (i : grid0.Coords) (arg3 : Memref sig .tc .vmem S4x512 .f32) (harg3 : arg3.IsWhole) (arg4 : Memref sig .tc .vmem S4x512 .f32) (harg4 : arg4.IsWhole) (arg5 : Memref sig .tc .vmem S4x512 .f32) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S4x512 .f32) (harg9 : arg9.IsWhole) (arg10 : Memref sig .tc .vmem S1x4x8192 .f32) (harg10 : arg10.IsWhole)
    (hr : rowReset i) (hcl : colReset i) (x0 x1 x2 : Vec F S4x512 .f32) (x3 x4 x5 : Vec F S4x1024 .f32) (y : S4x512.Idx) :
    ∃ p ∈ (runBothReset (F := F) c i arg3 harg3 arg4 harg4 arg5 harg5 arg6 harg6 arg7 harg7 arg8 harg8 arg9 harg9 arg10 harg10 hr hcl x0 x1 x2 x3 x4 x5).1.1, y ∈ p.1.set :=
  View.cover_of_tiledL _ S4x512.size (by sl_kernel_rfl) y

theorem colCover_both (c : Dev nD) (i : grid0.Coords) (arg3 : Memref sig .tc .vmem S4x512 .f32) (harg3 : arg3.IsWhole) (arg4 : Memref sig .tc .vmem S4x512 .f32) (harg4 : arg4.IsWhole) (arg5 : Memref sig .tc .vmem S4x512 .f32) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S4x512 .f32) (harg9 : arg9.IsWhole) (arg10 : Memref sig .tc .vmem S1x4x8192 .f32) (harg10 : arg10.IsWhole)
    (hr : rowReset i) (hcl : colReset i) (x0 x1 x2 : Vec F S4x512 .f32) (x3 x4 x5 : Vec F S4x1024 .f32) (y : S1x4x8192.Idx) :
    ∃ p ∈ (runBothReset (F := F) c i arg3 harg3 arg4 harg4 arg5 harg5 arg6 harg6 arg7 harg7 arg8 harg8 arg9 harg9 arg10 harg10 hr hcl x0 x1 x2 x3 x4 x5).1.2, y ∈ p.1.set := by
  unfold runBothReset
  dsimp only
  sl_unfold_words
  refine ⟨⟨Rect.unit ![0, 0, 0] S1x4x8192.size inb_S1x4x8192_S1x4x8192_0_0_0, k0_pay4 (F := F)⟩, List.mem_cons_of_mem _ List.mem_cons_self, ?_⟩
  exact View.mem_set_unit_zero zeros3 inb_S1x4x8192_S1x4x8192_0_0_0 y

theorem rowCover_row (c : Dev nD) (i : grid0.Coords) (arg3 : Memref sig .tc .vmem S4x512 .f32) (harg3 : arg3.IsWhole) (arg4 : Memref sig .tc .vmem S4x512 .f32) (harg4 : arg4.IsWhole) (arg5 : Memref sig .tc .vmem S4x512 .f32) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S4x512 .f32) (harg9 : arg9.IsWhole) (arg10 : Memref sig .tc .vmem S1x4x8192 .f32) (harg10 : arg10.IsWhole)
    (hr : rowReset i) (hcl : ¬colReset i) (x0 x1 x2 : Vec F S4x512 .f32) (x3 x4 x5 : Vec F S4x1024 .f32) (xo7 : Vec F S1x4x8192 .f32) (y : S4x512.Idx) :
    ∃ p ∈ (runRowReset (F := F) c i arg3 harg3 arg4 harg4 arg5 harg5 arg6 harg6 arg7 harg7 arg8 harg8 arg9 harg9 arg10 harg10 hr hcl x0 x1 x2 x3 x4 x5 xo7).1.1, y ∈ p.1.set :=
  View.cover_of_tiledL _ S4x512.size (by sl_kernel_rfl) y

/-- The same three facts at a position of the sweep. -/
theorem rowCover_bothAt (c : Dev nD) (t : Fin cfg0.N) (h64 : t.val % 64 = 0) (y : S4x512.Idx) :
    ∃ p ∈ (bothAt m c t h64).1.1, y ∈ p.1.set :=
  rowCover_both c (grid0.coords t) (ms0 t) (hs0 t) (ms1 t) (hs1 t) (ms2 t) (hs2 t) (ms3 t) (hs3 t) (ms4 t) (hs4 t) (ms5 t) (hs5 t) (ms6 t) (hs6 t) (ms7 t) (hs7 t) ((rowReset_iff t).mpr (by omega)) ((colReset_iff t).mpr h64) (iblk m c 0 t) (iblk m c 1 t) (iblk m c 2 t) (iblk m c 3 t) (iblk m c 4 t) (iblk m c 5 t) y
theorem colCover_bothAt (c : Dev nD) (t : Fin cfg0.N) (h64 : t.val % 64 = 0) (y : S1x4x8192.Idx) :
    ∃ p ∈ (bothAt m c t h64).1.2, y ∈ p.1.set :=
  colCover_both c (grid0.coords t) (ms0 t) (hs0 t) (ms1 t) (hs1 t) (ms2 t) (hs2 t) (ms3 t) (hs3 t) (ms4 t) (hs4 t) (ms5 t) (hs5 t) (ms6 t) (hs6 t) (ms7 t) (hs7 t) ((rowReset_iff t).mpr (by omega)) ((colReset_iff t).mpr h64) (iblk m c 0 t) (iblk m c 1 t) (iblk m c 2 t) (iblk m c 3 t) (iblk m c 4 t) (iblk m c 5 t) y
theorem rowCover_rowAt (c : Dev nD) (t : Fin cfg0.N) (h8 : t.val % 8 = 0) (h64 : ¬t.val % 64 = 0) (xo7 : Vec F S1x4x8192 .f32) (y : S4x512.Idx) :
    ∃ p ∈ (rowAt m c t h8 h64 xo7).1.1, y ∈ p.1.set :=
  rowCover_row c (grid0.coords t) (ms0 t) (hs0 t) (ms1 t) (hs1 t) (ms2 t) (hs2 t) (ms3 t) (hs3 t) (ms4 t) (hs4 t) (ms5 t) (hs5 t) (ms6 t) (hs6 t) (ms7 t) (hs7 t) ((rowReset_iff t).mpr h8) (fun h => h64 ((colReset_iff t).mp h)) (iblk m c 0 t) (iblk m c 1 t) (iblk m c 2 t) (iblk m c 3 t) (iblk m c 4 t) (iblk m c 5 t) xo7 y

/-! ## Each buffer read back after the position's stores -/

theorem readRow_both (c : Dev nD) (t : Fin cfg0.N) (h64 : t.val % 64 = 0) (e : (ms6 t).view.ty.Contents (Elt F)) :
    (ms6 t).view.read (Elt F) ((ms6 t).view.writes (Elt F) e (bothAt m c t h64).1.1) = View.canon (bothAt m c t h64).1.1 :=
  View.read_writes_eq_canon (ms6 t).view e (bothAt m c t h64).1.1 (rowCover_bothAt m c t h64)
theorem readCol_both (c : Dev nD) (t : Fin cfg0.N) (h64 : t.val % 64 = 0) (e : (ms7 t).view.ty.Contents (Elt F)) :
    (ms7 t).view.read (Elt F) ((ms7 t).view.writes (Elt F) e (bothAt m c t h64).1.2) = View.canon (bothAt m c t h64).1.2 :=
  View.read_writes_eq_canon (ms7 t).view e (bothAt m c t h64).1.2 (colCover_bothAt m c t h64)
theorem readRow_row (c : Dev nD) (t : Fin cfg0.N) (h8 : t.val % 8 = 0) (h64 : ¬t.val % 64 = 0) (xo7 : Vec F S1x4x8192 .f32)
    (e : (ms6 t).view.ty.Contents (Elt F)) :
    (ms6 t).view.read (Elt F) ((ms6 t).view.writes (Elt F) e (rowAt m c t h8 h64 xo7).1.1) = View.canon (rowAt m c t h8 h64 xo7).1.1 :=
  View.read_writes_eq_canon (ms6 t).view e (rowAt m c t h8 h64 xo7).1.1 (rowCover_rowAt m c t h8 h64 xo7)
theorem readCol_over (t : Fin cfg0.N) (xo7 : Vec F S1x4x8192 .f32) (L : List (View.Piece (Elt F) S1x4x8192 .f32)) :
    (ms7 t).view.read (Elt F) ((ms7 t).view.writes (Elt F) ((hs7 t).unread xo7) L) = Cert.Lib.over xo7 L := by
  rw [Cert.Lib.read_writes_eq_over, (hs7 t).read_unread]
theorem readRow_over (t : Fin cfg0.N) (xo6 : Vec F S4x512 .f32) (L : List (View.Piece (Elt F) S4x512 .f32)) :
    (ms6 t).view.read (Elt F) ((ms6 t).view.writes (Elt F) ((hs6 t).unread xo6) L) = Cert.Lib.over xo6 L := by
  rw [Cert.Lib.read_writes_eq_over, (hs6 t).read_unread]

/-! ## The proof data's two buffers, componentwise -/

theorem rowAfter_both (c : Dev nD) (t : Fin cfg0.N) (h64 : t.val % 64 = 0) :
    (outsAt m c t.val t.isLt).1 = View.canon (bothAt m c t h64).1.1 := by rw [outsAt_both m c t h64]
theorem colAfter_both (c : Dev nD) (t : Fin cfg0.N) (h64 : t.val % 64 = 0) :
    (outsAt m c t.val t.isLt).2 = View.canon (bothAt m c t h64).1.2 := by rw [outsAt_both m c t h64]
theorem rowAfter_row (c : Dev nD) (t : Fin cfg0.N) (h8 : t.val % 8 = 0) (h64 : ¬t.val % 64 = 0) :
    (outsAt m c t.val t.isLt).1 = View.canon (rowAt m c t h8 h64 (prevOuts m c t).2).1.1 := by rw [outsAt_row m c t h8 h64]
theorem colAfter_row (c : Dev nD) (t : Fin cfg0.N) (h8 : t.val % 8 = 0) (h64 : ¬t.val % 64 = 0) :
    (outsAt m c t.val t.isLt).2 = Cert.Lib.over (prevOuts m c t).2 (rowAt m c t h8 h64 (prevOuts m c t).2).1.2 := by
  rw [outsAt_row m c t h8 h64]
theorem rowAfter_carry (c : Dev nD) (t : Fin cfg0.N) (h8 : ¬t.val % 8 = 0) :
    (outsAt m c t.val t.isLt).1 = Cert.Lib.over (prevOuts m c t).1 (carryAt m c t h8 (prevOuts m c t).1 (prevOuts m c t).2).1.1 := by
  rw [outsAt_carry m c t h8]
theorem colAfter_carry (c : Dev nD) (t : Fin cfg0.N) (h8 : ¬t.val % 8 = 0) :
    (outsAt m c t.val t.isLt).2 = Cert.Lib.over (prevOuts m c t).2 (carryAt m c t h8 (prevOuts m c t).1 (prevOuts m c t).2).1.2 := by
  rw [outsAt_carry m c t h8]

/-! ## Handing a buffer back at the contents the proof data names -/

theorem ownsCol_both (c : Dev nD) (t : Fin cfg0.N) (h64 : t.val % 64 = 0) (e : (ms7 t).view.ty.Contents (Elt F)) :
    ((ms7 t).view.loc (c : Thread nD τ) ↦[(ms7 t).view.set]{fullShare} (ms7 t).view.writes (Elt F) e (bothAt m c t h64).1.2 : sProp 𝕄)
      ⊢ owns (c : Thread nD τ) (ms7 t) fullShare (View.canon (bothAt m c t h64).1.2) := by
  unfold owns
  iintro H
  iexists _; isplitr
  swap; · iexact H
  ipureintro; exact readCol_both m c t h64 e

end Cert.KernelIdeal.Tiled

end
-- ==== Proof.AtReals.Stores.lean ====
/-
  The stores a position makes, as payloads of the six coordinate blocks and of what the buffers held.
  Row buffer: one whole-block store (after the +∞ fill at a reset position) of the earlier row minimum lowered by
  the tile's row minima. Column buffer: one store through the slice [0:1, 0:4, 1024·j : 1024·(j+1)] of column tile j,
  of the slice's earlier contents lowered by the tile's column minima (after a whole-block +∞ fill at a reset position).
-/
import proofs.«115162_j6708738916982_2_alg».proof.Proof.AtReals.Covers

set_option maxRecDepth 16384

noncomputable section

namespace Cert.KernelIdeal.Tiled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zeros2 : (![0, 0] : Fin 2 → ℕ) = fun _ => 0 := by
  funext a; match a with | ⟨0, _⟩ => rfl | ⟨1, _⟩ => rfl

/-- The slice of the column buffer that belongs to the position's column tile. -/
abbrev colSlice (i : grid0.Coords) : Rect S1x4x8192 := Rect.unit (k0_off1 i) S1x4x1024.size (Gen.k0_off1_inb i)

theorem row_carry (c : Dev nD) (i : grid0.Coords) (arg3 : Memref sig .tc .vmem S4x512 .f32) (harg3 : arg3.IsWhole) (arg4 : Memref sig .tc .vmem S4x512 .f32) (harg4 : arg4.IsWhole) (arg5 : Memref sig .tc .vmem S4x512 .f32) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S4x512 .f32) (harg9 : arg9.IsWhole) (arg10 : Memref sig .tc .vmem S1x4x8192 .f32) (harg10 : arg10.IsWhole)
    (hr : ¬rowReset i) (hcl : ¬colReset i) (x0 x1 x2 : Vec F S4x512 .f32) (x3 x4 x5 : Vec F S4x1024 .f32) (xo6 : Vec F S4x512 .f32) (xo7 : Vec F S1x4x8192 .f32) :
    Cert.Lib.over xo6 (runCarry (F := F) c i arg3 harg3 arg4 harg4 arg5 harg5 arg6 harg6 arg7 harg7 arg8 harg8 arg9 harg9 arg10 harg10 hr hcl x0 x1 x2 x3 x4 x5 xo6 xo7).1.1
      = k0_pay3 (k0_pay11 x5) (k0_pay12 x0 x1 x2 x3 x4 x5) (k0_pay13 x0 x1 x2) (k0_pay14 x3) (k0_pay15 x4) xo6 := by
  unfold runCarry
  dsimp only
  sl_unfold_words
  rw [Cert.Lib.over_cons_unit_zero (s := S4x512) xo6 zeros2]
  simp only [View.readAt_eq_ld, harg3.read_unread, harg4.read_unread, harg5.read_unread, harg6.read_unread, harg7.read_unread, harg8.read_unread, harg9.read_unread, View.ld_unit_zero (S := S4x512) zeros2, View.ld_unit_zero (S := S4x1024) zeros2]

theorem col_carry (c : Dev nD) (i : grid0.Coords) (arg3 : Memref sig .tc .vmem S4x512 .f32) (harg3 : arg3.IsWhole) (arg4 : Memref sig .tc .vmem S4x512 .f32) (harg4 : arg4.IsWhole) (arg5 : Memref sig .tc .vmem S4x512 .f32) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S4x512 .f32) (harg9 : arg9.IsWhole) (arg10 : Memref sig .tc .vmem S1x4x8192 .f32) (harg10 : arg10.IsWhole)
    (hr : ¬rowReset i) (hcl : ¬colReset i) (x0 x1 x2 : Vec F S4x512 .f32) (x3 x4 x5 : Vec F S4x1024 .f32) (xo6 : Vec F S4x512 .f32) (xo7 : Vec F S1x4x8192 .f32) :
    Cert.Lib.over xo7 (runCarry (F := F) c i arg3 harg3 arg4 harg4 arg5 harg5 arg6 harg6 arg7 harg7 arg8 harg8 arg9 harg9 arg10 harg10 hr hcl x0 x1 x2 x3 x4 x5 xo6 xo7).1.2
      = Cert.Lib.over xo7 [⟨colSlice i, k0_pay5 (k0_pay11 x5) (k0_pay12 x0 x1 x2 x3 x4 x5) (k0_pay13 x0 x1 x2) (k0_pay14 x3) (k0_pay15 x4) (View.ld xo7 (colSlice i))⟩] := by
  unfold runCarry
  dsimp only
  sl_unfold_words
  simp only [View.readAt_eq_ld, harg3.read_unread, harg4.read_unread, harg5.read_unread, harg6.read_unread, harg7.read_unread, harg8.read_unread, harg10.read_unread, View.ld_unit_zero (S := S4x512) zeros2, View.ld_unit_zero (S := S4x1024) zeros2]
  rfl

theorem row_row (c : Dev nD) (i : grid0.Coords) (arg3 : Memref sig .tc .vmem S4x512 .f32) (harg3 : arg3.IsWhole) (arg4 : Memref sig .tc .vmem S4x512 .f32) (harg4 : arg4.IsWhole) (arg5 : Memref sig .tc .vmem S4x512 .f32) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S4x512 .f32) (harg9 : arg9.IsWhole) (arg10 : Memref sig .tc .vmem S1x4x8192 .f32) (harg10 : arg10.IsWhole)
    (hr : rowReset i) (hcl : ¬colReset i) (x0 x1 x2 : Vec F S4x512 .f32) (x3 x4 x5 : Vec F S4x1024 .f32) (xo7 : Vec F S1x4x8192 .f32) :
    View.canon (runRowReset (F := F) c i arg3 harg3 arg4 harg4 arg5 harg5 arg6 harg6 arg7 harg7 arg8 harg8 arg9 harg9 arg10 harg10 hr hcl x0 x1 x2 x3 x4 x5 xo7).1.1
      = k0_pay3 (k0_pay11 x5) (k0_pay12 x0 x1 x2 x3 x4 x5) (k0_pay13 x0 x1 x2) (k0_pay14 x3) (k0_pay15 x4) (k0_pay2 (F := F)) := by
  unfold runRowReset
  dsimp only
  sl_unfold_words
  rw [View.canon_cons_unit_zero (S := S4x512) zeros2]
  simp only [View.readAt_eq_ld, harg3.read_unread, harg4.read_unread, harg5.read_unread, harg6.read_unread, harg7.read_unread, harg8.read_unread, View.ld_unit_zero (S := S4x512) zeros2, View.ld_unit_zero (S := S4x1024) zeros2,
    View.readCov_unit_zero (S := S4x512) _ zeros2]

theorem col_row (c : Dev nD) (i : grid0.Coords) (arg3 : Memref sig .tc .vmem S4x512 .f32) (harg3 : arg3.IsWhole) (arg4 : Memref sig .tc .vmem S4x512 .f32) (harg4 : arg4.IsWhole) (arg5 : Memref sig .tc .vmem S4x512 .f32) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S4x512 .f32) (harg9 : arg9.IsWhole) (arg10 : Memref sig .tc .vmem S1x4x8192 .f32) (harg10 : arg10.IsWhole)
    (hr : rowReset i) (hcl : ¬colReset i) (x0 x1 x2 : Vec F S4x512 .f32) (x3 x4 x5 : Vec F S4x1024 .f32) (xo7 : Vec F S1x4x8192 .f32) :
    Cert.Lib.over xo7 (runRowReset (F := F) c i arg3 harg3 arg4 harg4 arg5 harg5 arg6 harg6 arg7 harg7 arg8 harg8 arg9 harg9 arg10 harg10 hr hcl x0 x1 x2 x3 x4 x5 xo7).1.2
      = Cert.Lib.over xo7 [⟨colSlice i, k0_pay5 (k0_pay11 x5) (k0_pay12 x0 x1 x2 x3 x4 x5) (k0_pay13 x0 x1 x2) (k0_pay14 x3) (k0_pay15 x4) (View.ld xo7 (colSlice i))⟩] := by
  unfold runRowReset
  dsimp only
  sl_unfold_words
  simp only [View.readAt_eq_ld, harg3.read_unread, harg4.read_unread, harg5.read_unread, harg6.read_unread, harg7.read_unread, harg8.read_unread, harg10.read_unread, View.ld_unit_zero (S := S4x512) zeros2, View.ld_unit_zero (S := S4x1024) zeros2]
  rfl

theorem row_both (c : Dev nD) (i : grid0.Coords) (arg3 : Memref sig .tc .vmem S4x512 .f32) (harg3 : arg3.IsWhole) (arg4 : Memref sig .tc .vmem S4x512 .f32) (harg4 : arg4.IsWhole) (arg5 : Memref sig .tc .vmem S4x512 .f32) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S4x512 .f32) (harg9 : arg9.IsWhole) (arg10 : Memref sig .tc .vmem S1x4x8192 .f32) (harg10 : arg10.IsWhole)
    (hr : rowReset i) (hcl : colReset i) (x0 x1 x2 : Vec F S4x512 .f32) (x3 x4 x5 : Vec F S4x1024 .f32) :
    View.canon (runBothReset (F := F) c i arg3 harg3 arg4 harg4 arg5 harg5 arg6 harg6 arg7 harg7 arg8 harg8 arg9 harg9 arg10 harg10 hr hcl x0 x1 x2 x3 x4 x5).1.1
      = k0_pay3 (k0_pay11 x5) (k0_pay12 x0 x1 x2 x3 x4 x5) (k0_pay13 x0 x1 x2) (k0_pay14 x3) (k0_pay15 x4) (k0_pay2 (F := F)) := by
  unfold runBothReset
  dsimp only
  sl_unfold_words
  rw [View.canon_cons_unit_zero (S := S4x512) zeros2]
  simp only [View.readAt_eq_ld, harg3.read_unread, harg4.read_unread, harg5.read_unread, harg6.read_unread, harg7.read_unread, harg8.read_unread, View.ld_unit_zero (S := S4x512) zeros2, View.ld_unit_zero (S := S4x1024) zeros2,
    View.readCov_unit_zero (S := S4x512) _ zeros2]

/-- The +∞ fill of the column buffer, as buffer contents. -/
abbrev colFill : Vec F S1x4x8192 .f32 := k0_pay4 (F := F)

theorem col_both (c : Dev nD) (i : grid0.Coords) (arg3 : Memref sig .tc .vmem S4x512 .f32) (harg3 : arg3.IsWhole) (arg4 : Memref sig .tc .vmem S4x512 .f32) (harg4 : arg4.IsWhole) (arg5 : Memref sig .tc .vmem S4x512 .f32) (harg5 : arg5.IsWhole) (arg6 : Memref sig .tc .vmem S4x1024 .f32) (harg6 : arg6.IsWhole) (arg7 : Memref sig .tc .vmem S4x1024 .f32) (harg7 : arg7.IsWhole) (arg8 : Memref sig .tc .vmem S4x1024 .f32) (harg8 : arg8.IsWhole) (arg9 : Memref sig .tc .vmem S4x512 .f32) (harg9 : arg9.IsWhole) (arg10 : Memref sig .tc .vmem S1x4x8192 .f32) (harg10 : arg10.IsWhole)
    (hr : rowReset i) (hcl : colReset i) (x0 x1 x2 : Vec F S4x512 .f32) (x3 x4 x5 : Vec F S4x1024 .f32) :
    View.canon (runBothReset (F := F) c i arg3 harg3 arg4 harg4 arg5 harg5 arg6 harg6 arg7 harg7 arg8 harg8 arg9 harg9 arg10 harg10 hr hcl x0 x1 x2 x3 x4 x5).1.2
      = Cert.Lib.over (colFill (F := F)) [⟨colSlice i, k0_pay5 (k0_pay11 x5) (k0_pay12 x0 x1 x2 x3 x4 x5) (k0_pay13 x0 x1 x2) (k0_pay14 x3) (k0_pay15 x4) (View.ld (colFill (F := F)) (colSlice i))⟩] := by
  unfold runBothReset
  dsimp only
  sl_unfold_words
  rw [View.canon_cons, View.canon_unit_zero (S := S1x4x8192) zeros3]
  simp only [View.readAt_eq_ld, harg3.read_unread, harg4.read_unread, harg5.read_unread, harg6.read_unread, harg7.read_unread, harg8.read_unread, View.ld_unit_zero (S := S4x512) zeros2, View.ld_unit_zero (S := S4x1024) zeros2]
  rw [View.read_writes_junk_eq_canon, View.canon_unit_zero (S := S1x4x8192) zeros3]
  rfl

end Cert.KernelIdeal.Tiled

end
-- ==== Proof.AtReals.Steps.lean ====
/-
  One position of the sweep, in one shape for all three cases: the row buffer becomes the earlier row minimum lowered
  by the tile's row minima, the column buffer the earlier contents with the column tile's slice lowered by the tile's
  column minima — where "earlier" is +∞ at a reset position and what the position before left otherwise.
-/
import proofs.«115162_j6708738916982_2_alg».proof.Proof.AtReals.Stores

set_option maxRecDepth 16384

noncomputable section

namespace Cert.KernelIdeal.Tiled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The +∞ fill of the row buffer, as buffer contents. -/
abbrev rowFill : Vec F S4x512 .f32 := k0_pay2 (F := F)

/-- The row buffer after a position, from its six blocks and the earlier row buffer. -/
abbrev rowNew (x0 x1 x2 : Vec F S4x512 .f32) (x3 x4 x5 : Vec F S4x1024 .f32) (X6 : Vec F S4x512 .f32) : Vec F S4x512 .f32 :=
  k0_pay3 (k0_pay11 x5) (k0_pay12 x0 x1 x2 x3 x4 x5) (k0_pay13 x0 x1 x2) (k0_pay14 x3) (k0_pay15 x4) X6
/-- The column buffer after a position, from its six blocks and the earlier column buffer. -/
abbrev colNew (i : grid0.Coords) (x0 x1 x2 : Vec F S4x512 .f32) (x3 x4 x5 : Vec F S4x1024 .f32) (X7 : Vec F S1x4x8192 .f32) : Vec F S1x4x8192 .f32 :=
  Cert.Lib.over X7 [⟨colSlice i, k0_pay5 (k0_pay11 x5) (k0_pay12 x0 x1 x2 x3 x4 x5) (k0_pay13 x0 x1 x2) (k0_pay14 x3) (k0_pay15 x4) (View.ld X7 (colSlice i))⟩]

theorem rowStep_both (c : Dev nD) (t : Fin cfg0.N) (h64 : t.val % 64 = 0) :
    (outsAt m c t.val t.isLt).1 = rowNew (iblk m c 0 t) (iblk m c 1 t) (iblk m c 2 t) (iblk m c 3 t) (iblk m c 4 t) (iblk m c 5 t) (rowFill (F := F)) := by
  rw [rowAfter_both m c t h64]; unfold bothAt
  exact row_both c (grid0.coords t) (ms0 t) (hs0 t) (ms1 t) (hs1 t) (ms2 t) (hs2 t) (ms3 t) (hs3 t) (ms4 t) (hs4 t) (ms5 t) (hs5 t) (ms6 t) (hs6 t) (ms7 t) (hs7 t) ((rowReset_iff t).mpr (by omega)) ((colReset_iff t).mpr h64) (iblk m c 0 t) (iblk m c 1 t) (iblk m c 2 t) (iblk m c 3 t) (iblk m c 4 t) (iblk m c 5 t)
theorem colStep_both (c : Dev nD) (t : Fin cfg0.N) (h64 : t.val % 64 = 0) :
    (outsAt m c t.val t.isLt).2 = colNew (grid0.coords t) (iblk m c 0 t) (iblk m c 1 t) (iblk m c 2 t) (iblk m c 3 t) (iblk m c 4 t) (iblk m c 5 t) (colFill (F := F)) := by
  rw [colAfter_both m c t h64]; unfold bothAt
  exact col_both c (grid0.coords t) (ms0 t) (hs0 t) (ms1 t) (hs1 t) (ms2 t) (hs2 t) (ms3 t) (hs3 t) (ms4 t) (hs4 t) (ms5 t) (hs5 t) (ms6 t) (hs6 t) (ms7 t) (hs7 t) ((rowReset_iff t).mpr (by omega)) ((colReset_iff t).mpr h64) (iblk m c 0 t) (iblk m c 1 t) (iblk m c 2 t) (iblk m c 3 t) (iblk m c 4 t) (iblk m c 5 t)

theorem rowStep_row (c : Dev nD) (t : Fin cfg0.N) (h8 : t.val % 8 = 0) (h64 : ¬t.val % 64 = 0) :
    (outsAt m c t.val t.isLt).1 = rowNew (iblk m c 0 t) (iblk m c 1 t) (iblk m c 2 t) (iblk m c 3 t) (iblk m c 4 t) (iblk m c 5 t) (rowFill (F := F)) := by
  rw [rowAfter_row m c t h8 h64]; unfold rowAt
  exact row_row c (grid0.coords t) (ms0 t) (hs0 t) (ms1 t) (hs1 t) (ms2 t) (hs2 t) (ms3 t) (hs3 t) (ms4 t) (hs4 t) (ms5 t) (hs5 t) (ms6 t) (hs6 t) (ms7 t) (hs7 t) ((rowReset_iff t).mpr h8) (fun h => h64 ((colReset_iff t).mp h)) (iblk m c 0 t) (iblk m c 1 t) (iblk m c 2 t) (iblk m c 3 t) (iblk m c 4 t) (iblk m c 5 t) (prevOuts m c t).2
theorem colStep_row (c : Dev nD) (t : Fin cfg0.N) (h8 : t.val % 8 = 0) (h64 : ¬t.val % 64 = 0) :
    (outsAt m c t.val t.isLt).2 = colNew (grid0.coords t) (iblk m c 0 t) (iblk m c 1 t) (iblk m c 2 t) (iblk m c 3 t) (iblk m c 4 t) (iblk m c 5 t) (prevOuts m c t).2 := by
  rw [colAfter_row m c t h8 h64]; unfold rowAt
  exact col_row c (grid0.coords t) (ms0 t) (hs0 t) (ms1 t) (hs1 t) (ms2 t) (hs2 t) (ms3 t) (hs3 t) (ms4 t) (hs4 t) (ms5 t) (hs5 t) (ms6 t) (hs6 t) (ms7 t) (hs7 t) ((rowReset_iff t).mpr h8) (fun h => h64 ((colReset_iff t).mp h)) (iblk m c 0 t) (iblk m c 1 t) (iblk m c 2 t) (iblk m c 3 t) (iblk m c 4 t) (iblk m c 5 t) (prevOuts m c t).2

theorem rowStep_carry (c : Dev nD) (t : Fin cfg0.N) (h8 : ¬t.val % 8 = 0) :
    (outsAt m c t.val t.isLt).1 = rowNew (iblk m c 0 t) (iblk m c 1 t) (iblk m c 2 t) (iblk m c 3 t) (iblk m c 4 t) (iblk m c 5 t) (prevOuts m c t).1 := by
  rw [rowAfter_carry m c t h8]; unfold carryAt
  exact row_carry c (grid0.coords t) (ms0 t) (hs0 t) (ms1 t) (hs1 t) (ms2 t) (hs2 t) (ms3 t) (hs3 t) (ms4 t) (hs4 t) (ms5 t) (hs5 t) (ms6 t) (hs6 t) (ms7 t) (hs7 t) (fun h => h8 ((rowReset_iff t).mp h)) (fun h => h8 (by have := (colReset_iff t).mp h; omega)) (iblk m c 0 t) (iblk m c 1 t) (iblk m c 2 t) (iblk m c 3 t) (iblk m c 4 t) (iblk m c 5 t) (prevOuts m c t).1 (prevOuts m c t).2
theorem colStep_carry (c : Dev nD) (t : Fin cfg0.N) (h8 : ¬t.val % 8 = 0) :
    (outsAt m c t.val t.isLt).2 = colNew (grid0.coords t) (iblk m c 0 t) (iblk m c 1 t) (iblk m c 2 t) (iblk m c 3 t) (iblk m c 4 t) (iblk m c 5 t) (prevOuts m c t).2 := by
  rw [colAfter_carry m c t h8]; unfold carryAt
  exact col_carry c (grid0.coords t) (ms0 t) (hs0 t) (ms1 t) (hs1 t) (ms2 t) (hs2 t) (ms3 t) (hs3 t) (ms4 t) (hs4 t) (ms5 t) (hs5 t) (ms6 t) (hs6 t) (ms7 t) (hs7 t) (fun h => h8 ((rowReset_iff t).mp h)) (fun h => h8 (by have := (colReset_iff t).mp h; omega)) (iblk m c 0 t) (iblk m c 1 t) (iblk m c 2 t) (iblk m c 3 t) (iblk m c 4 t) (iblk m c 5 t) (prevOuts m c t).1 (prevOuts m c t).2

end Cert.KernelIdeal.Tiled

end
-- ==== Proof.ChamferSpec.lean ====
/-
  The two sides of the comparison as closed functions of the two point clouds, with no program in sight.

  A point cloud is `P b n d`: batch `b < 4`, point `n < 8192`, coordinate `d < 3`, an extended real.
  For a pair of points the tiled side spells the squared distance as
      (|a|² + |b|²) − (a₀·(2·b₀) + a₁·(2·b₁) + a₂·(2·b₂))          (`sqTiled`)
  with |a|² = (a₀·a₀ + a₁·a₁) + a₂·a₂, and the plain side as
      (Σ_d a_d·a_d + Σ_d b_d·b_d) − 2·Σ_d a_d·b_d                    (`sqPlain`).
  The tiled side takes the two nearest-neighbour minima of the SQUARED distance, clamps at zero, takes square
  roots, and adds the two means (`tiledLoss`); the plain side clamps and takes the root of every pair first,
  takes the minima of the distances, and takes one mean of their sum (`plainLoss`).
  A minimum over a finite family is `Finset.univ.inf`, whose value on the empty family is `⊤`: the fold of
  `min` from `+∞`. The mean divides by 4·8192 = 32768.
-/
import Idealize.ShloMosaic.PureOps.Ideal

noncomputable section

namespace Cert.Chamfer

open Idealize.ShloMosaic

/-- The real 2 as an extended real. -/
def two : EReal := ((2 : ℝ) : EReal)
/-- The number of (batch, point) pairs, 4·8192, as an extended real. -/
def cnt : EReal := ((32768 : ℝ) : EReal)

variable (A B : Fin 4 → Fin 8192 → Fin 3 → EReal)

/-- The squared distance of point `n` of `A` and point `m` of `B` in batch `b`, as the tiled side spells it. -/
def sqTiled (b : Fin 4) (n m : Fin 8192) : EReal :=
  ((A b n 0 * A b n 0 + A b n 1 * A b n 1 + A b n 2 * A b n 2)
      + (B b m 0 * B b m 0 + B b m 1 * B b m 1 + B b m 2 * B b m 2))
    - (A b n 0 * (two * B b m 0) + A b n 1 * (two * B b m 1) + A b n 2 * (two * B b m 2))

/-- The same squared distance as the plain side spells it. -/
def sqPlain (b : Fin 4) (n m : Fin 8192) : EReal :=
  ((∑ d : Fin 3, A b n d * A b n d) + (∑ d : Fin 3, B b m d * B b m d))
    - two * (∑ d : Fin 3, A b n d * B b m d)

/-- The distance itself on the plain side: clamp at zero, then the square root. -/
def dist (b : Fin 4) (n m : Fin 8192) : EReal := Ideal.sqrt (max (sqPlain A B b n m) 0)

/-- The tiled side's result: the mean over (b, n) of √max(min_m sq, 0) plus the mean over (b, m) of
    √max(min_n sq, 0). -/
def tiledLoss : EReal :=
  Ideal.div (∑ b : Fin 4, ∑ n : Fin 8192, Ideal.sqrt (max (Finset.univ.inf fun m : Fin 8192 => sqTiled A B b n m) 0)) cnt
    + Ideal.div (∑ b : Fin 4, ∑ m : Fin 8192, Ideal.sqrt (max (Finset.univ.inf fun n : Fin 8192 => sqTiled A B b n m) 0)) cnt

/-- The plain side's result: the mean over (b, k) of min_m dist(k, m) + min_n dist(n, k). -/
def plainLoss : EReal :=
  Ideal.div (∑ b : Fin 4, ∑ k : Fin 8192,
    ((Finset.univ.inf fun m : Fin 8192 => dist A B b k m) + (Finset.univ.inf fun n : Fin 8192 => dist A B b n k))) cnt

end Cert.Chamfer

end
-- ==== Proof.LibWords.lean ====
/-
  The five 32-bit patterns the two programs spell, as the extended reals they denote: +0.0 is 0, 2.0 is the
  real 2, the all-ones exponent with a zero significand is +∞, 32768.0 = 2¹⁵ is the real 32768, and 1.0 is 1.
  A normal pattern with exponent field E and significand field T denotes (2²³ + T) · 2^(E − 127 − 23).
-/
import Idealize.ShloMosaic.PureOps.Ideal

noncomputable section

namespace Cert.Chamfer.Words

open Idealize.ShloMosaic

/-- +0.0 denotes 0. -/
theorem ofBits_zero : Ideal.ofBits .f32 0x00000000#32 = 0 := by
  simp [Ideal.ofBits, Ideal.ieee]

/-- 2.0: exponent field 128, significand field 0, so 2²³ · 2^(128 − 150) = 2. -/
theorem ofBits_two : Ideal.ofBits .f32 0x40000000#32 = ((2 : ℝ) : EReal) := by
  simp [Ideal.ofBits, Ideal.ieee, -EReal.coe_mul]; norm_num

/-- The all-ones exponent with a zero significand and a clear sign bit denotes +∞. -/
theorem ofBits_top : Ideal.ofBits .f32 0x7F800000#32 = ⊤ := by
  simp [Ideal.ofBits, Ideal.ieee]

/-- 32768.0: exponent field 142, significand field 0, so 2²³ · 2^(142 − 150) = 2¹⁵. -/
theorem ofBits_32768 : Ideal.ofBits .f32 0x47000000#32 = ((32768 : ℝ) : EReal) := by
  simp [Ideal.ofBits, Ideal.ieee, -EReal.coe_mul]; norm_num

/-- 1.0: exponent field 127, significand field 0, so 2²³ · 2^(127 − 150) = 1. -/
theorem ofBits_one : Ideal.ofBits .f32 0x3F800000#32 = 1 := by
  simp [Ideal.ofBits, Ideal.ieee, -EReal.coe_mul]; norm_num

end Cert.Chamfer.Words

end
-- ==== Proof.LibMinReduce.lean ====
/-
  A minimum-reduction over one axis, read at an index.

  On the extended reals the minimum commutes and associates, so a reduction by minimum over one axis of an array,
  read at a result index j, is the fold of `min` — started from the value of the accumulator's pattern — over the
  coordinates k of the reduced axis, of the array at j with k inserted on that axis. (The library states this for
  the maximum; this is the same statement for the minimum, proved the same way.) When the accumulator denotes +∞
  the fold is the infimum of the family.
-/
import Idealize.ShloMosaic.PureOps.Ideal.Laws
import Idealize.ShloMosaic.PureOps.Reduce

noncomputable section

namespace Cert.Chamfer.MinReduce

open Idealize.ShloMosaic

variable {φ : FTy}

/-- A float `vector.multi_reduction <minimumf>` over one axis, read at the ideal values: the fold of `min` from
    the accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The fold of `min` from +∞ over a finite family of extended reals is the family's infimum. -/
theorem fold_min_top {ι : Type} (s : Finset ι) (f : ι → EReal) : s.fold min ⊤ f = s.inf f := rfl

end Cert.Chamfer.MinReduce

end
-- ==== Proof.AtReals.TileValue.lean ====
/-
  The body's arithmetic on one tile, read at an index, over the extended reals.

  A tile pairs 512 points of the first cloud (coordinate blocks x0 x1 x2 : [4, 512]) with 1024 points of the second
  (x3 x4 x5 : [4, 1024]). The body forms, for every pair (r, y) of a batch b,
      (|a|² + |b|²) − (a₀·(2·b₀) + a₁·(2·b₁) + a₂·(2·b₂)),
  by broadcasting the [4, 512] arrays along the last axis and the [4, 1024] arrays along the middle axis of
  [4, 512, 1024]; it then takes the minimum over y (for each r) and over r (for each y), each started from +∞,
  and folds each into the running minimum it loaded. Read at an index, a broadcast column is the array at (b, r), a
  broadcast row is the array at (b, y), and a minimum started from +∞ over one axis is the infimum over that axis.
-/
import proofs.«115162_j6708738916982_2_alg».proof.Proof.Gen.KernelIdeal.Skeleton
import proofs.«115162_j6708738916982_2_alg».proof.Proof.ChamferSpec
import proofs.«115162_j6708738916982_2_alg».proof.Proof.LibWords
import proofs.«115162_j6708738916982_2_alg».proof.Proof.LibMinReduce
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Cert.KernelIdeal Cert.KernelIdeal.Gen Idealize.ShloMosaic Idealize.ShloMosaic.ValueIdx
open Cert.Chamfer (two)

/-- The squared distance of point r of the first block and point y of the second, in batch b, as the body spells it. -/
def tileSq (x0 x1 x2 : FVec Ideal S4x512 .f32) (x3 x4 x5 : FVec Ideal S4x1024 .f32) (b : Fin 4) (r : Fin 512) (y : Fin 1024) : EReal :=
  ((x0 (ix2 b r) * x0 (ix2 b r) + x1 (ix2 b r) * x1 (ix2 b r) + x2 (ix2 b r) * x2 (ix2 b r))
      + (x3 (ix2 b y) * x3 (ix2 b y) + x4 (ix2 b y) * x4 (ix2 b y) + x5 (ix2 b y) * x5 (ix2 b y)))
    - (x0 (ix2 b r) * (Cert.Chamfer.two * x3 (ix2 b y)) + x1 (ix2 b r) * (Cert.Chamfer.two * x4 (ix2 b y))
        + x2 (ix2 b r) * (Cert.Chamfer.two * x5 (ix2 b y)))

/-! ## The two broadcasts -/

/-- A [4, 512] array as a column of [4, 512, 1024]: a unit axis appended, then broadcast along it. -/
def col (v : FVec Ideal S4x512 .f32) : FVec Ideal S4x512x1024 .f32 :=
  broadcastTo S4x512x1024 (shapeCast S4x512x1 v shapeCasts_S4x512_S4x512x1) broadcasts_S4x512x1_S4x512x1024

/-- A [4, 1024] array as a row of [4, 512, 1024]: a unit axis inserted in the middle, then broadcast along it. -/
def row (w : FVec Ideal S4x1024 .f32) : FVec Ideal S4x512x1024 .f32 :=
  broadcastTo S4x512x1024 (shapeCast S4x1x1024 w shapeCasts_S4x1024_S4x1x1024) broadcasts_S4x1x1024_S4x512x1024

/-- The column at (b, r, y) is the array at (b, r). -/
theorem col_at (v : FVec Ideal S4x512 .f32) (b : Fin 4) (r : Fin 512) (y : Fin 1024) : col v (ix3 b r y) = v (ix2 b r) := by
  unfold col
  refine (broadcastTo_apply _ _ (ix3 b r y) (ix3 b r (0 : Fin 1)) (fun a => ?_)).trans
    (shapeCast_apply v _ (ix3 b r (0 : Fin 1)) (ix2 b r) ?_)
  · match a with
    | ⟨0, _⟩ => show b.val = if (4 : Nat) = 1 then 0 else b.val; rw [if_neg (by decide)]
    | ⟨1, _⟩ => show r.val = if (512 : Nat) = 1 then 0 else r.val; rw [if_neg (by decide)]
    | ⟨2, _⟩ => show 0 = if (1 : Nat) = 1 then 0 else y.val; rw [if_pos rfl]
  · rw [Shape.rowMajor_val_two, Shape.rowMajor_val_three]
    show b.val * 512 + r.val = (b.val * 512 + r.val) * 1 + 0
    omega

/-- The row at (b, r, y) is the array at (b, y). -/
theorem row_at (w : FVec Ideal S4x1024 .f32) (b : Fin 4) (r : Fin 512) (y : Fin 1024) : row w (ix3 b r y) = w (ix2 b y) := by
  unfold row
  refine (broadcastTo_apply _ _ (ix3 b r y) (ix3 b (0 : Fin 1) y) (fun a => ?_)).trans
    (shapeCast_apply w _ (ix3 b (0 : Fin 1) y) (ix2 b y) ?_)
  · match a with
    | ⟨0, _⟩ => show b.val = if (4 : Nat) = 1 then 0 else b.val; rw [if_neg (by decide)]
    | ⟨1, _⟩ => show 0 = if (1 : Nat) = 1 then 0 else r.val; rw [if_pos rfl]
    | ⟨2, _⟩ => show y.val = if (1024 : Nat) = 1 then 0 else y.val; rw [if_neg (by decide)]
  · rw [Shape.rowMajor_val_two, Shape.rowMajor_val_three]
    show b.val * 1024 + y.val = (b.val * 1 + 0) * 1024 + y.val
    omega

/-! ## The loaded blocks: a cast to the same shape is the identity -/

theorem pay6_eq (v : FVec Ideal S4x512 .f32) : k0_pay6 (F := Ideal) v = v := shapeCast_self _ _
theorem pay7_eq (v : FVec Ideal S4x512 .f32) : k0_pay7 (F := Ideal) v = v := shapeCast_self _ _
theorem pay8_eq (v : FVec Ideal S4x512 .f32) : k0_pay8 (F := Ideal) v = v := shapeCast_self _ _
theorem pay9_eq (v : FVec Ideal S4x1024 .f32) : k0_pay9 (F := Ideal) v = v := shapeCast_self _ _
theorem pay10_eq (v : FVec Ideal S4x1024 .f32) : k0_pay10 (F := Ideal) v = v := shapeCast_self _ _
theorem pay11_eq (v : FVec Ideal S4x1024 .f32) : k0_pay11 (F := Ideal) v = v := shapeCast_self _ _

variable (x0 x1 x2 : FVec Ideal S4x512 .f32) (x3 x4 x5 : FVec Ideal S4x1024 .f32) (b : Fin 4) (r : Fin 512) (y : Fin 1024)

/-! ## The squared norms and the doubled inner product -/

/-- |a|² of point r. -/
theorem pay13_at : k0_pay13 (F := Ideal) x0 x1 x2 (ix2 b r)
    = x0 (ix2 b r) * x0 (ix2 b r) + x1 (ix2 b r) * x1 (ix2 b r) + x2 (ix2 b r) * x2 (ix2 b r) := by
  unfold k0_pay13
  rw [pay6_eq, pay7_eq, pay8_eq]
  rfl

theorem pay14_at : k0_pay14 (F := Ideal) x3 (ix2 b y) = x3 (ix2 b y) * x3 (ix2 b y) := by
  unfold k0_pay14
  rw [pay9_eq]
  rfl

theorem pay15_at : k0_pay15 (F := Ideal) x4 (ix2 b y) = x4 (ix2 b y) * x4 (ix2 b y) := by
  unfold k0_pay15
  rw [pay10_eq]
  rfl

/-- The doubled second-cloud coordinate: 2 · b_d. -/
def dbl (w : FVec Ideal S4x1024 .f32) : FVec Ideal S4x1024 .f32 :=
  mulf (broadcast S4x1024 (Scalar.ofBits (F := Ideal) .f32 0x40000000#32)) w

theorem dbl_at (w : FVec Ideal S4x1024 .f32) : dbl w (ix2 b y) = Cert.Chamfer.two * w (ix2 b y) := by
  show Ideal.ofBits .f32 0x40000000#32 * w (ix2 b y) = _
  rw [Cert.Chamfer.Words.ofBits_two]
  rfl

/-- 2·(a·b) as the body spells it: a₀·(2·b₀) + a₁·(2·b₁) + a₂·(2·b₂). -/
theorem pay12_at : k0_pay12 (F := Ideal) x0 x1 x2 x3 x4 x5 (ix3 b r y)
    = x0 (ix2 b r) * (Cert.Chamfer.two * x3 (ix2 b y)) + x1 (ix2 b r) * (Cert.Chamfer.two * x4 (ix2 b y))
        + x2 (ix2 b r) * (Cert.Chamfer.two * x5 (ix2 b y)) := by
  show col (k0_pay6 (F := Ideal) x0) (ix3 b r y) * row (dbl (k0_pay9 (F := Ideal) x3)) (ix3 b r y)
      + col (k0_pay7 (F := Ideal) x1) (ix3 b r y) * row (dbl (k0_pay10 (F := Ideal) x4)) (ix3 b r y)
      + col (k0_pay8 (F := Ideal) x2) (ix3 b r y) * row (dbl (k0_pay11 (F := Ideal) x5)) (ix3 b r y) = _
  rw [col_at, col_at, col_at, row_at, row_at, row_at, dbl_at, dbl_at, dbl_at,
    pay6_eq, pay7_eq, pay8_eq, pay9_eq, pay10_eq, pay11_eq]

/-! ## The squared distance of a pair -/

theorem pay1_at :
    k0_pay1 (F := Ideal) (k0_pay11 x5) (k0_pay12 x0 x1 x2 x3 x4 x5) (k0_pay13 x0 x1 x2) (k0_pay14 x3) (k0_pay15 x4) (ix3 b r y)
      = tileSq x0 x1 x2 x3 x4 x5 b r y := by
  show (col (k0_pay13 (F := Ideal) x0 x1 x2) (ix3 b r y)
        + row (addf (addf (k0_pay14 (F := Ideal) x3) (k0_pay15 (F := Ideal) x4))
            (mulf (k0_pay11 (F := Ideal) x5) (k0_pay11 (F := Ideal) x5))) (ix3 b r y))
      - k0_pay12 (F := Ideal) x0 x1 x2 x3 x4 x5 (ix3 b r y) = _
  rw [col_at, row_at, pay12_at, pay13_at]
  show (_ + (k0_pay14 (F := Ideal) x3 (ix2 b y) + k0_pay15 (F := Ideal) x4 (ix2 b y)
        + k0_pay11 (F := Ideal) x5 (ix2 b y) * k0_pay11 (F := Ideal) x5 (ix2 b y))) - _ = _
  rw [pay14_at, pay15_at, pay11_eq]
  rfl

/-! ## The two minima, folded into the running minima -/

/-- (b, r) with y inserted on the last axis is (b, r, y). -/
theorem lift_last (y : Fin 1024) : reduces_S4x512x1024_S4x512.lift (ix2 b r) y = ix3 b r y := by
  funext c; apply Fin.ext
  match c with
  | ⟨0, _⟩ => rfl
  | ⟨1, _⟩ => rfl
  | ⟨2, _⟩ => rfl

/-- (b, y) with r inserted on the middle axis is (b, r, y). -/
theorem lift_mid (r : Fin 512) : reduces_S4x512x1024_S4x1024.lift (ix2 b y) r = ix3 b r y := by
  funext c; apply Fin.ext
  match c with
  | ⟨0, _⟩ => rfl
  | ⟨1, _⟩ => rfl
  | ⟨2, _⟩ => rfl

/-- The minimum over the tile's second-cloud points, from +∞: the infimum over y. -/
theorem rowMin_at :
    multiReduction (F := Ideal) .minimumf [2] S4x512
        (k0_pay1 (F := Ideal) (k0_pay11 x5) (k0_pay12 x0 x1 x2 x3 x4 x5) (k0_pay13 x0 x1 x2) (k0_pay14 x3) (k0_pay15 x4))
        0x7F800000#32 reduces_S4x512x1024_S4x512 (.inl rfl) rfl (ix2 b r)
      = Finset.univ.inf fun y : Fin 1024 => tileSq x0 x1 x2 x3 x4 x5 b r y := by
  refine (Cert.Chamfer.MinReduce.multiReduction_minimumf_single _ _ _ _ _ (ix2 b r)).trans ?_
  have hf : (fun y : Fin 1024 => k0_pay1 (F := Ideal) (k0_pay11 x5) (k0_pay12 x0 x1 x2 x3 x4 x5) (k0_pay13 x0 x1 x2)
        (k0_pay14 x3) (k0_pay15 x4) (reduces_S4x512x1024_S4x512.lift (ix2 b r) y))
      = fun y : Fin 1024 => tileSq x0 x1 x2 x3 x4 x5 b r y :=
    funext fun y => (congrArg _ (lift_last b r y)).trans (pay1_at x0 x1 x2 x3 x4 x5 b r y)
  show Finset.fold min (Ideal.ofBits .f32 0x7F800000#32)
    (fun y : Fin 1024 => k0_pay1 (F := Ideal) (k0_pay11 x5) (k0_pay12 x0 x1 x2 x3 x4 x5) (k0_pay13 x0 x1 x2)
        (k0_pay14 x3) (k0_pay15 x4) (reduces_S4x512x1024_S4x512.lift (ix2 b r) y)) (Finset.univ : Finset (Fin 1024)) = _
  rw [hf, Cert.Chamfer.Words.ofBits_top]
  rfl

/-- The minimum over the tile's first-cloud points, from +∞: the infimum over r. -/
theorem colMin_at :
    multiReduction (F := Ideal) .minimumf [1] S4x1024
        (k0_pay1 (F := Ideal) (k0_pay11 x5) (k0_pay12 x0 x1 x2 x3 x4 x5) (k0_pay13 x0 x1 x2) (k0_pay14 x3) (k0_pay15 x4))
        0x7F800000#32 reduces_S4x512x1024_S4x1024 (.inl rfl) rfl (ix2 b y)
      = Finset.univ.inf fun r : Fin 512 => tileSq x0 x1 x2 x3 x4 x5 b r y := by
  refine (Cert.Chamfer.MinReduce.multiReduction_minimumf_single _ _ _ _ _ (ix2 b y)).trans ?_
  have hf : (fun r : Fin 512 => k0_pay1 (F := Ideal) (k0_pay11 x5) (k0_pay12 x0 x1 x2 x3 x4 x5) (k0_pay13 x0 x1 x2)
        (k0_pay14 x3) (k0_pay15 x4) (reduces_S4x512x1024_S4x1024.lift (ix2 b y) r))
      = fun r : Fin 512 => tileSq x0 x1 x2 x3 x4 x5 b r y :=
    funext fun r => (congrArg _ (lift_mid b y r)).trans (pay1_at x0 x1 x2 x3 x4 x5 b r y)
  show Finset.fold min (Ideal.ofBits .f32 0x7F800000#32)
    (fun r : Fin 512 => k0_pay1 (F := Ideal) (k0_pay11 x5) (k0_pay12 x0 x1 x2 x3 x4 x5) (k0_pay13 x0 x1 x2)
        (k0_pay14 x3) (k0_pay15 x4) (reduces_S4x512x1024_S4x1024.lift (ix2 b y) r)) (Finset.univ : Finset (Fin 512)) = _
  rw [hf, Cert.Chamfer.Words.ofBits_top]
  rfl

/-- The stored row minima: the loaded running minimum at (b, r), folded with the tile's infimum over y. -/
theorem pay3_at (old : Vec Ideal S4x512 .f32) :
    k0_pay3 (F := Ideal) (k0_pay11 x5) (k0_pay12 x0 x1 x2 x3 x4 x5) (k0_pay13 x0 x1 x2) (k0_pay14 x3) (k0_pay15 x4) old (ix2 b r)
      = min (old (ix2 b r)) (Finset.univ.inf fun y : Fin 1024 => tileSq x0 x1 x2 x3 x4 x5 b r y) := by
  show min (shapeCast S4x512 old shapeCasts_S4x512_S4x512 (ix2 b r))
      (multiReduction (F := Ideal) .minimumf [2] S4x512
        (k0_pay1 (F := Ideal) (k0_pay11 x5) (k0_pay12 x0 x1 x2 x3 x4 x5) (k0_pay13 x0 x1 x2) (k0_pay14 x3) (k0_pay15 x4))
        0x7F800000#32 reduces_S4x512x1024_S4x512 (.inl rfl) rfl (ix2 b r)) = _
  rw [rowMin_at, shapeCast_self]

/-- The stored column minima: the loaded running minimum at (0, b, y), folded with the tile's infimum over r. -/
theorem pay5_at (v68 : Vec Ideal S1x4x1024 .f32) :
    k0_pay5 (F := Ideal) (k0_pay11 x5) (k0_pay12 x0 x1 x2 x3 x4 x5) (k0_pay13 x0 x1 x2) (k0_pay14 x3) (k0_pay15 x4) v68 (ix3 0 b y)
      = min (v68 (ix3 0 b y)) (Finset.univ.inf fun r : Fin 512 => tileSq x0 x1 x2 x3 x4 x5 b r y) := by
  unfold k0_pay5
  refine (shapeCast_ab_1ab_apply _ _ (0 : Fin 1) b y).trans ?_
  show min (shapeCast S4x1024 v68 shapeCasts_S1x4x1024_S4x1024 (ix2 b y))
      (multiReduction (F := Ideal) .minimumf [1] S4x1024
        (k0_pay1 (F := Ideal) (k0_pay11 x5) (k0_pay12 x0 x1 x2 x3 x4 x5) (k0_pay13 x0 x1 x2) (k0_pay14 x3) (k0_pay15 x4))
        0x7F800000#32 reduces_S4x512x1024_S4x1024 (.inl rfl) rfl (ix2 b y)) = _
  rw [colMin_at, shapeCast_1ab_ab_apply]

/-! ## The two initial stores: +∞ everywhere -/

theorem pay2_at (j : S4x512.Idx) : k0_pay2 (F := Ideal) j = ⊤ := by
  show Ideal.ofBits .f32 0x7F800000#32 = ⊤
  exact Cert.Chamfer.Words.ofBits_top

theorem pay4_at (j : S1x4x8192.Idx) : k0_pay4 (F := Ideal) j = ⊤ := by
  show Ideal.ofBits .f32 0x7F800000#32 = ⊤
  exact Cert.Chamfer.Words.ofBits_top

/-- The tile's array of squared distances, [4, 512, 1024]: what both minima are taken of. -/
abbrev P1 (x0 x1 x2 : FVec Ideal S4x512 .f32) (x3 x4 x5 : FVec Ideal S4x1024 .f32) : FVec Ideal S4x512x1024 .f32 :=
  k0_pay1 (F := Ideal) (k0_pay11 x5) (k0_pay12 x0 x1 x2 x3 x4 x5) (k0_pay13 x0 x1 x2) (k0_pay14 x3) (k0_pay15 x4)

/-- `P1` at (b, r, y) is `tileSq`. -/
theorem P1_at (x0 x1 x2 : FVec Ideal S4x512 .f32) (x3 x4 x5 : FVec Ideal S4x1024 .f32) (b : Fin 4) (r : Fin 512) (y : Fin 1024) :
    P1 x0 x1 x2 x3 x4 x5 (ix3 b r y) = tileSq x0 x1 x2 x3 x4 x5 b r y := pay1_at x0 x1 x2 x3 x4 x5 b r y

end Cert.KernelIdeal.TileValue

end
-- ==== Proof.AtReals.StepAt.lean ====
/-
  One step of the sweep read at an index, at the extended reals: a row entry is lowered by the minimum of the tile's
  squared distances along the column points; a column entry inside the column tile's slice is lowered by the minimum
  along the row points, one outside it is kept.
-/
import proofs.«115162_j6708738916982_2_alg».proof.Proof.AtReals.Steps
import proofs.«115162_j6708738916982_2_alg».proof.Proof.AtReals.TileValue

set_option maxRecDepth 16384

noncomputable section

namespace Cert.KernelIdeal.Tiled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.TileValue Idealize.ShloMosaic.ValueIdx

variable (x0 x1 x2 : Vec Ideal S4x512 .f32) (x3 x4 x5 : Vec Ideal S4x1024 .f32)

theorem rowNew_at (X6 : Vec Ideal S4x512 .f32) (b : Fin 4) (r : Fin 512) :
    rowNew x0 x1 x2 x3 x4 x5 X6 (ix2 b r)
      = min (X6 (ix2 b r)) (Finset.univ.inf fun y : Fin 1024 => tileSq x0 x1 x2 x3 x4 x5 b r y) :=
  pay3_at x0 x1 x2 x3 x4 x5 b r X6

/-- Position `y` of the column tile's slice is point `q = 1024·(column tile) + y` of the second cloud. -/
theorem slice_pos (i : grid0.Coords) (b : Fin 4) (q : Fin 8192) (y : Fin 1024) (hq : q.val = 1024 * (i 2).val + y.val) :
    ∀ a : Fin 3, ((ix3 (0 : Fin 1) b q : S1x4x8192.Idx) a).val = k0_off1 i a + ((ix3 (0 : Fin 1) b y : S1x4x1024.Idx) a).val := by
  intro a; rw [Gen.k0_off1_eq i]
  match a with
  | ⟨0, _⟩ => rfl
  | ⟨1, _⟩ => show b.val = 0 + b.val; omega
  | ⟨2, _⟩ => show q.val = 1024 * (i 2).val + y.val; exact hq

theorem colNew_in (i : grid0.Coords) (X7 : Vec Ideal S1x4x8192 .f32) (b : Fin 4) (q : Fin 8192) (y : Fin 1024)
    (hq : q.val = 1024 * (i 2).val + y.val) :
    colNew i x0 x1 x2 x3 x4 x5 X7 (ix3 0 b q)
      = min (X7 (ix3 0 b q)) (Finset.univ.inf fun r : Fin 512 => tileSq x0 x1 x2 x3 x4 x5 b r y) := by
  have hx := slice_pos i b q y hq
  unfold colNew
  rw [Cert.Lib.over_cons_unit_of_mem X7 (Gen.k0_off1_inb i) _ [] (ix3 0 b q) (ix3 0 b y) hx]
  refine (pay5_at x0 x1 x2 x3 x4 x5 b y _).trans ?_
  rw [Cert.Lib.ld_unit_apply X7 (Gen.k0_off1_inb i) (ix3 0 b y) (ix3 0 b q) hx]

theorem colNew_out (i : grid0.Coords) (X7 : Vec Ideal S1x4x8192 .f32) (b : Fin 4) (q : Fin 8192)
    (hq : q.val / 1024 ≠ (i 2).val) :
    colNew i x0 x1 x2 x3 x4 x5 X7 (ix3 0 b q) = X7 (ix3 0 b q) := by
  unfold colNew
  rw [Cert.Lib.over_cons_unit_of_not_mem X7 (Gen.k0_off1_inb i) _ [] (ix3 0 b q) (2 : Fin 3) (by
    rw [Gen.k0_off1_eq i]
    show q.val < 1024 * (i 2).val ∨ 1024 * (i 2).val + 1024 ≤ q.val
    omega)]
  rfl

end Cert.KernelIdeal.Tiled

end
-- ==== Proof.ChamferRunning.lean ====
/-
  The running minima of the tiled sweep, as functions of the position alone.
  A position is t = 64·core + 8·(row tile) + (column tile); it handles the 512 points 512·(t/8) + r of the first
  cloud against the 1024 points 1024·(t%8) + y of the second. The row minimum restarts at every t ≡ 0 (mod 8) and
  the column minimum at every t ≡ 0 (mod 64): after position t they are minima over the positions of the interval
  from the last restart to t.
-/
import proofs.«115162_j6708738916982_2_alg».proof.Proof.ChamferSpec

noncomputable section

namespace Cert.Chamfer

variable (A B : Fin 4 → Fin 8192 → Fin 3 → EReal)

/-- The tiled side's squared distance at natural-number point numbers; `⊤` outside the clouds. -/
def sqN (b : Fin 4) (n k : ℕ) : EReal :=
  if h : n < 8192 ∧ k < 8192 then sqTiled A B b ⟨n, h.1⟩ ⟨k, h.2⟩ else ⊤

/-- The row buffer's entry for point `r` of the current row tile after position `t`: the minimum over the column
    tiles met since the last restart. -/
def rowAcc (t : ℕ) (b : Fin 4) (r : ℕ) : EReal :=
  (Finset.Icc (t - t % 8) t).inf fun t' =>
    Finset.univ.inf fun y : Fin 1024 => sqN A B b (512 * (t' / 8) + r) (1024 * (t' % 8) + y.val)

/-- The column buffer's entry for point `q` of the second cloud after position `t`: the minimum over the positions
    since the core's restart whose column tile holds `q`. -/
def colAcc (t : ℕ) (b : Fin 4) (q : ℕ) : EReal :=
  (Finset.Icc (t - t % 64) t).inf fun t' =>
    if t' % 8 = q / 1024 then Finset.univ.inf fun r : Fin 512 => sqN A B b (512 * (t' / 8) + r.val) q else ⊤

end Cert.Chamfer

end
-- ==== Proof.RunningFacts.lean ====
/-
  Facts about the running minima that do not depend on any program.

  The row minimum after position t is the infimum, over the positions t' from the last multiple of 8 up to t, of
  the tile infimum over y; the column minimum likewise from the last multiple of 64, restricted to the positions
  whose column tile holds the point. An interval that starts at t is {t}; otherwise [a, t] = {t} ∪ [a, t − 1] and
  the start a is the same for t − 1 — which gives the one-step recurrences. At the end of a row sweep (t ≡ 7 mod 8)
  the eight column tiles have covered all 8192 points of the second cloud, and at the end of a core's sweep
  (t ≡ 63 mod 64) the eight row tiles of the core have covered its 4096 points of the first cloud: there the
  running minima are the full infima, shown by two inequalities with explicit witnesses.
-/
import proofs.«115162_j6708738916982_2_alg».proof.Proof.ChamferRunning

noncomputable section

namespace Cert.Chamfer

variable (A B : Fin 4 → Fin 8192 → Fin 3 → EReal) (b : Fin 4)

/-- At in-range point numbers `sqN` is `sqTiled`. -/
theorem sqN_eq (n k : ℕ) (n' k' : Fin 8192) (hn : n = n'.val) (hk : k = k'.val) :
    sqN A B b n k = sqTiled A B b n' k' := by
  subst hn hk
  unfold sqN
  rw [dif_pos ⟨n'.isLt, k'.isLt⟩]

/-- An interval that ends where it starts is a point. -/
theorem Icc_restart (t k : ℕ) (h : t % k = 0) : Finset.Icc (t - t % k) t = {t} := by
  rw [h, Nat.sub_zero, Finset.Icc_self]

/-- Away from a restart the interval is the previous one with t added. -/
theorem Icc_step8 (t : ℕ) (h : t % 8 ≠ 0) :
    Finset.Icc (t - t % 8) t = insert t (Finset.Icc ((t - 1) - (t - 1) % 8) (t - 1)) := by
  ext x
  simp only [Finset.mem_Icc, Finset.mem_insert]
  omega

theorem Icc_step64 (t : ℕ) (h : t % 64 ≠ 0) :
    Finset.Icc (t - t % 64) t = insert t (Finset.Icc ((t - 1) - (t - 1) % 64) (t - 1)) := by
  ext x
  simp only [Finset.mem_Icc, Finset.mem_insert]
  omega

/-! ## The one-step recurrences -/

theorem rowAcc_reset (t r : ℕ) (h : t % 8 = 0) :
    rowAcc A B t b r = Finset.univ.inf fun y : Fin 1024 => sqN A B b (512 * (t / 8) + r) (1024 * (t % 8) + y.val) := by
  unfold rowAcc
  rw [Icc_restart t 8 h, Finset.inf_singleton]

theorem rowAcc_step (t r : ℕ) (h : t % 8 ≠ 0) :
    rowAcc A B t b r = min (rowAcc A B (t - 1) b r)
      (Finset.univ.inf fun y : Fin 1024 => sqN A B b (512 * (t / 8) + r) (1024 * (t % 8) + y.val)) := by
  unfold rowAcc
  rw [Icc_step8 t h, Finset.inf_insert]
  exact inf_comm _ _

theorem colAcc_reset (t q : ℕ) (h : t % 64 = 0) :
    colAcc A B t b q = if t % 8 = q / 1024 then
      Finset.univ.inf fun r : Fin 512 => sqN A B b (512 * (t / 8) + r.val) q else ⊤ := by
  unfold colAcc
  rw [Icc_restart t 64 h, Finset.inf_singleton]

theorem colAcc_step (t q : ℕ) (h : t % 64 ≠ 0) :
    colAcc A B t b q = if t % 8 = q / 1024 then
      min (colAcc A B (t - 1) b q) (Finset.univ.inf fun r : Fin 512 => sqN A B b (512 * (t / 8) + r.val) q)
      else colAcc A B (t - 1) b q := by
  unfold colAcc
  rw [Icc_step64 t h, Finset.inf_insert]
  by_cases hc : t % 8 = q / 1024
  · rw [if_pos hc, if_pos hc]
    exact inf_comm _ _
  · rw [if_neg hc, if_neg hc]
    exact top_inf_eq _

/-! ## The full infima at the end of a sweep -/

/-- At the end of a row sweep the row minimum is the infimum over all points of the second cloud. -/
theorem rowAcc_full' (t r : ℕ) (h : t % 8 = 7) (hn : 512 * (t / 8) + r < 8192) :
    rowAcc A B t b r = Finset.univ.inf fun k : Fin 8192 => sqTiled A B b ⟨512 * (t / 8) + r, hn⟩ k := by
  unfold rowAcc
  apply le_antisymm
  · refine Finset.le_inf fun k _ => ?_
    have hk := k.isLt
    have hmem : t - 7 + k.val / 1024 ∈ Finset.Icc (t - t % 8) t := by
      rw [Finset.mem_Icc]; omega
    refine (Finset.inf_le hmem).trans ?_
    refine (Finset.inf_le (Finset.mem_univ (⟨k.val % 1024, Nat.mod_lt _ (by decide)⟩ : Fin 1024))).trans ?_
    refine le_of_eq (sqN_eq A B b _ _ ⟨512 * (t / 8) + r, hn⟩ k ?_ ?_)
    · show 512 * ((t - 7 + k.val / 1024) / 8) + r = 512 * (t / 8) + r
      omega
    · show 1024 * ((t - 7 + k.val / 1024) % 8) + k.val % 1024 = k.val
      omega
  · refine Finset.le_inf fun t' ht' => Finset.le_inf fun y _ => ?_
    rw [Finset.mem_Icc] at ht'
    have hy := y.isLt
    have e := sqN_eq A B b (512 * (t' / 8) + r) (1024 * (t' % 8) + y.val) ⟨512 * (t / 8) + r, hn⟩
      ⟨1024 * (t' % 8) + y.val, by omega⟩ (by show 512 * (t' / 8) + r = 512 * (t / 8) + r; omega) rfl
    rw [e]
    exact Finset.inf_le (Finset.mem_univ _)

/-- The same with the bound on the point's number inside its tile carried along (it is not used). -/
theorem rowAcc_full (t r : ℕ) (h : t % 8 = 7) (hn : 512 * (t / 8) + r < 8192) (_hr : r < 512) :
    rowAcc A B t b r = Finset.univ.inf fun k : Fin 8192 => sqTiled A B b ⟨512 * (t / 8) + r, hn⟩ k :=
  rowAcc_full' A B b t r h hn

/-- At the end of a core's sweep the column minimum is the infimum over the core's 4096 points of the first cloud. -/
theorem colAcc_full (t : ℕ) (h : t % 64 = 63) (ht : t < 128) (q : Fin 8192) :
    colAcc A B t b q.val
      = Finset.univ.inf fun n' : Fin 4096 => sqTiled A B b ⟨4096 * (t / 64) + n'.val, by have := n'.isLt; omega⟩ q := by
  unfold colAcc
  have hq := q.isLt
  apply le_antisymm
  · refine Finset.le_inf fun n' _ => ?_
    have hn' := n'.isLt
    have hmem : t - 63 + 8 * (n'.val / 512) + q.val / 1024 ∈ Finset.Icc (t - t % 64) t := by
      rw [Finset.mem_Icc]; omega
    refine (Finset.inf_le hmem).trans ?_
    rw [if_pos (by omega)]
    refine (Finset.inf_le (Finset.mem_univ (⟨n'.val % 512, Nat.mod_lt _ (by decide)⟩ : Fin 512))).trans ?_
    refine le_of_eq (sqN_eq A B b _ _ ⟨4096 * (t / 64) + n'.val, by omega⟩ q ?_ rfl)
    show 512 * ((t - 63 + 8 * (n'.val / 512) + q.val / 1024) / 8) + n'.val % 512 = 4096 * (t / 64) + n'.val
    omega
  · refine Finset.le_inf fun t' ht' => ?_
    rw [Finset.mem_Icc] at ht'
    by_cases hc : t' % 8 = q.val / 1024
    · rw [if_pos hc]
      refine Finset.le_inf fun r _ => ?_
      have hr := r.isLt
      have e := sqN_eq A B b (512 * (t' / 8) + r.val) q.val ⟨512 * (t' / 8) + r.val, by omega⟩ q rfl rfl
      rw [e]
      refine (Finset.inf_le (Finset.mem_univ (⟨512 * (t' / 8) + r.val - 4096 * (t / 64), by omega⟩ : Fin 4096))).trans ?_
      refine le_of_eq (congrArg (fun n => sqTiled A B b n q) (Fin.ext ?_))
      show 4096 * (t / 64) + (512 * (t' / 8) + r.val - 4096 * (t / 64)) = 512 * (t' / 8) + r.val
      omega
    · rw [if_neg hc]
      exact le_top

/-- The two cores' halves together are the whole first cloud. -/
theorem halves (q : Fin 8192) :
    min (Finset.univ.inf fun n' : Fin 4096 => sqTiled A B b ⟨n'.val, by have := n'.isLt; omega⟩ q)
        (Finset.univ.inf fun n' : Fin 4096 => sqTiled A B b ⟨4096 + n'.val, by have := n'.isLt; omega⟩ q)
      = Finset.univ.inf fun n : Fin 8192 => sqTiled A B b n q := by
  apply le_antisymm
  · refine Finset.le_inf fun n _ => ?_
    have hn := n.isLt
    by_cases hlt : n.val < 4096
    · refine (min_le_left _ _).trans ?_
      refine (Finset.inf_le (Finset.mem_univ (⟨n.val, hlt⟩ : Fin 4096))).trans ?_
      exact le_of_eq (congrArg (fun n => sqTiled A B b n q) (Fin.ext rfl))
    · refine (min_le_right _ _).trans ?_
      refine (Finset.inf_le (Finset.mem_univ (⟨n.val - 4096, by omega⟩ : Fin 4096))).trans ?_
      refine le_of_eq (congrArg (fun n => sqTiled A B b n q) (Fin.ext ?_))
      show 4096 + (n.val - 4096) = n.val
      omega
  · exact le_min (Finset.le_inf fun n' _ => Finset.inf_le (Finset.mem_univ _))
      (Finset.le_inf fun n' _ => Finset.inf_le (Finset.mem_univ _))

end Cert.Chamfer

end
-- ==== Proof.ChamferCloud.lean ====
/-
  An f32[4, 8192, 3] array read as a point cloud: batch, point, coordinate.
-/
import Idealize.ShloMosaic.Lib.ValueIdx

noncomputable section

namespace Cert.Chamfer

open Idealize.ShloMosaic Idealize.ShloMosaic.ValueIdx

/-- The array's entry at (b, n, d). -/
def cloud (x : (⟨3, ![4, 8192, 3]⟩ : Shape).Idx → EReal) : Fin 4 → Fin 8192 → Fin 3 → EReal :=
  fun b n d => x (ix3 b n d)

end Cert.Chamfer

end
-- ==== Proof.HostBefore.lean ====
/-
  What the tiled side's program does with its two arguments before the region.

  Each argument f32[4, 8192, 3] is cut into its three coordinate planes: the slice [0:4, 0:8192, d:d+1] followed by
  dropping the unit axis, for d = 0, 1, 2. Plane d read at (b, n) is the argument at (b, n, d): the slice shifts the
  last coordinate by d, and (b, n, 0) in [4, 8192, 1] has the row-major position of (b, n) in [4, 8192].
  These six planes are the arrays the region's six input windows stage.
-/
import proofs.«115162_j6708738916982_2_alg».proof.Proof.Gen.KernelIdeal.Frame
import proofs.«115162_j6708738916982_2_alg».proof.Proof.ChamferCloud
import Idealize.ShloMosaic.Lib.ValueLayout

noncomputable section

namespace Cert.Chamfer.Host

open Cert.KernelIdeal Cert.KernelIdeal.Gen Idealize.ShloMosaic Idealize.ShloMosaic.ValueIdx Idealize.ShloMosaic.TcCoe
  Idealize.SL.Sem Idealize.ShloMosaic.StableHlo

/-! ## The three coordinate planes of an argument -/

def plane0 (x : FVec Ideal S4x8192x3 .f32) : FVec Ideal S4x8192 .f32 :=
  shapeCast S4x8192 (extractStridedSlice S4x8192x1 ![0, 0, 0] x slices_S4x8192x3_S4x8192x1_0_0_0) shapeCasts_S4x8192x1_S4x8192
def plane1 (x : FVec Ideal S4x8192x3 .f32) : FVec Ideal S4x8192 .f32 :=
  shapeCast S4x8192 (extractStridedSlice S4x8192x1 ![0, 0, 1] x slices_S4x8192x3_S4x8192x1_0_0_1) shapeCasts_S4x8192x1_S4x8192
def plane2 (x : FVec Ideal S4x8192x3 .f32) : FVec Ideal S4x8192 .f32 :=
  shapeCast S4x8192 (extractStridedSlice S4x8192x1 ![0, 0, 2] x slices_S4x8192x3_S4x8192x1_0_0_2) shapeCasts_S4x8192x1_S4x8192

/-- Dropping the trailing unit axis: (b, n) of [4, 8192] is (b, n, 0) of [4, 8192, 1]. -/
theorem dropUnit_at (y : FVec Ideal S4x8192x1 .f32) (b : Fin 4) (n : Fin 8192) :
    shapeCast S4x8192 y shapeCasts_S4x8192x1_S4x8192 (ix2 b n) = y (ix3 b n (0 : Fin 1)) :=
  shapeCast_apply y shapeCasts_S4x8192x1_S4x8192 _ _ (by
    rw [Shape.rowMajor_val_three, Shape.rowMajor_val_two]
    show (b.val * 8192 + n.val) * 1 + 0 = b.val * 8192 + n.val
    omega)

theorem plane0_at (x : FVec Ideal S4x8192x3 .f32) (b : Fin 4) (n : Fin 8192) : plane0 x (ix2 b n) = cloud x b n 0 := by
  unfold plane0
  rw [dropUnit_at]
  exact extractStridedSlice_apply _ _ _ _ _ (fun a => by
    match a with
    | ⟨0, _⟩ => exact (Nat.zero_add _).symm
    | ⟨1, _⟩ => exact (Nat.zero_add _).symm
    | ⟨2, _⟩ => rfl)

theorem plane1_at (x : FVec Ideal S4x8192x3 .f32) (b : Fin 4) (n : Fin 8192) : plane1 x (ix2 b n) = cloud x b n 1 := by
  unfold plane1
  rw [dropUnit_at]
  exact extractStridedSlice_apply _ _ _ _ _ (fun a => by
    match a with
    | ⟨0, _⟩ => exact (Nat.zero_add _).symm
    | ⟨1, _⟩ => exact (Nat.zero_add _).symm
    | ⟨2, _⟩ => rfl)

theorem plane2_at (x : FVec Ideal S4x8192x3 .f32) (b : Fin 4) (n : Fin 8192) : plane2 x (ix2 b n) = cloud x b n 2 := by
  unfold plane2
  rw [dropUnit_at]
  exact extractStridedSlice_apply _ _ _ _ _ (fun a => by
    match a with
    | ⟨0, _⟩ => exact (Nat.zero_add _).symm
    | ⟨1, _⟩ => exact (Nat.zero_add _).symm
    | ⟨2, _⟩ => rfl)

/-! ## The operations before the region, from any contents -/

theorem before_v1 (W : Valuation τ sig (Elt Ideal)) :
    StableHlo.after (hostOps0 (F := Ideal)) W (Proc.devRef .tc main_v1) = plane0 (W (Proc.devRef .tc main_arg0)) := by
  after_results
  rfl
theorem before_v3 (W : Valuation τ sig (Elt Ideal)) :
    StableHlo.after (hostOps0 (F := Ideal)) W (Proc.devRef .tc main_v3) = plane1 (W (Proc.devRef .tc main_arg0)) := by
  after_results
  rfl
theorem before_v5 (W : Valuation τ sig (Elt Ideal)) :
    StableHlo.after (hostOps0 (F := Ideal)) W (Proc.devRef .tc main_v5) = plane2 (W (Proc.devRef .tc main_arg0)) := by
  after_results
  rfl
theorem before_v7 (W : Valuation τ sig (Elt Ideal)) :
    StableHlo.after (hostOps0 (F := Ideal)) W (Proc.devRef .tc main_v7) = plane0 (W (Proc.devRef .tc main_arg1)) := by
  after_results
  rfl
theorem before_v9 (W : Valuation τ sig (Elt Ideal)) :
    StableHlo.after (hostOps0 (F := Ideal)) W (Proc.devRef .tc main_v9) = plane1 (W (Proc.devRef .tc main_arg1)) := by
  after_results
  rfl
theorem before_v11 (W : Valuation τ sig (Elt Ideal)) :
    StableHlo.after (hostOps0 (F := Ideal)) W (Proc.devRef .tc main_v11) = plane2 (W (Proc.devRef .tc main_arg1)) := by
  after_results
  rfl

/-! ## The six staged arrays -/

variable (m : (ℓ : Loc nD τ sig) → Buf (Elt Ideal) ℓ) (c : Dev nD)

theorem hflat0 : ([hostOps0] : List (List (HloOp τ sig (Elt Ideal)))).flatten = hostOps0 := by
  simp only [List.flatten_cons, List.flatten_nil, List.append_nil]

theorem V_main_v1 (b : Fin 4) (n : Fin 8192) :
    (V m c main_v1 : S4x8192.Idx → EReal) (ix2 b n) = cloud (m ((c.tc : Thread nD τ).loc main_arg0)) b n 0 := by
  show StableHlo.after (List.flatten [hostOps0]) (fun b => m (c, b)) (Proc.devRef .tc main_v1) (ix2 b n) = _
  rw [hflat0, before_v1]
  exact plane0_at _ b n

theorem V_main_v3 (b : Fin 4) (n : Fin 8192) :
    (V m c main_v3 : S4x8192.Idx → EReal) (ix2 b n) = cloud (m ((c.tc : Thread nD τ).loc main_arg0)) b n 1 := by
  show StableHlo.after (List.flatten [hostOps0]) (fun b => m (c, b)) (Proc.devRef .tc main_v3) (ix2 b n) = _
  rw [hflat0, before_v3]
  exact plane1_at _ b n

theorem V_main_v5 (b : Fin 4) (n : Fin 8192) :
    (V m c main_v5 : S4x8192.Idx → EReal) (ix2 b n) = cloud (m ((c.tc : Thread nD τ).loc main_arg0)) b n 2 := by
  show StableHlo.after (List.flatten [hostOps0]) (fun b => m (c, b)) (Proc.devRef .tc main_v5) (ix2 b n) = _
  rw [hflat0, before_v5]
  exact plane2_at _ b n

theorem V_main_v7 (b : Fin 4) (n : Fin 8192) :
    (V m c main_v7 : S4x8192.Idx → EReal) (ix2 b n) = cloud (m ((c.tc : Thread nD τ).loc main_arg1)) b n 0 := by
  show StableHlo.after (List.flatten [hostOps0]) (fun b => m (c, b)) (Proc.devRef .tc main_v7) (ix2 b n) = _
  rw [hflat0, before_v7]
  exact plane0_at _ b n

theorem V_main_v9 (b : Fin 4) (n : Fin 8192) :
    (V m c main_v9 : S4x8192.Idx → EReal) (ix2 b n) = cloud (m ((c.tc : Thread nD τ).loc main_arg1)) b n 1 := by
  show StableHlo.after (List.flatten [hostOps0]) (fun b => m (c, b)) (Proc.devRef .tc main_v9) (ix2 b n) = _
  rw [hflat0, before_v9]
  exact plane1_at _ b n

theorem V_main_v11 (b : Fin 4) (n : Fin 8192) :
    (V m c main_v11 : S4x8192.Idx → EReal) (ix2 b n) = cloud (m ((c.tc : Thread nD τ).loc main_arg1)) b n 2 := by
  show StableHlo.after (List.flatten [hostOps0]) (fun b => m (c, b)) (Proc.devRef .tc main_v11) (ix2 b n) = _
  rw [hflat0, before_v11]
  exact plane2_at _ b n

end Cert.Chamfer.Host

end
-- ==== Proof.Blocks.lean ====
/-
  The six input blocks at a position are entries of the two clouds.

  At position t the first three windows hold the block (0, t / 8) of the first cloud's three coordinate planes —
  the 512 points 512·(t/8) + r — and the last three hold the block (0, t % 8) of the second cloud's planes — the
  1024 points 1024·(t%8) + y. Entry (b, j) of a block with block index (i₀, i₁) and extents (e₀, e₁) is the array's
  entry (i₀·e₀ + b, i₁·e₁ + j). Hence the tile's squared distance of the pair (r, y) is the clouds' squared distance
  of the points numbered 512·(t/8) + r and 1024·(t%8) + y.
-/
import proofs.«115162_j6708738916982_2_alg».proof.Proof.Gen.KernelIdeal.Frame
import proofs.«115162_j6708738916982_2_alg».proof.Proof.Gen.KernelIdeal.Points
import proofs.«115162_j6708738916982_2_alg».proof.Proof.HostBefore
import proofs.«115162_j6708738916982_2_alg».proof.Proof.AtReals.TileValue
import proofs.«115162_j6708738916982_2_alg».proof.Proof.ChamferRunning
import Idealize.ShloMosaic.Lib.Pipeline.Value

noncomputable section

namespace Cert.Chamfer.Blocks

open Cert.KernelIdeal Cert.KernelIdeal.Gen Idealize.ShloMosaic Idealize.ShloMosaic.ValueIdx Idealize.ShloMosaic.TcCoe
  Idealize.SL.Sem
open Cert.KernelIdeal.TileValue (tileSq)

/-! ## The grid and the index maps, decided once over the 128 positions -/

/-- A position's three grid coordinates: t = 64·(core) + 8·(row tile) + (column tile). -/
theorem coords_facts : ∀ t : Fin cfg0.N, (grid0.coords t 2).val = t.val % 8 ∧ (grid0.coords t 1).val = t.val / 8 % 8
    ∧ (grid0.coords t 0).val = t.val / 64 :=
  (by decide +kernel : ∀ t : Fin grid0.N, (grid0.coords t 2).val = t.val % 8 ∧ (grid0.coords t 1).val = t.val / 8 % 8
    ∧ (grid0.coords t 0).val = t.val / 64)

/-- The block indices: the first cloud's windows are at (0, t / 8), the second cloud's at (0, t % 8). -/
theorem idx_facts : ∀ t : Fin cfg0.N,
    win0_0.index t (0 : Fin 2) = 0 ∧ win0_0.index t (1 : Fin 2) = t.val / 8
    ∧ win0_1.index t (0 : Fin 2) = 0 ∧ win0_1.index t (1 : Fin 2) = t.val / 8
    ∧ win0_2.index t (0 : Fin 2) = 0 ∧ win0_2.index t (1 : Fin 2) = t.val / 8
    ∧ win0_3.index t (0 : Fin 2) = 0 ∧ win0_3.index t (1 : Fin 2) = t.val % 8
    ∧ win0_4.index t (0 : Fin 2) = 0 ∧ win0_4.index t (1 : Fin 2) = t.val % 8
    ∧ win0_5.index t (0 : Fin 2) = 0 ∧ win0_5.index t (1 : Fin 2) = t.val % 8 :=
  (by decide +kernel : ∀ t : Fin grid0.N,
    win0_0.index t (0 : Fin 2) = 0 ∧ win0_0.index t (1 : Fin 2) = t.val / 8
    ∧ win0_1.index t (0 : Fin 2) = 0 ∧ win0_1.index t (1 : Fin 2) = t.val / 8
    ∧ win0_2.index t (0 : Fin 2) = 0 ∧ win0_2.index t (1 : Fin 2) = t.val / 8
    ∧ win0_3.index t (0 : Fin 2) = 0 ∧ win0_3.index t (1 : Fin 2) = t.val % 8
    ∧ win0_4.index t (0 : Fin 2) = 0 ∧ win0_4.index t (1 : Fin 2) = t.val % 8
    ∧ win0_5.index t (0 : Fin 2) = 0 ∧ win0_5.index t (1 : Fin 2) = t.val % 8)

/-- There are 128 positions. -/
theorem t_lt (t : Fin cfg0.N) : t.val < 128 := Nat.lt_of_lt_of_eq t.isLt N_0

variable (m : (ℓ : Loc nD τ sig) → Buf (Elt Ideal) ℓ) (c : Dev nD) (t : Fin cfg0.N) (b : Fin 4)

/-! ## The blocks of the first cloud -/

theorem iblk0_at (r : Fin 512) (hn : 512 * (t.val / 8) + r.val < 8192) :
    iblk m c 0 t (ix2 b r) = cloud (m ((c.tc : Thread nD τ).loc main_arg0)) b ⟨512 * (t.val / 8) + r.val, hn⟩ 0 := by
  obtain ⟨e0, e1, -⟩ := idx_facts t
  have hemb : ((cfg0.win 0).blk t).view.emb (ix2 b r) = ix2 b (⟨512 * (t.val / 8) + r.val, hn⟩ : Fin 8192) := by
    funext a; apply Fin.ext
    match a with
    | ⟨0, _⟩ => show win0_0.index t (0 : Fin 2) * 4 + 1 * b.val = b.val; omega
    | ⟨1, _⟩ => show win0_0.index t (1 : Fin 2) * 512 + 1 * r.val = 512 * (t.val / 8) + r.val; omega
  show (V m c main_v1 : S4x8192.Idx → EReal) (((cfg0.win 0).blk t).view.emb (ix2 b r)) = _
  rw [hemb]
  exact Cert.Chamfer.Host.V_main_v1 m c b _

theorem iblk1_at (r : Fin 512) (hn : 512 * (t.val / 8) + r.val < 8192) :
    iblk m c 1 t (ix2 b r) = cloud (m ((c.tc : Thread nD τ).loc main_arg0)) b ⟨512 * (t.val / 8) + r.val, hn⟩ 1 := by
  obtain ⟨-, -, e0, e1, -⟩ := idx_facts t
  have hemb : ((cfg0.win 1).blk t).view.emb (ix2 b r) = ix2 b (⟨512 * (t.val / 8) + r.val, hn⟩ : Fin 8192) := by
    funext a; apply Fin.ext
    match a with
    | ⟨0, _⟩ => show win0_1.index t (0 : Fin 2) * 4 + 1 * b.val = b.val; omega
    | ⟨1, _⟩ => show win0_1.index t (1 : Fin 2) * 512 + 1 * r.val = 512 * (t.val / 8) + r.val; omega
  show (V m c main_v3 : S4x8192.Idx → EReal) (((cfg0.win 1).blk t).view.emb (ix2 b r)) = _
  rw [hemb]
  exact Cert.Chamfer.Host.V_main_v3 m c b _

theorem iblk2_at (r : Fin 512) (hn : 512 * (t.val / 8) + r.val < 8192) :
    iblk m c 2 t (ix2 b r) = cloud (m ((c.tc : Thread nD τ).loc main_arg0)) b ⟨512 * (t.val / 8) + r.val, hn⟩ 2 := by
  obtain ⟨-, -, -, -, e0, e1, -⟩ := idx_facts t
  have hemb : ((cfg0.win 2).blk t).view.emb (ix2 b r) = ix2 b (⟨512 * (t.val / 8) + r.val, hn⟩ : Fin 8192) := by
    funext a; apply Fin.ext
    match a with
    | ⟨0, _⟩ => show win0_2.index t (0 : Fin 2) * 4 + 1 * b.val = b.val; omega
    | ⟨1, _⟩ => show win0_2.index t (1 : Fin 2) * 512 + 1 * r.val = 512 * (t.val / 8) + r.val; omega
  show (V m c main_v5 : S4x8192.Idx → EReal) (((cfg0.win 2).blk t).view.emb (ix2 b r)) = _
  rw [hemb]
  exact Cert.Chamfer.Host.V_main_v5 m c b _

/-! ## The blocks of the second cloud -/

theorem iblk3_at (y : Fin 1024) (hk : 1024 * (t.val % 8) + y.val < 8192) :
    iblk m c 3 t (ix2 b y) = cloud (m ((c.tc : Thread nD τ).loc main_arg1)) b ⟨1024 * (t.val % 8) + y.val, hk⟩ 0 := by
  obtain ⟨-, -, -, -, -, -, e0, e1, -⟩ := idx_facts t
  have hemb : ((cfg0.win 3).blk t).view.emb (ix2 b y) = ix2 b (⟨1024 * (t.val % 8) + y.val, hk⟩ : Fin 8192) := by
    funext a; apply Fin.ext
    match a with
    | ⟨0, _⟩ => show win0_3.index t (0 : Fin 2) * 4 + 1 * b.val = b.val; omega
    | ⟨1, _⟩ => show win0_3.index t (1 : Fin 2) * 1024 + 1 * y.val = 1024 * (t.val % 8) + y.val; omega
  show (V m c main_v7 : S4x8192.Idx → EReal) (((cfg0.win 3).blk t).view.emb (ix2 b y)) = _
  rw [hemb]
  exact Cert.Chamfer.Host.V_main_v7 m c b _

theorem iblk4_at (y : Fin 1024) (hk : 1024 * (t.val % 8) + y.val < 8192) :
    iblk m c 4 t (ix2 b y) = cloud (m ((c.tc : Thread nD τ).loc main_arg1)) b ⟨1024 * (t.val % 8) + y.val, hk⟩ 1 := by
  obtain ⟨-, -, -, -, -, -, -, -, e0, e1, -⟩ := idx_facts t
  have hemb : ((cfg0.win 4).blk t).view.emb (ix2 b y) = ix2 b (⟨1024 * (t.val % 8) + y.val, hk⟩ : Fin 8192) := by
    funext a; apply Fin.ext
    match a with
    | ⟨0, _⟩ => show win0_4.index t (0 : Fin 2) * 4 + 1 * b.val = b.val; omega
    | ⟨1, _⟩ => show win0_4.index t (1 : Fin 2) * 1024 + 1 * y.val = 1024 * (t.val % 8) + y.val; omega
  show (V m c main_v9 : S4x8192.Idx → EReal) (((cfg0.win 4).blk t).view.emb (ix2 b y)) = _
  rw [hemb]
  exact Cert.Chamfer.Host.V_main_v9 m c b _

theorem iblk5_at (y : Fin 1024) (hk : 1024 * (t.val % 8) + y.val < 8192) :
    iblk m c 5 t (ix2 b y) = cloud (m ((c.tc : Thread nD τ).loc main_arg1)) b ⟨1024 * (t.val % 8) + y.val, hk⟩ 2 := by
  obtain ⟨-, -, -, -, -, -, -, -, -, -, e0, e1⟩ := idx_facts t
  have hemb : ((cfg0.win 5).blk t).view.emb (ix2 b y) = ix2 b (⟨1024 * (t.val % 8) + y.val, hk⟩ : Fin 8192) := by
    funext a; apply Fin.ext
    match a with
    | ⟨0, _⟩ => show win0_5.index t (0 : Fin 2) * 4 + 1 * b.val = b.val; omega
    | ⟨1, _⟩ => show win0_5.index t (1 : Fin 2) * 1024 + 1 * y.val = 1024 * (t.val % 8) + y.val; omega
  show (V m c main_v11 : S4x8192.Idx → EReal) (((cfg0.win 5).blk t).view.emb (ix2 b y)) = _
  rw [hemb]
  exact Cert.Chamfer.Host.V_main_v11 m c b _

/-! ## The tile's squared distances are the clouds' -/

/-- The tile's squared distance of the pair (r, y) at position t is the clouds' squared distance of the points
    numbered 512·(t/8) + r and 1024·(t%8) + y. -/
theorem tile_eq (r : Fin 512) (y : Fin 1024) :
    tileSq (iblk m c 0 t) (iblk m c 1 t) (iblk m c 2 t) (iblk m c 3 t) (iblk m c 4 t) (iblk m c 5 t) b r y
      = Cert.Chamfer.sqN (cloud (m ((c.tc : Thread nD τ).loc main_arg0))) (cloud (m ((c.tc : Thread nD τ).loc main_arg1))) b
          (512 * (t.val / 8) + r.val) (1024 * (t.val % 8) + y.val) := by
  have ht := t_lt t
  have hr := r.isLt
  have hy := y.isLt
  have hn : 512 * (t.val / 8) + r.val < 8192 := by omega
  have hk : 1024 * (t.val % 8) + y.val < 8192 := by omega
  unfold tileSq Cert.Chamfer.sqN
  rw [dif_pos ⟨hn, hk⟩, iblk0_at m c t b r hn, iblk1_at m c t b r hn, iblk2_at m c t b r hn,
    iblk3_at m c t b y hk, iblk4_at m c t b y hk, iblk5_at m c t b y hk]
  rfl

end Cert.Chamfer.Blocks

end
-- ==== Proof.AtReals.Invariant.lean ====
/-
  THE INVARIANT OF THE SWEEP. After the body at position t, entry (b, r) of the row buffer is the minimum, over the
  column tiles met since t's row tile began, of the squared distances of point 512·(t/8) + r of the first cloud; and
  entry (b, q) of the column buffer is the minimum, over the positions since the core's sweep began whose column tile
  holds q, of the squared distances of point q of the second cloud to the position's 512 points. By induction on t:
  a reset position starts the minimum afresh from +∞, every other lowers what the position before left.
-/
import proofs.«115162_j6708738916982_2_alg».proof.Proof.AtReals.StepAt
import proofs.«115162_j6708738916982_2_alg».proof.Proof.RunningFacts
import proofs.«115162_j6708738916982_2_alg».proof.Proof.Blocks

set_option maxRecDepth 16384

noncomputable section

namespace Cert.KernelIdeal.Tiled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.TileValue Idealize.ShloMosaic.ValueIdx Cert.Chamfer

variable (m : (ℓ : Loc nD τ sig) → Buf (Elt Ideal) ℓ) (c : Dev nD)

/-- The two point clouds the program was launched with, on core `c`. -/
abbrev cA : Fin 4 → Fin 8192 → Fin 3 → EReal := cloud (m ((c.tc : Thread nD τ).loc main_arg0))
abbrev cB : Fin 4 → Fin 8192 → Fin 3 → EReal := cloud (m ((c.tc : Thread nD τ).loc main_arg1))

/-- The tile's row minimum at a position, over the clouds. -/
theorem rowTile (t : Fin cfg0.N) (b : Fin 4) (r : Fin 512) :
    (Finset.univ.inf fun y : Fin 1024 => tileSq (iblk m c 0 t) (iblk m c 1 t) (iblk m c 2 t) (iblk m c 3 t) (iblk m c 4 t) (iblk m c 5 t) b r y)
      = Finset.univ.inf fun y : Fin 1024 => sqN (cA m c) (cB m c) b (512 * (t.val / 8) + r.val) (1024 * (t.val % 8) + y.val) :=
  Finset.inf_congr rfl fun y _ => Cert.Chamfer.Blocks.tile_eq m c t b r y
/-- The tile's column minimum at a position, over the clouds. -/
theorem colTile (t : Fin cfg0.N) (b : Fin 4) (y : Fin 1024) :
    (Finset.univ.inf fun r : Fin 512 => tileSq (iblk m c 0 t) (iblk m c 1 t) (iblk m c 2 t) (iblk m c 3 t) (iblk m c 4 t) (iblk m c 5 t) b r y)
      = Finset.univ.inf fun r : Fin 512 => sqN (cA m c) (cB m c) b (512 * (t.val / 8) + r.val) (1024 * (t.val % 8) + y.val) :=
  Finset.inf_congr rfl fun r _ => Cert.Chamfer.Blocks.tile_eq m c t b r y

/-- The column buffer's step at a position, read at point q: lowered if q is in the position's column tile, kept otherwise. -/
theorem colNew_at (t : Fin cfg0.N) (X7 : Vec Ideal S1x4x8192 .f32) (b : Fin 4) (q : Fin 8192) :
    colNew (grid0.coords t) (iblk m c 0 t) (iblk m c 1 t) (iblk m c 2 t) (iblk m c 3 t) (iblk m c 4 t) (iblk m c 5 t) X7 (ix3 0 b q)
      = if t.val % 8 = q.val / 1024 then
          min (X7 (ix3 0 b q)) (Finset.univ.inf fun r : Fin 512 => sqN (cA m c) (cB m c) b (512 * (t.val / 8) + r.val) q.val)
        else X7 (ix3 0 b q) := by
  have hi2 : (grid0.coords t 2).val = t.val % 8 := (Cert.Chamfer.Blocks.coords_facts t).1
  by_cases hq : t.val % 8 = q.val / 1024
  · rw [if_pos hq]
    have hy : q.val - 1024 * (t.val % 8) < 1024 := by have := q.isLt; omega
    have e : 1024 * (t.val % 8) + (q.val - 1024 * (t.val % 8)) = q.val := by omega
    rw [colNew_in _ _ _ _ _ _ (grid0.coords t) X7 b q ⟨q.val - 1024 * (t.val % 8), hy⟩ (by rw [hi2]; exact e.symm),
      colTile m c t b ⟨_, hy⟩]
    simp only [Fin.val_mk, e]
  · rw [if_neg hq, colNew_out _ _ _ _ _ _ (grid0.coords t) X7 b q (by rw [hi2]; exact fun h => hq h.symm)]

/-- One step of the induction: the invariant at t from the invariant at t − 1 (needed off position 0 only). -/
theorem inv_step (t : Fin cfg0.N)
    (hprev : t.val ≠ 0 →
      (∀ (b : Fin 4) (r : Fin 512), (prevOuts m c t).1 (ix2 b r) = rowAcc (cA m c) (cB m c) (t.val - 1) b r.val)
      ∧ (∀ (b : Fin 4) (q : Fin 8192), (prevOuts m c t).2 (ix3 0 b q) = colAcc (cA m c) (cB m c) (t.val - 1) b q.val)) :
    (∀ (b : Fin 4) (r : Fin 512), (outsAt m c t.val t.isLt).1 (ix2 b r) = rowAcc (cA m c) (cB m c) t.val b r.val)
    ∧ (∀ (b : Fin 4) (q : Fin 8192), (outsAt m c t.val t.isLt).2 (ix3 0 b q) = colAcc (cA m c) (cB m c) t.val b q.val) := by
  constructor
  · intro b r
    by_cases h8 : t.val % 8 = 0
    · have hs : (outsAt m c t.val t.isLt).1 = rowNew (iblk m c 0 t) (iblk m c 1 t) (iblk m c 2 t) (iblk m c 3 t) (iblk m c 4 t) (iblk m c 5 t) (rowFill (F := Ideal)) := by
        by_cases h64 : t.val % 64 = 0
        · exact rowStep_both m c t h64
        · exact rowStep_row m c t h8 h64
      rw [hs, rowNew_at, rowTile m c t b r, rowAcc_reset _ _ b t.val r.val h8]
      show min (k0_pay2 (F := Ideal) (ix2 b r)) _ = _
      rw [pay2_at, min_eq_right le_top]
    · rw [rowStep_carry m c t h8, rowNew_at, rowTile m c t b r, rowAcc_step _ _ b t.val r.val h8,
        (hprev (by omega)).1 b r]
  · intro b q
    by_cases h64 : t.val % 64 = 0
    · rw [colStep_both m c t h64, colNew_at m c t _ b q, colAcc_reset _ _ b t.val q.val h64]
      show (if t.val % 8 = q.val / 1024 then min (k0_pay4 (F := Ideal) (ix3 0 b q)) _ else k0_pay4 (F := Ideal) (ix3 0 b q)) = _
      rw [pay4_at, min_eq_right le_top]
    · have hs : (outsAt m c t.val t.isLt).2 = colNew (grid0.coords t) (iblk m c 0 t) (iblk m c 1 t) (iblk m c 2 t) (iblk m c 3 t) (iblk m c 4 t) (iblk m c 5 t) (prevOuts m c t).2 := by
        by_cases h8 : t.val % 8 = 0
        · exact colStep_row m c t h8 h64
        · exact colStep_carry m c t h8
      rw [hs, colNew_at m c t _ b q, colAcc_step _ _ b t.val q.val h64, (hprev (by omega)).2 b q]

/-- The invariant at every position. -/
theorem inv : ∀ (n : ℕ) (hn : n < cfg0.N),
    (∀ (b : Fin 4) (r : Fin 512), (outsAt m c n hn).1 (ix2 b r) = rowAcc (cA m c) (cB m c) n b r.val)
    ∧ (∀ (b : Fin 4) (q : Fin 8192), (outsAt m c n hn).2 (ix3 0 b q) = colAcc (cA m c) (cB m c) n b q.val) := by
  intro n
  induction n with
  | zero => intro hn; exact inv_step m c ⟨0, hn⟩ (fun h => absurd rfl h)
  | succ k ih => intro hn; exact inv_step m c ⟨k + 1, hn⟩ (fun _ => ih (Nat.lt_of_succ_lt hn))

end Cert.KernelIdeal.Tiled

end
-- ==== Proof.AtReals.Sweep.lean ====
/-
  The body at every position of the sweep, the pipeline's obligation, the run of the whole program and its frame.
  The position's residues mod 8 and mod 64 say which of the three cases it is in; a buffer that is not reset holds what
  the position before left, so that case's run applies, and each output buffer read back afterwards is what the
  proof data says.
-/
import proofs.«115162_j6708738916982_2_alg».proof.Proof.AtReals.Covers

set_option maxRecDepth 16384

noncomputable section

namespace Cert.KernelIdeal.Tiled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at position `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 1600000 in
/-- A position where both minima are reset. -/
theorem sound_both (c : Dev nD) (t : Fin cfg0.N) (h64 : t.val % 64 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  rw [rowAfter_both m c t h64, colAfter_both m c t h64]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((bothAt m c t h64).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact readRow_both m c t h64 e6
  · iapply (ownsCol_both m c t h64 e7)
    iexact H7

set_option maxHeartbeats 1600000 in
/-- A position where the row minimum alone is reset. -/
theorem sound_row (c : Dev nD) (t : Fin cfg0.N) (h8 : t.val % 8 = 0) (h64 : ¬t.val % 64 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  rw [rowAfter_row m c t h8 h64, colAfter_row m c t h8 h64]
  simp only [before7_kept m c t h64]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((rowAt m c t h8 h64 (prevOuts m c t).2).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  iintro ⟨H0, H1, H2, H3, H4, H5, ⟨%e6, H6⟩, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact readRow_row m c t h8 h64 (prevOuts m c t).2 e6
  · unfold owns; iexists _; isplitr
    swap; · iexact H7
    ipureintro; exact readCol_over t (prevOuts m c t).2 (rowAt m c t h8 h64 (prevOuts m c t).2).1.2

set_option maxHeartbeats 1600000 in
/-- A position where neither is reset. -/
theorem sound_carry (c : Dev nD) (t : Fin cfg0.N) (h8 : ¬t.val % 8 = 0) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  rw [rowAfter_carry m c t h8, colAfter_carry m c t h8]
  simp only [before6_kept m c t h8, before7_kept m c t (fun h => h8 (by omega))]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((carryAt m c t h8 (prevOuts m c t).1 (prevOuts m c t).2).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact readRow_over t (prevOuts m c t).1 (carryAt m c t h8 (prevOuts m c t).1 (prevOuts m c t).2).1.1
  · unfold owns; iexists _; isplitr
    swap; · iexact H7
    ipureintro; exact readCol_over t (prevOuts m c t).2 (carryAt m c t h8 (prevOuts m c t).1 (prevOuts m c t).2).1.2

/-- The body at any position. -/
theorem sound_body (c : Dev nD) (t : Fin cfg0.N) :
    bodyPre m c t ⊢ wp frame (wpE (defs₀ (F := F)) Variants.none c none) Set.univ (bodyAt0 t) (fun _ => bodyPost m c t) := by
  by_cases h64 : t.val % 64 = 0
  · exact sound_both m c t h64
  · by_cases h8 : t.val % 8 = 0
    · exact sound_row m c t h8 h64
    · exact sound_carry m c t h8

/-- The pipeline's body obligation, at every position. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates; every array of the
    pipeline ends at what the proof data computes (an output: its entry contents overwritten by each write-back), every
    other buffer as the host operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and leaves its two argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Tiled

end
-- ==== Proof.ChamferTail.lean ====
/-
  What the program computes from the kernel's two result arrays once the region has ended: the two per-core slabs of
  column minima are combined by a minimum, both minima arrays are clamped at zero and rooted, and the two means added.
-/
import proofs.«115162_j6708738916982_2_alg».proof.Proof.ChamferSpec
import Idealize.ShloMosaic.Lib.ValueIdx

noncomputable section

namespace Cert.Chamfer

open Idealize.ShloMosaic Idealize.ShloMosaic.ValueIdx

/-- From the row minima `R` (f32[4, 8192]) and the per-core column minima `C` (f32[2, 4, 8192]): the mean of
    √max(R, 0) plus the mean of √max(min(C₀, C₁), 0). -/
def tailLoss (R : (⟨2, ![4, 8192]⟩ : Shape).Idx → EReal) (C : (⟨3, ![2, 4, 8192]⟩ : Shape).Idx → EReal) : EReal :=
  Ideal.div (∑ b : Fin 4, ∑ n : Fin 8192, Ideal.sqrt (max (R (ix2 b n)) 0)) cnt
    + Ideal.div (∑ b : Fin 4, ∑ k : Fin 8192, Ideal.sqrt (max (min (C (ix3 0 b k)) (C (ix3 1 b k))) 0)) cnt

end Cert.Chamfer

end
-- ==== Proof.HostAfter.lean ====
/-
  What the tiled side's program does with the kernel's two result arrays once the region has ended.

  From the row minima R (f32[4, 8192]) and the two per-core slabs of column minima C (f32[2, 4, 8192]) the program
  cuts C into its two slabs (a slice [0:1] or [1:2] of the leading axis, then the unit axis dropped), takes their
  pointwise minimum, clamps both minima arrays at zero, takes square roots, sums each over (batch, point) starting
  from 0, divides each sum by 32768, adds the two quotients and multiplies by 1.
  Read at an index: slab s of C at (b, k) is C at (s, b, k); a sum from 0 over all of a [4, 8192] array is the
  double sum over its two coordinates (0 + s = s); and t · 1 = t. So the result is `Cert.Chamfer.tailLoss R C`.
-/
import proofs.«115162_j6708738916982_2_alg».proof.Proof.Gen.KernelIdeal.Frame
import proofs.«115162_j6708738916982_2_alg».proof.Proof.ChamferSpec
import proofs.«115162_j6708738916982_2_alg».proof.Proof.ChamferTail
import proofs.«115162_j6708738916982_2_alg».proof.Proof.LibWords
import Idealize.ShloMosaic.Lib.ValueLayout
import Idealize.ShloMosaic.PureOps.Ideal.Laws

noncomputable section

namespace Cert.Chamfer.Host

open Cert.KernelIdeal Cert.KernelIdeal.Gen Idealize.ShloMosaic Idealize.ShloMosaic.ValueIdx Idealize.ShloMosaic.TcCoe
  Idealize.SL.Sem Idealize.ShloMosaic.StableHlo
open Idealize.ShloMosaic.Pipeline (Dat)

/-! ## The operations after the region as one function of the two result arrays -/

/-- The array of zeros the two clamps compare with. -/
def zeros : FVec Ideal S4x8192 .f32 :=
  broadcastInDim S4x8192 ![] bcast_S_S4x8192 (constant (F := Ideal) S_ .f32 0x00000000#32)

/-- Slab 0 of the column minima: the slice [0:1] of the leading axis with the unit axis dropped. -/
def slab0 (C : FVec Ideal S2x4x8192 .f32) : FVec Ideal S4x8192 .f32 :=
  shapeCast S4x8192 (extractStridedSlice S1x4x8192 ![0, 0, 0] C slices_S2x4x8192_S1x4x8192_0_0_0) shapeCasts_S1x4x8192_S4x8192

/-- Slab 1: the slice [1:2]. -/
def slab1 (C : FVec Ideal S2x4x8192 .f32) : FVec Ideal S4x8192 .f32 :=
  shapeCast S4x8192 (extractStridedSlice S1x4x8192 ![1, 0, 0] C slices_S2x4x8192_S1x4x8192_1_0_0) shapeCasts_S1x4x8192_S4x8192

/-- √max(R, 0), entrywise. -/
def rowPart (R : FVec Ideal S4x8192 .f32) : FVec Ideal S4x8192 .f32 :=
  Host.sqrt (maximumf R zeros)

/-- √max(min(C₀, C₁), 0), entrywise. -/
def colPart (C : FVec Ideal S2x4x8192 .f32) : FVec Ideal S4x8192 .f32 :=
  Host.sqrt (maximumf (minimumf (slab0 C) (slab1 C)) zeros)

/-- The sum of a [4, 8192] array over both axes, from 0. -/
def total (v : FVec Ideal S4x8192 .f32) : FVec Ideal S_ .f32 :=
  Host.reduceAdd v (constant (F := Ideal) S_ .f32 0x00000000#32) reducesTo_S4x8192_S_d0_1 h_S_

/-- The whole tail: (Σ rowPart / 32768 + Σ colPart / 32768) · 1. -/
def tailTerm (R : FVec Ideal S4x8192 .f32) (C : FVec Ideal S2x4x8192 .f32) :
    FVec Ideal S_ .f32 :=
  mulf (addf (Host.divf (total (rowPart R)) (constant (F := Ideal) S_ .f32 0x47000000#32))
      (Host.divf (total (colPart C)) (constant (F := Ideal) S_ .f32 0x47000000#32)))
    (constant (F := Ideal) S_ .f32 0x3F800000#32)

/-! ## The pieces read at an index -/

/-- Slab 0 at (b, k) is the array at (0, b, k). -/
theorem slab0_at (C : FVec Ideal S2x4x8192 .f32) (b : Fin 4) (k : Fin 8192) :
    slab0 C (ix2 b k) = C (ix3 0 b k) := by
  unfold slab0
  rw [shapeCast_1ab_ab_apply]
  exact extractStridedSlice_apply _ _ _ _ _ (fun a => by
    match a with
    | ⟨0, _⟩ => rfl
    | ⟨1, _⟩ => exact (Nat.zero_add _).symm
    | ⟨2, _⟩ => exact (Nat.zero_add _).symm)

/-- Slab 1 at (b, k) is the array at (1, b, k). -/
theorem slab1_at (C : FVec Ideal S2x4x8192 .f32) (b : Fin 4) (k : Fin 8192) :
    slab1 C (ix2 b k) = C (ix3 1 b k) := by
  unfold slab1
  rw [shapeCast_1ab_ab_apply]
  exact extractStridedSlice_apply _ _ _ _ _ (fun a => by
    match a with
    | ⟨0, _⟩ => rfl
    | ⟨1, _⟩ => exact (Nat.zero_add _).symm
    | ⟨2, _⟩ => exact (Nat.zero_add _).symm)

theorem rowPart_at (R : FVec Ideal S4x8192 .f32) (b : Fin 4) (n : Fin 8192) :
    rowPart R (ix2 b n) = Ideal.sqrt (max (R (ix2 b n)) 0) := by
  show Ideal.sqrt (max (R (ix2 b n)) (Ideal.ofBits .f32 0x00000000#32)) = _
  rw [Words.ofBits_zero]

theorem colPart_at (C : FVec Ideal S2x4x8192 .f32) (b : Fin 4) (k : Fin 8192) :
    colPart C (ix2 b k) = Ideal.sqrt (max (min (C (ix3 0 b k)) (C (ix3 1 b k))) 0) := by
  show Ideal.sqrt (max (min (slab0 C (ix2 b k)) (slab1 C (ix2 b k))) (Ideal.ofBits .f32 0x00000000#32)) = _
  rw [slab0_at, slab1_at, Words.ofBits_zero]

/-- The sum from 0 over the whole array is the double sum over its coordinates. -/
theorem total_at (v : FVec Ideal S4x8192 .f32) (i : S_.Idx) :
    total v i = ∑ b : Fin 4, ∑ n : Fin 8192, v (ix2 b n) := by
  have e : total v i = (constant (F := Ideal) S_ .f32 0x00000000#32) (Shape.Idx.first h_S_) + ∑ j : S4x8192.Idx, v j := by
    unfold total
    simp only [Host.reduceAdd, Ideal.hostReduceAdd_def]
    exact Ideal.hostReduceAdd_total reducesTo_S4x8192_S_d0_1 (fun b => b.elim0) v _ i
  have h0 : (constant (F := Ideal) S_ .f32 0x00000000#32) (Shape.Idx.first h_S_) = 0 := Words.ofBits_zero
  rw [e, h0, zero_add, sum_idx2]

/-- The tail is `tailLoss` of the two arrays. -/
theorem tailTerm_eq (R : FVec Ideal S4x8192 .f32) (C : FVec Ideal S2x4x8192 .f32) :
    tailTerm R C = fun _ => Cert.Chamfer.tailLoss R C := by
  funext i
  show (Ideal.div (total (rowPart R) i) (Ideal.ofBits .f32 0x47000000#32)
      + Ideal.div (total (colPart C) i) (Ideal.ofBits .f32 0x47000000#32)) * Ideal.ofBits .f32 0x3F800000#32 = _
  rw [total_at, total_at, Words.ofBits_one, mul_one, Words.ofBits_32768]
  simp only [rowPart_at, colPart_at]
  rfl

/-! ## The operations after the region, from any contents -/

set_option maxHeartbeats 1000000 in
/-- From any contents `W` of the buffers, the 24 operations after the region leave the tail of `W`'s two result
    arrays in the result buffer. -/
theorem after_hostOps1 (W : Valuation τ sig (Elt Ideal)) :
    StableHlo.after (hostOps1 (F := Ideal)) W (Proc.devRef .tc main_v29)
      = tailTerm (W (Proc.devRef .tc main_v12_0)) (W (Proc.devRef .tc main_v12_1)) := by
  after_results
  rfl

/-! ## The tail of the program -/

/-- After the region, from the contents the region leaves (its eight arrays at the proof data's final arrays, every
    other buffer as it was), the program's result buffer holds `tailLoss` of the row-minima array (window 6) and
    the column-minima array (window 7). -/
theorem tail_eq (m : (ℓ : Loc nD τ sig) → Buf (Elt Ideal) ℓ)
    (dats : (p : Fin 1) → (c : Dev nD) → Dat τ (Elt Ideal) Unit ℕ (UR sig nD τ) ℕ (cfgs p) c) (c : Dev nD) :
    Pipeline.afterTail₀ cfgs dats 0 (V0 m) [hostOps1] c main_v29
      = fun _ => Cert.Chamfer.tailLoss ((dats 0 c).arrAt 6 cfg0.N) ((dats 0 c).arrAt 7 cfg0.N) := by
  unfold Pipeline.afterTail₀
  have hflat : ([hostOps1] : List (List (HloOp τ sig (Elt Ideal)))).flatten = hostOps1 := by
    simp only [List.flatten_cons, List.flatten_nil, List.append_nil]
  rw [hflat, after_hostOps1]
  have e6 : Pipeline.withArrays (cfgs 0).spec c (V0 m c) (fun w => (dats 0 c).arrAt w (cfgs 0).N) (Proc.devRef .tc main_v12_0)
      = (dats 0 c).arrAt 6 cfg0.N :=
    Pipeline.withArrays_arr spec0 launch0.win.arr_inj c (V0 m c) (fun w => (dats 0 c).arrAt w (cfgs 0).N) 6
  have e7 : Pipeline.withArrays (cfgs 0).spec c (V0 m c) (fun w => (dats 0 c).arrAt w (cfgs 0).N) (Proc.devRef .tc main_v12_1)
      = (dats 0 c).arrAt 7 cfg0.N :=
    Pipeline.withArrays_arr spec0 launch0.win.arr_inj c (V0 m c) (fun w => (dats 0 c).arrAt w (cfgs 0).N) 7
  rw [e6, e7]
  exact tailTerm_eq _ _

end Cert.Chamfer.Host

end
-- ==== Proof.AtReals.Final.lean ====
/-
  The two result arrays after the sweep, and the program's result.
  The row buffer is written back after the last column tile of each row tile, when its entries are the minima over
  all 8192 points of the second cloud; the column buffer after the last position of each core's sweep, when its
  entries are the minima over the 4096 points of the first cloud that core handles. The blocks written back tile the
  two arrays, so each array ends as one function of the clouds; the host operations after the region combine the two
  cores' column minima by a minimum — the minimum over all 8192 points — clamp, root, and add the two means.
-/
import proofs.«115162_j6708738916982_2_alg».proof.Proof.AtReals.Invariant
import proofs.«115162_j6708738916982_2_alg».proof.Proof.AtReals.Sweep
import proofs.«115162_j6708738916982_2_alg».proof.Proof.HostAfter

set_option maxRecDepth 16384

noncomputable section

namespace Cert.KernelIdeal.Tiled

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.Chamfer

variable (m : (ℓ : Loc nD τ sig) → Buf (Elt Ideal) ℓ) (ρ : Dev nD → PrngReg) (c : Dev nD)

/-- The output windows' index maps, decided over the grid: the row window's block is (0, t/8), the column window's (t/64, 0, 0). -/
theorem out_idx : ∀ t : Fin cfg0.N, win0_6.index t (0 : Fin 2) = 0 ∧ win0_6.index t (1 : Fin 2) = t.val / 8
    ∧ win0_7.index t (0 : Fin 3) = t.val / 64 ∧ win0_7.index t (1 : Fin 3) = 0 ∧ win0_7.index t (2 : Fin 3) = 0 :=
  (by decide +kernel : ∀ t : Fin grid0.N, win0_6.index t (0 : Fin 2) = 0 ∧ win0_6.index t (1 : Fin 2) = t.val / 8
    ∧ win0_7.index t (0 : Fin 3) = t.val / 64 ∧ win0_7.index t (1 : Fin 3) = 0 ∧ win0_7.index t (2 : Fin 3) = 0)

/-- For every point of the first cloud, the least squared distance to a point of the second. -/
def rowMinima : S4x8192.Idx → EReal := fun i =>
  Finset.univ.inf fun k : Fin 8192 => sqTiled (cA m c) (cB m c) (i 0) (i 1) k
/-- Per core, for every point of the second cloud, the least squared distance to one of the core's 4096 points of the first. -/
def colMinima : S2x4x8192.Idx → EReal := fun i =>
  Finset.univ.inf fun n' : Fin 4096 => sqTiled (cA m c) (cB m c) (i 1)
    ⟨4096 * (i 0).val + n'.val, by have h0 : (i 0).val < 2 := (i 0).isLt; have := n'.isLt; omega⟩ (i 2)

/-! ## The row minima array -/

theorem flushed6_eq (t : Fin cfg0.N) (h7 : t.val % 8 = 7) :
    (dats m 0 c).flushed 6 t = ((cfg0.win 6).blk t).view.read (Elt Ideal) (rowMinima m c) := by
  show (cfg0.win 6).cut (grid0.coords t) ((dats m 0 c).after 6 t) = _
  rw [after6]
  obtain ⟨e0, e1, -, -, -⟩ := out_idx t
  have hN : t.val < 128 := lt_of_lt_of_eq t.isLt (show cfg0.N = 128 from N_0)
  refine funext fun (j : S4x512.Idx) => ?_
  obtain ⟨b, r, rfl⟩ : ∃ (b : Fin 4) (r : Fin 512), j = ix2 b r := ⟨j 0, j 1, eq_ix2 j⟩
  show (outsAt m c t.val t.isLt).1 (ix2 b r) = rowMinima m c (((cfg0.win 6).blk t).view.emb (ix2 b r))
  have he : ((cfg0.win 6).blk t).view.emb (ix2 b r) = ix2 b ⟨512 * (t.val / 8) + r.val, by have := r.isLt; omega⟩ := by
    funext a; apply Fin.ext
    match a with
    | ⟨0, _⟩ => show win0_6.index t (0 : Fin 2) * 4 + 1 * b.val = b.val; omega
    | ⟨1, _⟩ => show win0_6.index t (1 : Fin 2) * 512 + 1 * r.val = 512 * (t.val / 8) + r.val; omega
  rw [he, (inv m c t.val t.isLt).1 b r]
  exact rowAcc_full _ _ b t.val r.val h7 (by have := r.isLt; omega) r.isLt

theorem mem_blk6 (t : Fin cfg0.N) (i : S4x8192.Idx) :
    i ∈ ((cfg0.win 6).blk t).view.set ↔ ∀ a : Fin 2, win0_6.index t a * S4x512.size a ≤ (i a).val ∧ (i a).val < win0_6.index t a * S4x512.size a + S4x512.size a := by
  show i ∈ ((View.whole main_v12_0).slice (win0_6.rect t)).set ↔ _
  rw [View.set_slice_whole, Rect.mem_set_unit]
  exact Iff.rfl

theorem cover6 (i : S4x8192.Idx) : ∃ t : Fin cfg0.N, (cfg0.win 6).flush t = true ∧ i ∈ ((cfg0.win 6).blk t).view.set := by
  have hi0 : (i 0).val < 4 := (i 0).isLt
  have hi1 : (i 1).val < 8192 := (i 1).isLt
  have hN : cfg0.N = 128 := N_0
  have ht : 8 * ((i 1).val / 512) + 7 < cfg0.N := by rw [hN]; omega
  obtain ⟨e0, e1, -, -, -⟩ := out_idx ⟨8 * ((i 1).val / 512) + 7, ht⟩
  have e1' : win0_6.index ⟨8 * ((i 1).val / 512) + 7, ht⟩ (1 : Fin 2) = (8 * ((i 1).val / 512) + 7) / 8 := e1
  refine ⟨⟨8 * ((i 1).val / 512) + 7, ht⟩, (flush0_6 _).mpr (by show (8 * ((i 1).val / 512) + 7) % 8 = 7; omega), ?_⟩
  rw [mem_blk6]
  intro a
  match a with
  | ⟨0, _⟩ => show win0_6.index _ (0 : Fin 2) * 4 ≤ (i 0).val ∧ (i 0).val < win0_6.index _ (0 : Fin 2) * 4 + 4; omega
  | ⟨1, _⟩ => show win0_6.index _ (1 : Fin 2) * 512 ≤ (i 1).val ∧ (i 1).val < win0_6.index _ (1 : Fin 2) * 512 + 512; omega

/-- The first result array after the run. -/
theorem final6 : (dats m 0 c).arrAt 6 cfg0.N = rowMinima m c :=
  (dats m 0 c).arrAt_eq_of_cover 6 (rowMinima m c) (fun t hf => flushed6_eq m c t ((flush0_6 t).mp hf)) cover6

/-! ## The per-core column minima array -/

theorem flushed7_eq (t : Fin cfg0.N) (h63 : t.val % 64 = 63) :
    (dats m 0 c).flushed 7 t = ((cfg0.win 7).blk t).view.read (Elt Ideal) (colMinima m c) := by
  show (cfg0.win 7).cut (grid0.coords t) ((dats m 0 c).after 7 t) = _
  rw [after7]
  obtain ⟨-, -, e0, e1, e2⟩ := out_idx t
  have hN : t.val < 128 := lt_of_lt_of_eq t.isLt (show cfg0.N = 128 from N_0)
  refine funext fun (j : S1x4x8192.Idx) => ?_
  obtain ⟨z, b, q, rfl⟩ : ∃ (z : Fin 1) (b : Fin 4) (q : Fin 8192), j = ix3 z b q := ⟨j 0, j 1, j 2, eq_ix3 j⟩
  obtain rfl : z = 0 := Subsingleton.elim _ _
  show (outsAt m c t.val t.isLt).2 (ix3 0 b q) = colMinima m c (((cfg0.win 7).blk t).view.emb (ix3 0 b q))
  have he : ((cfg0.win 7).blk t).view.emb (ix3 0 b q) = ix3 (⟨t.val / 64, by omega⟩ : Fin 2) b q := by
    funext a; apply Fin.ext
    match a with
    | ⟨0, _⟩ => show win0_7.index t (0 : Fin 3) * 1 + 1 * 0 = t.val / 64; omega
    | ⟨1, _⟩ => show win0_7.index t (1 : Fin 3) * 4 + 1 * b.val = b.val; omega
    | ⟨2, _⟩ => show win0_7.index t (2 : Fin 3) * 8192 + 1 * q.val = q.val; omega
  rw [he, (inv m c t.val t.isLt).2 b q]
  exact colAcc_full _ _ b t.val h63 hN q

theorem mem_blk7 (t : Fin cfg0.N) (i : S2x4x8192.Idx) :
    i ∈ ((cfg0.win 7).blk t).view.set ↔ ∀ a : Fin 3, win0_7.index t a * S1x4x8192.size a ≤ (i a).val ∧ (i a).val < win0_7.index t a * S1x4x8192.size a + S1x4x8192.size a := by
  show i ∈ ((View.whole main_v12_1).slice (win0_7.rect t)).set ↔ _
  rw [View.set_slice_whole, Rect.mem_set_unit]
  exact Iff.rfl

theorem cover7 (i : S2x4x8192.Idx) : ∃ t : Fin cfg0.N, (cfg0.win 7).flush t = true ∧ i ∈ ((cfg0.win 7).blk t).view.set := by
  have hi0 : (i 0).val < 2 := (i 0).isLt
  have hi1 : (i 1).val < 4 := (i 1).isLt
  have hi2 : (i 2).val < 8192 := (i 2).isLt
  have hN : cfg0.N = 128 := N_0
  have ht : 64 * (i 0).val + 63 < cfg0.N := by rw [hN]; omega
  obtain ⟨-, -, e0, e1, e2⟩ := out_idx ⟨64 * (i 0).val + 63, ht⟩
  have e0' : win0_7.index ⟨64 * (i 0).val + 63, ht⟩ (0 : Fin 3) = (64 * (i 0).val + 63) / 64 := e0
  refine ⟨⟨64 * (i 0).val + 63, ht⟩, (flush0_7 _).mpr (by show (64 * (i 0).val + 63) % 64 = 63; omega), ?_⟩
  rw [mem_blk7]
  intro a
  match a with
  | ⟨0, _⟩ => show win0_7.index _ (0 : Fin 3) * 1 ≤ (i 0).val ∧ (i 0).val < win0_7.index _ (0 : Fin 3) * 1 + 1; omega
  | ⟨1, _⟩ => show win0_7.index _ (1 : Fin 3) * 4 ≤ (i 1).val ∧ (i 1).val < win0_7.index _ (1 : Fin 3) * 4 + 4; omega
  | ⟨2, _⟩ => show win0_7.index _ (2 : Fin 3) * 8192 ≤ (i 2).val ∧ (i 2).val < win0_7.index _ (2 : Fin 3) * 8192 + 8192; omega

/-- The second result array after the run. -/
theorem final7 : (dats m 0 c).arrAt 7 cfg0.N = colMinima m c :=
  (dats m 0 c).arrAt_eq_of_cover 7 (colMinima m c) (fun t hf => flushed7_eq m c t ((flush0_7 t).mp hf)) cover7

/-! ## The host operations after the region -/

/-- The two cores' column minima combined: the minimum over all 8192 points of the first cloud. -/
theorem col_pair (b : Fin 4) (k : Fin 8192) :
    min (colMinima m c (ix3 0 b k)) (colMinima m c (ix3 1 b k))
      = Finset.univ.inf fun n : Fin 8192 => sqTiled (cA m c) (cB m c) b n k := by
  rw [← halves (cA m c) (cB m c) b k]
  refine congrArg₂ min ?_ ?_
  · unfold colMinima
    refine Finset.inf_congr rfl fun n' _ => ?_
    exact congrArg (fun x => sqTiled (cA m c) (cB m c) b x k) (Fin.ext (by show 4096 * 0 + n'.val = n'.val; omega))
  · unfold colMinima
    refine Finset.inf_congr rfl fun n' _ => ?_
    exact congrArg (fun x => sqTiled (cA m c) (cB m c) b x k) (Fin.ext (by show 4096 * 1 + n'.val = 4096 + n'.val; omega))

theorem tail_tiled : tailLoss (rowMinima m c) (colMinima m c) = tiledLoss (cA m c) (cB m c) := by
  unfold tailLoss tiledLoss
  refine congrArg₂ (· + ·) rfl ?_
  refine congrArg (fun s => Ideal.div s cnt) ?_
  refine Finset.sum_congr rfl fun b _ => Finset.sum_congr rfl fun k _ => ?_
  rw [col_pair m c b k]

/-- What the program leaves in its result buffer. -/
theorem result_eq : Pipeline.afterTail₀ cfgs (dats m) 0 (V0 m) [hostOps1] c main_v29 = fun _ => tiledLoss (cA m c) (cB m c) := by
  rw [Cert.Chamfer.Host.tail_eq m (dats m) c, final6, final7, tail_tiled]

/-- THE RUN, READ: every weakly fair execution of the program terminates with its result at the tiled side's closed
    form of the two clouds, the clouds unchanged. -/
theorem kernel_run : θ_run defs (onTc (τ := τ) (main (F := Ideal))) ⟨m, fun _ => 0, ρ⟩ (fun r => ∀ c : Dev nD,
      r.2.mem ((c.tc : Thread nD τ).loc main_v29) = (fun _ => tiledLoss (cA m c) (cB m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v29 (Pipeline.mem_restRefs_of main_v29 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Tiled

end
-- ==== Proof.RefValue.lean ====
/-
  The plain side's program, read back as a closed function of its two arguments.

  The program squares each cloud entrywise and sums over the coordinate (|a|², |b|²), contracts the two clouds
  over the coordinate (a·b), forms (|a|² + |b|²) − 2·(a·b) for every pair of points of a batch, clamps at zero
  and takes the square root, takes the minimum over each of the two point axes starting from +∞, adds the two
  minima pointwise, sums over (batch, point) starting from 0, divides by 32768 and multiplies by 1.
  Read at an index, every stage is the corresponding piece of `Cert.Chamfer.plainLoss`: the sums from 0 lose
  their 0 (0 + s = s), the minimum-folds from +∞ over one axis are infima over that axis (the infimum over the
  empty family is +∞, and inf = min), and the last factor 1 disappears (t · 1 = t).
-/
import proofs.«115162_j6708738916982_2_alg».proof.Proof.Gen.ReferenceIdeal.Read
import proofs.«115162_j6708738916982_2_alg».proof.Proof.ChamferSpec
import proofs.«115162_j6708738916982_2_alg».proof.Proof.ChamferCloud
import proofs.«115162_j6708738916982_2_alg».proof.Proof.LibWords

noncomputable section

namespace Cert.Chamfer.Ref

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

variable (x y : (⟨S4x8192x3, .f32⟩ : BufTy).Contents (Elt Ideal))

/-! ## The squared norms and the inner product -/

/-- The index (b, n) with the coordinate d put on the contracted axis is (b, n, d). -/
theorem idx_v1 (b : Fin 4) (n : Fin 8192) (d : Fin 3) : idx_main_v1 (ix2 b n) d = ix3 b n d :=
  funext fun a => by match a with | ⟨0, _⟩ => rfl | ⟨1, _⟩ => rfl | ⟨2, _⟩ => rfl

/-- |a|² of point n of the first cloud: the sum over the coordinate, the initial 0 gone. -/
theorem v1_at (b : Fin 4) (n : Fin 8192) :
    val_main_v1 (F := Ideal) x (ix2 b n) = ∑ d : Fin 3, x (ix3 b n d) * x (ix3 b n d) := by
  rw [val_main_v1_apply]
  have h0 : val_main_cst (F := Ideal) (Shape.Idx.first h_S_) = 0 := Words.ofBits_zero
  rw [h0, zero_add]
  refine Finset.sum_congr rfl fun d _ => ?_
  rw [idx_v1]; rfl

/-- |b|² of point m of the second cloud. -/
theorem v3_at (b : Fin 4) (m : Fin 8192) :
    val_main_v3 (F := Ideal) y (ix2 b m) = ∑ d : Fin 3, y (ix3 b m d) * y (ix3 b m d) := by
  rw [val_main_v3_apply]
  have h0 : val_main_cst_0 (F := Ideal) (Shape.Idx.first h_S_) = 0 := Words.ofBits_zero
  rw [h0, zero_add]
  refine Finset.sum_congr rfl fun d _ => ?_
  rw [show idx_main_v3 (ix2 b m) d = ix3 b m d from idx_v1 b m d]; rfl

/-- a·b for point n of the first cloud and point m of the second. -/
theorem v4_at (b : Fin 4) (n m : Fin 8192) :
    val_main_v4 (F := Ideal) x y (ix3 b n m) = ∑ d : Fin 3, x (ix3 b n d) * y (ix3 b m d) := by
  rw [val_main_v4_apply]
  refine Finset.sum_congr rfl fun d _ => ?_
  have el : lidx_main_v4 (ix3 b n m) d = ix3 b n d :=
    funext fun a => by match a with | ⟨0, _⟩ => rfl | ⟨1, _⟩ => rfl | ⟨2, _⟩ => rfl
  have er : ridx_main_v4 (ix3 b n m) d = ix3 b m d :=
    funext fun a => by match a with | ⟨0, _⟩ => rfl | ⟨1, _⟩ => rfl | ⟨2, _⟩ => rfl
  rw [el, er]

/-! ## The squared distance and the distance of a pair -/

/-- (|a|² + |b|²) − 2·(a·b) at (b, n, m) is `sqPlain`. -/
theorem v12_at (b : Fin 4) (n m : Fin 8192) :
    val_main_v12 (F := Ideal) x y (ix3 b n m) = sqPlain (cloud x) (cloud y) b n m := by
  rw [val_main_v12_apply, val_main_v9_apply, val_main_v7_apply, val_main_v5_apply, val_main_v8_apply, val_main_v6_apply,
    val_main_v11_apply, val_main_v10_apply, val_main_cst_1_apply]
  have e1 : idx_main_v5 (idx_main_v7 (ix3 b n m)) = ix2 b n :=
    funext fun a => by match a with | ⟨0, _⟩ => rfl | ⟨1, _⟩ => rfl
  have e2 : idx_main_v6 (idx_main_v8 (ix3 b n m)) = ix2 b m :=
    funext fun a => by match a with | ⟨0, _⟩ => rfl | ⟨1, _⟩ => rfl
  rw [e1, e2, v1_at, v3_at, v4_at]
  simp only [Ideal.subf_def, Ideal.addf_def, Ideal.mulf_def, Ideal.ofBits_def, Words.ofBits_two]
  rfl

/-- Clamped at zero, then the square root: `dist`. -/
theorem v15_at (b : Fin 4) (n m : Fin 8192) :
    val_main_v15 (F := Ideal) x y (ix3 b n m) = dist (cloud x) (cloud y) b n m := by
  rw [val_main_v15_apply, val_main_v14_apply, val_main_v13_apply, val_main_cst_2_apply, v12_at]
  simp only [Ideal.hostUnary_sqrt_def, Ideal.maximumf_def, Ideal.ofBits_def, Words.ofBits_zero]
  rfl

/-! ## The two minima -/

theorem red2 : S4x8192x8192.Reduces [2] S4x8192 := by decide
theorem red1 : S4x8192x8192.Reduces [1] S4x8192 := by decide

/-- (b, k) with m inserted on the last axis is (b, k, m). -/
theorem lift2 (b : Fin 4) (k : Fin 8192) (m : Fin 8192) : red2.lift (ix2 b k) m = ix3 b k m := by
  funext c; apply Fin.ext
  match c with
  | ⟨0, _⟩ => rfl
  | ⟨1, _⟩ => rfl
  | ⟨2, _⟩ => rfl

/-- (b, k) with n inserted on the middle axis is (b, n, k). -/
theorem lift1 (b : Fin 4) (k : Fin 8192) (n : Fin 8192) : red1.lift (ix2 b k) n = ix3 b n k := by
  funext c; apply Fin.ext
  match c with
  | ⟨0, _⟩ => rfl
  | ⟨1, _⟩ => rfl
  | ⟨2, _⟩ => rfl

/-- The minimum over the second cloud's points, from +∞: the infimum over m of the distances from point k. -/
theorem v16_at (b : Fin 4) (k : Fin 8192) :
    val_main_v16 (F := Ideal) x y (ix2 b k) = Finset.univ.inf fun m : Fin 8192 => dist (cloud x) (cloud y) b k m := by
  unfold val_main_v16
  rw [Host.reduce_eq_fold_single FloatOps.minimumf _ _ reducesTo_S4x8192x8192_S4x8192_d2 red2 h_S_]
  have h0 : val_main_cst_3 (F := Ideal) (Shape.Idx.first h_S_) = ⊤ := Words.ofBits_top
  rw [h0]
  have hf : (fun m : Fin 8192 => val_main_v15 (F := Ideal) x y (red2.lift (ix2 b k) m))
      = fun m : Fin 8192 => dist (cloud x) (cloud y) b k m :=
    funext fun m => (congrArg (val_main_v15 (F := Ideal) x y) (lift2 b k m)).trans (v15_at x y b k m)
  show Finset.fold min ⊤ (fun m : Fin 8192 => val_main_v15 (F := Ideal) x y (red2.lift (ix2 b k) m))
    (Finset.univ : Finset (Fin 8192)) = _
  rw [hf]; rfl

/-- The minimum over the first cloud's points, from +∞: the infimum over n of the distances to point k. -/
theorem v17_at (b : Fin 4) (k : Fin 8192) :
    val_main_v17 (F := Ideal) x y (ix2 b k) = Finset.univ.inf fun n : Fin 8192 => dist (cloud x) (cloud y) b n k := by
  unfold val_main_v17
  rw [Host.reduce_eq_fold_single FloatOps.minimumf _ _ reducesTo_S4x8192x8192_S4x8192_d1 red1 h_S_]
  have h0 : val_main_cst_4 (F := Ideal) (Shape.Idx.first h_S_) = ⊤ := Words.ofBits_top
  rw [h0]
  have hf : (fun n : Fin 8192 => val_main_v15 (F := Ideal) x y (red1.lift (ix2 b k) n))
      = fun n : Fin 8192 => dist (cloud x) (cloud y) b n k :=
    funext fun n => (congrArg (val_main_v15 (F := Ideal) x y) (lift1 b k n)).trans (v15_at x y b n k)
  show Finset.fold min ⊤ (fun n : Fin 8192 => val_main_v15 (F := Ideal) x y (red1.lift (ix2 b k) n))
    (Finset.univ : Finset (Fin 8192)) = _
  rw [hf]; rfl

/-! ## The mean -/

/-- The sum over (batch, point) of the two minima, the initial 0 gone, as the double sum over the coordinates. -/
theorem v19_at (i : S_.Idx) :
    val_main_v19 (F := Ideal) x y i = ∑ b : Fin 4, ∑ k : Fin 8192,
      ((Finset.univ.inf fun m : Fin 8192 => dist (cloud x) (cloud y) b k m)
        + (Finset.univ.inf fun n : Fin 8192 => dist (cloud x) (cloud y) b n k)) := by
  rw [val_main_v19_apply]
  have h0 : val_main_cst_5 (F := Ideal) (Shape.Idx.first h_S_) = 0 := Words.ofBits_zero
  rw [h0, zero_add, sum_idx2]
  refine Finset.sum_congr rfl fun b _ => Finset.sum_congr rfl fun k _ => ?_
  rw [val_main_v18_apply, v16_at, v17_at]
  rfl

/-- The whole program's result is `plainLoss` of the two clouds. -/
theorem result_eq : val_main_v21 (F := Ideal) x y = fun _ => plainLoss (cloud x) (cloud y) := by
  funext i
  rw [val_main_v21_apply, val_main_v20_apply, val_main_cst_7_apply, val_main_cst_6_apply, v19_at]
  simp only [Ideal.mulf_def, Ideal.hostDivf_def, Ideal.ofBits_def, Words.ofBits_one, Words.ofBits_32768, mul_one]
  rfl

/-! ## The run -/

/-- Every weakly fair execution of the plain side's program terminates with its result at `plainLoss` of the two
    argument arrays read as clouds, the arguments unchanged. -/
theorem ref_run (m' : (ℓ : Loc nD τ sig) → Buf (Elt Ideal) ℓ) (ρ' : Dev nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v21)
            = (fun _ => plainLoss (cloud (m' ((c.tc : Thread Cert.ReferenceIdeal.nD Cert.ReferenceIdeal.τ).loc Cert.ReferenceIdeal.main_arg0)))
                (cloud (m' ((c.tc : Thread Cert.ReferenceIdeal.nD Cert.ReferenceIdeal.τ).loc Cert.ReferenceIdeal.main_arg1))))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) :=
  (θ_run Cert.ReferenceIdeal.defs _ _).mono
    (fun _ h c => ⟨(h c).1.trans ((val_main_v21_eq (F := Ideal) _ _).trans (result_eq _ _)), (h c).2⟩)
    (Cert.ReferenceIdeal.Value.run (F := Ideal) m' ρ')

end Cert.Chamfer.Ref

end
-- ==== Proof.FiniteInputs.lean ====
/-
  From the precondition to real entries.

  The precondition computes, for each of the two arrays, whether |v| < +∞ holds at every entry (the conjunction
  over all entries, started from "true"), and then the conjunction of the two answers. If the answer is "true",
  every entry v of either array has max v (−v) < +∞; an extended real with that property is neither −∞ (whose
  negation is +∞) nor +∞, so it is a real number.
-/
import proofs.«115162_j6708738916982_2_alg».proof.Proof.Gen.Pre_finite_inputs
import proofs.«115162_j6708738916982_2_alg».proof.Proof.LibWords
import Idealize.ShloMosaic.Lib.ReduceAll
import Idealize.ShloMosaic.Lib.ValueIdx
import Idealize.ShloMosaic.PureOps.Ideal.Laws

noncomputable section

namespace Cert.Chamfer.Finite

open Cert.Pre_finite_inputs Cert.Pre_finite_inputs.Gen Idealize.ShloMosaic Idealize.ShloMosaic.ValueIdx

/-- The scalar shape has one index. -/
instance : Subsingleton S_.Idx := ⟨fun _ _ => funext fun d => d.elim0⟩

/-- An extended real whose absolute value max v (−v) lies below +∞ is a real. -/
theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- The comparison "|v| < the pattern of +∞" answering "true" says that v is a real. -/
theorem real_of_cmp (v : EReal)
    (h : Ideal.cmp .olt (max v (-v)) (Ideal.ofBits .f32 0x7F800000#32) = 1#1) : ∃ r : ℝ, v = (r : EReal) := by
  rw [Words.ofBits_top] at h
  refine real_of_abs_lt_top v ?_
  by_contra hn
  have : Ideal.cmp .olt (max v (-v)) ⊤ = 0#1 := by
    unfold Ideal.cmp
    simp only [decide_eq_false hn]
    rfl
  rw [this] at h
  exact absurd h (by decide)

/-- If the precondition answers "true" on two arrays, every entry of either is a real. -/
theorem real_of_fn (x y : FVec Ideal S4x8192x3 .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ix0
  dsimp only [fn] at h0
  obtain ⟨h1, h2⟩ := IntOp.andi_eq_one.1 h0
  refine ⟨fun i => ?_, fun i => ?_⟩
  · have e := Host.reduce_andi_all _ _ _ _ ix0 h1 i
    exact real_of_cmp (x i) e
  · have e := Host.reduce_andi_all _ _ _ _ ix0 h2 i
    exact real_of_cmp (y i) e

end Cert.Chamfer.Finite

end
-- ==== Proof.LibInfSqrt.lean ====
/-
  The clamped square root on the extended reals, finite infima, and means of nearest-neighbour distances.

  Write `clampSqrt s = √(max s 0)`. On the extended reals it is monotone and sends `⊤` to `⊤`, so it
  commutes with the infimum of any finite family (the infimum of the empty family being `⊤`):
  "the root of the least squared distance is the least distance". The infimum of a NONEMPTY finite family
  of reals is a real, and `clampSqrt` of a real is a real; so the nearest-neighbour distances are reals,
  and sums and means of them obey the laws of real arithmetic. The last theorem is the consequence used for
  a two-sided nearest-neighbour loss: the mean of the row minima plus the mean of the column minima is
  the mean of their sums, with the root taken before or after the minimum.
-/
import Mathlib.Data.EReal.Operations
import Mathlib.Data.EReal.Inv
import Mathlib.Analysis.SpecialFunctions.Sqrt
import Mathlib.Data.Finset.Lattice.Fold
import Mathlib.Algebra.BigOperators.Group.Finset.Basic
import Idealize.ShloMosaic.PureOps.Ideal

noncomputable section

namespace Cert.Lib

open Idealize.ShloMosaic

/-- Clamp at zero from below, then take the square root. -/
def clampSqrt (s : EReal) : EReal := Ideal.sqrt (max s 0)

theorem clampSqrt_def (s : EReal) : Ideal.sqrt (max s 0) = clampSqrt s := rfl

/-- At `⊤` the clamped root is `⊤`. -/
theorem clampSqrt_top : clampSqrt ⊤ = ⊤ := by
  unfold clampSqrt
  rw [max_eq_left le_top]
  exact Ideal.sqrt_top

/-- At a real `r` the clamped root is the real `√(max r 0)`. -/
theorem clampSqrt_coe (r : ℝ) : clampSqrt (r : EReal) = ((Real.sqrt (max r 0) : ℝ) : EReal) := by
  unfold clampSqrt
  rcases le_total r 0 with h | h
  · have h' : (r : EReal) ≤ 0 := by exact_mod_cast h
    rw [max_eq_right h', max_eq_right h, ← EReal.coe_zero, Ideal.sqrt_coe, if_neg (lt_irrefl _)]
  · have h' : (0 : EReal) ≤ (r : EReal) := by exact_mod_cast h
    rw [max_eq_left h', max_eq_left h, Ideal.sqrt_coe, if_neg (not_lt.2 h)]

/-- At `⊥` the clamp gives zero, whose root is zero. -/
theorem clampSqrt_bot : clampSqrt ⊥ = 0 := by
  unfold clampSqrt
  rw [max_eq_right bot_le, ← EReal.coe_zero, Ideal.sqrt_coe, if_neg (lt_irrefl _), Real.sqrt_zero]

/-- The clamped root is never negative. -/
theorem clampSqrt_nonneg (x : EReal) : 0 ≤ clampSqrt x := by
  induction x using EReal.rec with
  | bot => rw [clampSqrt_bot]
  | coe r =>
    rw [clampSqrt_coe]
    exact_mod_cast Real.sqrt_nonneg _
  | top =>
    rw [clampSqrt_top]
    exact le_top

/-- The clamped root is monotone on the extended reals: both the clamp and the root are. -/
theorem clampSqrt_mono : Monotone clampSqrt := by
  intro x y hxy
  induction y using EReal.rec with
  | top =>
    rw [clampSqrt_top]
    exact le_top
  | bot =>
    have hx : x = ⊥ := le_bot_iff.1 hxy
    rw [hx]
  | coe s =>
    induction x using EReal.rec with
    | bot =>
      rw [clampSqrt_bot]
      exact clampSqrt_nonneg _
    | top =>
      exact absurd (top_le_iff.1 hxy) (EReal.coe_ne_top s)
    | coe r =>
      have h : r ≤ s := by exact_mod_cast hxy
      rw [clampSqrt_coe, clampSqrt_coe]
      exact_mod_cast Real.sqrt_le_sqrt (max_le_max h le_rfl)

/-- The clamped root commutes with the infimum of a finite family: it is monotone on a linear order and
    keeps `⊤`, the infimum of the empty family. -/
theorem clampSqrt_inf {ι : Type*} (s : Finset ι) (g : ι → EReal) :
    clampSqrt (s.inf g) = s.inf fun i => clampSqrt (g i) :=
  Finset.apply_inf_eq_inf_comp_of_linearOrder clampSqrt clampSqrt_mono clampSqrt_top

/-- The infimum of a nonempty finite family of reals is a real. -/
theorem inf_coe_real {ι : Type*} (s : Finset ι) (hs : s.Nonempty) (g : ι → ℝ) :
    ∃ r : ℝ, s.inf (fun i => (g i : EReal)) = (r : EReal) := by
  classical
  revert hs
  refine Finset.induction_on s ?_ ?_
  · intro h
    exact absurd h Finset.not_nonempty_empty
  · intro i t _ ih _
    rw [Finset.inf_insert]
    rcases t.eq_empty_or_nonempty with h | h
    · subst h
      exact ⟨g i, by rw [Finset.inf_empty, inf_top_eq]⟩
    · obtain ⟨r, hr⟩ := ih h
      rw [hr]
      rcases le_total (g i) r with h' | h'
      · exact ⟨g i, inf_eq_left.2 (by exact_mod_cast h')⟩
      · exact ⟨r, inf_eq_right.2 (by exact_mod_cast h')⟩

/-- The clamped root of the infimum of a nonempty finite family of reals is a real. -/
theorem clampSqrt_inf_coe_real {ι : Type*} (s : Finset ι) (hs : s.Nonempty) (g : ι → ℝ) :
    ∃ r : ℝ, clampSqrt (s.inf fun i => (g i : EReal)) = (r : EReal) := by
  obtain ⟨r, hr⟩ := inf_coe_real s hs g
  exact ⟨Real.sqrt (max r 0), by rw [hr, clampSqrt_coe]⟩

/-- The coercion of the reals into the extended reals commutes with finite sums. -/
theorem coe_finset_sum {ι : Type*} (s : Finset ι) (g : ι → ℝ) :
    ((∑ i ∈ s, g i : ℝ) : EReal) = ∑ i ∈ s, (g i : EReal) := by
  classical
  refine Finset.induction_on s ?_ ?_
  · rw [Finset.sum_empty, Finset.sum_empty, EReal.coe_zero]
  · intro i t hi ih
    rw [Finset.sum_insert hi, Finset.sum_insert hi, EReal.coe_add, ih]

/-- Means of real families: dividing two sums of reals by the same nonzero real and adding is dividing
    the sum of the termwise sums. -/
theorem div_sum_add_div_sum {ι κ : Type*} [Fintype ι] [Fintype κ] (c : ℝ) (hc : c ≠ 0)
    (R C : ι → κ → ℝ) :
    Ideal.div (∑ b : ι, ∑ k : κ, (R b k : EReal)) (c : EReal)
        + Ideal.div (∑ b : ι, ∑ k : κ, (C b k : EReal)) (c : EReal)
      = Ideal.div (∑ b : ι, ∑ k : κ, ((R b k : EReal) + (C b k : EReal))) (c : EReal) := by
  rw [Ideal.div_coe hc, Ideal.div_coe hc, Ideal.div_coe hc]
  simp only [← EReal.coe_add, ← coe_finset_sum, ← EReal.coe_mul]
  congr 1
  simp only [Finset.sum_add_distrib]
  ring

/-- The two-sided nearest-neighbour loss. For a real square family `s b n m` (batch `b`, row `n`,
    column `m`; the point index type nonempty), the mean over `(b, n)` of the clamped root of the row
    minimum plus the mean over `(b, m)` of the clamped root of the column minimum equals the mean over
    `(b, k)` of the row minimum plus the column minimum of the clamped roots themselves. -/
theorem mean_min_add_mean_min {ι κ : Type*} [Fintype ι] [Fintype κ] [Nonempty κ] (c : ℝ) (hc : c ≠ 0)
    (s : ι → κ → κ → ℝ) :
    Ideal.div (∑ b : ι, ∑ n : κ, Ideal.sqrt (max (Finset.univ.inf fun m : κ => (s b n m : EReal)) 0)) (c : EReal)
        + Ideal.div (∑ b : ι, ∑ m : κ, Ideal.sqrt (max (Finset.univ.inf fun n : κ => (s b n m : EReal)) 0)) (c : EReal)
      = Ideal.div (∑ b : ι, ∑ k : κ,
          ((Finset.univ.inf fun m : κ => Ideal.sqrt (max (s b k m : EReal) 0))
            + (Finset.univ.inf fun n : κ => Ideal.sqrt (max (s b n k : EReal) 0)))) (c : EReal) := by
  simp only [clampSqrt_def]
  have hrow : ∀ b : ι, ∀ n : κ, ∃ r : ℝ,
      clampSqrt (Finset.univ.inf fun m : κ => (s b n m : EReal)) = (r : EReal) :=
    fun b n => clampSqrt_inf_coe_real Finset.univ Finset.univ_nonempty fun m => s b n m
  have hcol : ∀ b : ι, ∀ m : κ, ∃ r : ℝ,
      clampSqrt (Finset.univ.inf fun n : κ => (s b n m : EReal)) = (r : EReal) :=
    fun b m => clampSqrt_inf_coe_real Finset.univ Finset.univ_nonempty fun n => s b n m
  choose R hR using hrow
  choose C hC using hcol
  have hrow' : ∀ b : ι, ∀ k : κ,
      (Finset.univ.inf fun m : κ => clampSqrt (s b k m : EReal)) = (R b k : EReal) := by
    intro b k
    rw [← clampSqrt_inf, hR]
  have hcol' : ∀ b : ι, ∀ k : κ,
      (Finset.univ.inf fun n : κ => clampSqrt (s b n k : EReal)) = (C b k : EReal) := by
    intro b k
    rw [← clampSqrt_inf, hC]
  simp only [hR, hC, hrow', hcol']
  exact div_sum_add_div_sum c hc R C

end Cert.Lib

end
-- ==== Proof.ChamferLaw.lean ====
/-
  The main law: on point clouds whose every coordinate is a real number, the tiled spelling of the
  two-sided nearest-neighbour loss and the plain one agree.

  With real coordinates the two spellings of the squared distance are the same real number
  (`2·Σ_d a_d·b_d = Σ_d a_d·(2·b_d)` is distributivity, valid for reals). The tiled side takes the minimum of
  the squared distances and then the clamped root; the plain side takes the clamped root of every pair and
  then the minimum. The clamped root is monotone and keeps `⊤`, so it commutes with the finite minimum.
  Every minimum is over a nonempty family of reals, hence real, and so is its clamped root; the two means
  on the tiled side therefore add up to the single mean on the plain side by real arithmetic.
-/
import proofs.«115162_j6708738916982_2_alg».proof.Proof.ChamferSpec
import proofs.«115162_j6708738916982_2_alg».proof.Proof.LibInfSqrt
import Mathlib.Algebra.BigOperators.Fin
import Mathlib.Tactic.Ring

noncomputable section

namespace Cert.Chamfer

open Idealize.ShloMosaic Cert.Lib

/-- The squared distance of two points with real coordinates, as a real number. -/
def sqReal (a b : Fin 4 → Fin 8192 → Fin 3 → ℝ) (i : Fin 4) (n m : Fin 8192) : ℝ :=
  ((a i n 0 * a i n 0 + a i n 1 * a i n 1 + a i n 2 * a i n 2)
      + (b i m 0 * b i m 0 + b i m 1 * b i m 1 + b i m 2 * b i m 2))
    - (a i n 0 * (2 * b i m 0) + a i n 1 * (2 * b i m 1) + a i n 2 * (2 * b i m 2))

/-- On real clouds the tiled spelling of the squared distance is the real squared distance. -/
theorem sqTiled_coe (a b : Fin 4 → Fin 8192 → Fin 3 → ℝ) (i : Fin 4) (n m : Fin 8192) :
    sqTiled (fun i n d => (a i n d : EReal)) (fun i n d => (b i n d : EReal)) i n m
      = (sqReal a b i n m : EReal) := by
  unfold sqTiled sqReal two
  simp only [← EReal.coe_mul, ← EReal.coe_add, ← EReal.coe_sub]

/-- On real clouds the plain spelling of the squared distance is the same real: the three-term sums
    unfold, and `2·(x + y + z) = x·2 + y·2 + z·2` over the reals. -/
theorem sqPlain_coe (a b : Fin 4 → Fin 8192 → Fin 3 → ℝ) (i : Fin 4) (n m : Fin 8192) :
    sqPlain (fun i n d => (a i n d : EReal)) (fun i n d => (b i n d : EReal)) i n m
      = (sqReal a b i n m : EReal) := by
  unfold sqPlain sqReal two
  simp only [Fin.sum_univ_three, ← EReal.coe_mul, ← EReal.coe_add, ← EReal.coe_sub]
  congr 1
  ring

/-- The tiled loss and the plain loss agree on clouds of reals. -/
theorem tiledLoss_eq_plainLoss (A B : Fin 4 → Fin 8192 → Fin 3 → EReal)
    (hA : ∀ b n d, ∃ r : ℝ, A b n d = (r : EReal)) (hB : ∀ b n d, ∃ r : ℝ, B b n d = (r : EReal)) :
    tiledLoss A B = plainLoss A B := by
  choose a ha using hA
  choose b hb using hB
  have hA' : A = fun i n d => (a i n d : EReal) := by
    funext i n d
    exact ha i n d
  have hB' : B = fun i n d => (b i n d : EReal) := by
    funext i n d
    exact hb i n d
  subst hA' hB'
  haveI : Nonempty (Fin 8192) := ⟨⟨0, by omega⟩⟩
  unfold tiledLoss plainLoss dist cnt
  simp only [sqTiled_coe, sqPlain_coe]
  exact mean_min_add_mean_min 32768 (by norm_num) (sqReal a b)

end Cert.Chamfer

end
-- ==== Proof.Claims.lean ====
/-
  The five claims.
  Frames: the tiled program runs, at machine words and at the extended reals, by the sweep's body obligation (one run
  per case of the two resets) and leaves its argument arrays alone; the plain program by its run read back.
  The idealization rewrote nothing, so it preserves trivially.
  Value: at the extended reals the tiled program's result is `tiledLoss` of the two clouds (the invariant of the sweep,
  the write-backs, the host operations after the region) and the plain program's is `plainLoss`; with every input entry
  a real number — the precondition — the two are equal: the doubled inner product distributes, clamping and rooting
  are monotone and so commute with the minima, and the two means of equally many terms add to the mean of the sums.
-/
import proofs.«115162_j6708738916982_2_alg».proof.Proof.AtWords.Sweep
import proofs.«115162_j6708738916982_2_alg».proof.Proof.AtReals.Final
import proofs.«115162_j6708738916982_2_alg».proof.Proof.RefValue
import proofs.«115162_j6708738916982_2_alg».proof.Proof.FiniteInputs
import proofs.«115162_j6708738916982_2_alg».proof.Proof.ChamferLaw
import proofs.«115162_j6708738916982_2_alg».proof.Proof.Gen.ReferenceIdeal.Run
import proofs.«115162_j6708738916982_2_alg».proof.Defs

noncomputable section

namespace Cert.Proof.ChamferClaims

open Idealize.ShloMosaic Idealize.ShloMosaic.TcCoe Idealize.SL.Sem Idealize.ShloMosaic.ValueIdx Cert.Chamfer

theorem frame_kernel : Cert.frame_Kernel := fun m ρ _ => Cert.Kernel.Tiled.frame m ρ
theorem frame_ideal : Cert.frame_KernelIdeal := fun m ρ _ => Cert.KernelIdeal.Tiled.frame m ρ
theorem frame_plain : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Under the precondition every entry of a cloud is a real number. -/
theorem real_clouds (m : (ℓ : Loc Cert.KernelIdeal.nD Cert.KernelIdeal.τ Cert.KernelIdeal.sig) → Buf (Elt Ideal) ℓ)
    (h : Cert.Pre_KernelIdeal m) (c : Dev Cert.KernelIdeal.nD) :
    (∀ b n d, ∃ r : ℝ, Cert.KernelIdeal.Tiled.cA m c b n d = (r : EReal))
    ∧ (∀ b n d, ∃ r : ℝ, Cert.KernelIdeal.Tiled.cB m c b n d = (r : EReal)) := by
  obtain ⟨hx, hy⟩ := Cert.Chamfer.Finite.real_of_fn _ _ (h c)
  exact ⟨fun b n d => hx (ix3 b n d), fun b n d => hy (ix3 b n d)⟩

theorem algebraic : Cert.algebraic_KernelIdeal_ReferenceIdeal := by
  intro m ρ m' ρ' hpre hagree
  refine ⟨fun c _ => tiledLoss (Cert.KernelIdeal.Tiled.cA m c) (Cert.KernelIdeal.Tiled.cB m c),
    Cert.KernelIdeal.Tiled.kernel_run m ρ, ?_⟩
  refine (θ_run Cert.ReferenceIdeal.defs _ _).mono (fun _ h c => ⟨(h c).1.trans ?_, (h c).2⟩)
    (Cert.Chamfer.Ref.ref_run m' ρ')
  obtain ⟨hA, hB⟩ := real_clouds m hpre c
  rw [(hagree c).1, (hagree c).2]
  funext _
  exact (tiledLoss_eq_plainLoss _ _ hA hB).symm

end Cert.Proof.ChamferClaims

end
-- ==== Proof.lean ====
/- The proof of `Cert.Claim`: a Chamfer loss computed tile by tile — the minima of the squared distances kept in
   running row and column buffers over a (core, row tile, column tile) sweep, clamped and rooted at the end — against
   the plain computation that roots every pairwise distance first. The five claims are proved in Proof/Claims.lean
   (its header says how) and assembled here behind the witnesses of the programs' stated facts. -/
import proofs.«115162_j6708738916982_2_alg».proof.Defs
import proofs.«115162_j6708738916982_2_alg».proof.Proof.Claims
import proofs.«115162_j6708738916982_2_alg».proof.Proof.Gen.Kernel
import proofs.«115162_j6708738916982_2_alg».proof.Proof.Gen.KernelIdeal
import proofs.«115162_j6708738916982_2_alg».proof.Proof.Gen.ReferenceIdeal
import proofs.«115162_j6708738916982_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    ChamferClaims.frame_kernel, ChamferClaims.frame_ideal, ChamferClaims.frame_plain, ChamferClaims.preserves,
    ChamferClaims.algebraic⟩

end Cert.Proof

end
